-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v25)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v25) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v45) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S1 : Shape := ⟨1, ![1]⟩
abbrev S2x1600000 : Shape := ⟨2, ![2, 1600000]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S1 : S_.BroadcastsInDim S1 (![] : Fin 0 → Fin S1.rank)
  reducesTo_S1_S_d0 : S1.ReducesTo [0] S_

variable [Facts]

def fn {F : FTy → Type} [FloatOps F] (main_arg0 : FVec F S100000x128 .f32) (main_arg1 : FVec F S1 .f32) (main_arg2 : IVec S2x1600000 32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S1 .f32 := Host.absf main_arg1
  let main_cst_0 : FVec F S_ .f32 := constant S_ .f32 0x7F800000#32
  let main_v5 : FVec F S1 .f32 := broadcastInDim S1 ![] bcast_S_S1 main_cst_0
  let main_v6 : IVec S1 1 := cmpf .olt main_v4 main_v5
  let main_c_1 : IVec S_ 1 := constantI S_ 1 1#1
  let main_v7 : IVec S_ 1 := (fun x v => Host.reduce IntOp.andi x v reducesTo_S1_S_d0 h_S_) main_v6 main_c_1
  let main_v8 : IVec S_ 1 := andi main_v3 main_v7
  main_v8
-- ==== Kernel.lean ====
abbrev S100000x128 : Shape := ⟨2, ![100000, 128]⟩
abbrev S1 : Shape := ⟨1, ![1]⟩
abbrev S2x1600000 : Shape := ⟨2, ![2, 1600000]⟩
abbrev S100000 : Shape := ⟨1, ![100000]⟩
abbrev S1x1600000 : Shape := ⟨2, ![1, 1600000]⟩
abbrev S1600000 : Shape := ⟨1, ![1600000]⟩
abbrev S1700000 : Shape := ⟨1, ![1700000]⟩
abbrev S10000x128 : Shape := ⟨2, ![10000, 128]⟩
abbrev S10000 : Shape := ⟨1, ![10000]⟩
abbrev S10000x1 : Shape := ⟨2, ![10000, 1]⟩
abbrev S_ : Shape := ⟨0, ![]⟩
abbrev S1700000x1 : Shape := ⟨2, ![1700000, 1]⟩
abbrev S1700000x128 : Shape := ⟨2, ![1700000, 128]⟩
abbrev S1x100000 : Shape := ⟨2, ![1, 100000]⟩
abbrev S1x1 : Shape := ⟨2, ![1, 1]⟩
abbrev S5888x128 : Shape := ⟨2, ![5888, 128]⟩
abbrev S1x5888 : Shape := ⟨2, ![1, 5888]⟩
abbrev S5888 : Shape := ⟨1, ![5888]⟩
abbrev S5888x1 : Shape := ⟨2, ![5888, 1]⟩

abbrev nBuf : Space → Nat
  | .hbm => 34
  | .vmem => 13
  | .smem => 0
  | _ => 0

abbrev bufTy : (tb : Table) → Fin (tcTables nBuf tb) → BufTy
  | .hbm, ⟨0, _⟩ => ⟨S100000x128, .f32⟩
  | .hbm, ⟨1, _⟩ => ⟨S1, .f32⟩
  | .hbm, ⟨2, _⟩ => ⟨S2x1600000, .i32⟩
  | .hbm, ⟨3, _⟩ => ⟨S100000, .i32⟩
  | .hbm, ⟨4, _⟩ => ⟨S1x1600000, .i32⟩
  | .hbm, ⟨5, _⟩ => ⟨S1600000, .i32⟩
  | .hbm, ⟨6, _⟩ => ⟨S1700000, .i32⟩
  | .hbm, ⟨7, _⟩ => ⟨S1x1600000, .i32⟩
  | .hbm, ⟨8, _⟩ => ⟨S1600000, .i32⟩
  | .hbm, ⟨9, _⟩ => ⟨S1700000, .i32⟩
  | .hbm, ⟨10, _⟩ => ⟨S100000x128, .f32⟩
  | .hbm, ⟨11, _⟩ => ⟨S_, .i32⟩
  | .hbm, ⟨12, _⟩ => ⟨S1700000, .i32⟩
  | .hbm, ⟨13, _⟩ => ⟨S1700000, .i1⟩
  | .hbm, ⟨14, _⟩ => ⟨S_, .i32⟩
  | .hbm, ⟨15, _⟩ => ⟨S1700000, .i32⟩
  | .hbm, ⟨16, _⟩ => ⟨S1700000, .i32⟩
  | .hbm, ⟨17, _⟩ => ⟨S1700000, .i32⟩
  | .hbm, ⟨18, _⟩ => ⟨S1700000x1, .i32⟩
  | .hbm, ⟨19, _⟩ => ⟨S1700000x128, .f32⟩
  | .hbm, ⟨20, _⟩ => ⟨S_, .f32⟩
  | .hbm, ⟨21, _⟩ => ⟨S100000x128, .f32⟩
  | .hbm, ⟨22, _⟩ => ⟨S1700000x1, .i32⟩
  | .hbm, ⟨23, _⟩ => ⟨S100000x128, .f32⟩
  | .hbm, ⟨24, _⟩ => ⟨S_, .f32⟩
  | .hbm, ⟨25, _⟩ => ⟨S1700000, .f32⟩
  | .hbm, ⟨26, _⟩ => ⟨S_, .f32⟩
  | .hbm, ⟨27, _⟩ => ⟨S100000, .f32⟩
  | .hbm, ⟨28, _⟩ => ⟨S1700000x1, .i32⟩
  | .hbm, ⟨29, _⟩ => ⟨S100000, .f32⟩
  | .hbm, ⟨30, _⟩ => ⟨S1x100000, .f32⟩
  | .hbm, ⟨31, _⟩ => ⟨S1x1, .f32⟩
  | .hbm, ⟨32, _⟩ => ⟨S1x100000, .f32⟩
  | .hbm, ⟨33, _⟩ => ⟨S100000, .f32⟩
  | .local _ .vmem, ⟨0, _⟩ => ⟨S10000x128, .f32⟩
  | .local _ .vmem, ⟨1, _⟩ => ⟨S10000x128, .f32⟩
  | .local _ .vmem, ⟨2, _⟩ => ⟨S10000x128, .f32⟩
  | .local _ .vmem, ⟨3, _⟩ => ⟨S10000x128, .f32⟩
  | .local _ .vmem, ⟨4, _⟩ => ⟨S5888x128, .f32⟩
  | .local _ .vmem, ⟨5, _⟩ => ⟨S5888x128, .f32⟩
  | .local _ .vmem, ⟨6, _⟩ => ⟨S5888x128, .f32⟩
  | .local _ .vmem, ⟨7, _⟩ => ⟨S5888x128, .f32⟩
  | .local _ .vmem, ⟨8, _⟩ => ⟨S1x5888, .f32⟩
  | .local _ .vmem, ⟨9, _⟩ => ⟨S1x5888, .f32⟩
  | .local _ .vmem, ⟨10, _⟩ => ⟨S1x1, .f32⟩
  | .local _ .vmem, ⟨11, _⟩ => ⟨S1x5888, .f32⟩
  | .local _ .vmem, ⟨12, _⟩ => ⟨S1x5888, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_c : Ref sig .tc := ⟨.hbm, 11, rfl⟩
abbrev main_v8 : Ref sig .tc := ⟨.hbm, 12, rfl⟩
abbrev main_v9 : Ref sig .tc := ⟨.hbm, 13, rfl⟩
abbrev main_c_0 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_cst : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_cst_1 : Ref sig .tc := ⟨.hbm, 24, rfl⟩
abbrev main_v18 : Ref sig .tc := ⟨.hbm, 25, rfl⟩
abbrev main_cst_2 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc1_stg0_0 : Ref sig .tc := ⟨.vmem, 4, rfl⟩
abbrev cc1_stg0_1 : Ref sig .tc := ⟨.vmem, 5, rfl⟩
abbrev cc1_stg1_0 : Ref sig .tc := ⟨.vmem, 6, rfl⟩
abbrev cc1_stg1_1 : Ref sig .tc := ⟨.vmem, 7, rfl⟩
abbrev cc1_stg2_0 : Ref sig .tc := ⟨.vmem, 8, rfl⟩
abbrev cc1_stg2_1 : Ref sig .tc := ⟨.vmem, 9, rfl⟩
abbrev cc1_stg3_0 : Ref sig .tc := ⟨.vmem, 10, rfl⟩
abbrev cc1_stg4_0 : Ref sig .tc := ⟨.vmem, 11, rfl⟩
abbrev cc1_stg4_1 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc1_sem0_0 : DmaSem sig := 4
abbrev cc1_sem0_1 : DmaSem sig := 5
abbrev cc1_sem1_0 : DmaSem sig := 6
abbrev cc1_sem1_1 : DmaSem sig := 7
abbrev cc1_sem2_0 : DmaSem sig := 8
abbrev cc1_sem2_1 : DmaSem sig := 9
abbrev cc1_sem3_0 : DmaSem sig := 10
abbrev cc1_sem4_0 : DmaSem sig := 11
abbrev cc1_sem4_1 : DmaSem sig := 12

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S10000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S10000x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev grid1 : Pipeline.Grid := ⟨1, ![17], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![c0_i32.toNat, arg0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage1_0 : Fin 2 → Memref sig .tc .vmem S5888x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S5888x128 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S1x5888 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 1 → Memref sig .tc .vmem S1x1 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 2 → Memref sig .tc .vmem S1x5888 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

class Facts₀ : Prop where
  slices_S2x1600000_S1x1600000_0_0 : S2x1600000.Slices ![0, 0] S1x1600000
  shapeCasts_S1x1600000_S1600000 : S1x1600000.ShapeCasts S1600000
  concatenates_S1600000_S100000_S1700000_d0 : Shape.Concatenates [S1600000, S100000] S1700000 0
  slices_S2x1600000_S1x1600000_1_0 : S2x1600000.Slices ![1, 0] S1x1600000
  inb_S10000x128_S10000x128_0_0 : ∀ a, (![0, 0] : Fin 2 → Nat) a + S10000x128.size a ≤ S10000x128.size a
  h_S10000x128 : 0 < S10000x128.numel
  reduces_S10000x128_S10000 : S10000x128.Reduces [1] S10000
  shapeCasts_S10000_S10000x1 : S10000.ShapeCasts S10000x1
  broadcasts_S10000x1_S10000x128 : S10000x1.Broadcasts S10000x128
  bcast_S_S1700000 : S_.BroadcastsInDim S1700000 (![] : Fin 0 → Fin S1700000.rank)
  bcast_S1700000_S1700000x1_0 : S1700000.BroadcastsInDim S1700000x1 (![0] : Fin 1 → Fin S1700000x1.rank)
  bcast_S_S100000x128 : S_.BroadcastsInDim S100000x128 (![] : Fin 0 → Fin S100000x128.rank)
  bcast_S_S100000 : S_.BroadcastsInDim S100000 (![] : Fin 0 → Fin S100000.rank)
  shapeCasts_S100000_S1x100000 : S100000.ShapeCasts S1x100000
  shapeCasts_S1_S1x1 : S1.ShapeCasts S1x1
  inb_S5888x128_S5888x128_0_0 : ∀ a, (![0, 0] : Fin 2 → Nat) a + S5888x128.size a ≤ S5888x128.size a
  h_S5888x128 : 0 < S5888x128.numel
  shapeCasts_S5888x128_S5888x128 : S5888x128.ShapeCasts S5888x128
  reduces_S5888x128_S5888 : S5888x128.Reduces [1] S5888
  shapeCasts_S5888_S5888x1 : S5888.ShapeCasts S5888x1
  transposes_S5888x1_p1_0_S1x5888 : S5888x1.Transposes [1, 0] S1x5888
  inb_S1x5888_S1x5888_0_0 : ∀ a, (![0, 0] : Fin 2 → Nat) a + S1x5888.size a ≤ S1x5888.size a
  h_S1x5888 : 0 < S1x5888.numel
  shapeCasts_S1x5888_S1x5888 : S1x5888.ShapeCasts S1x5888
  inb_S1x1_S1x1_0_0 : ∀ a, (![0, 0] : Fin 2 → Nat) a + S1x1.size a ≤ S1x1.size a
  h_S1x1 : 0 < S1x1.numel
  shapeCasts_S1x1_S1x1 : S1x1.ShapeCasts S1x1
  broadcasts_S1x1_S1x5888 : S1x1.Broadcasts S1x5888
  shapeCasts_S1x100000_S100000 : S1x100000.ShapeCasts S100000
  gather_S100000x128_S1700000x1_S1700000x128_1_0_n_n_0_1_1128_wf : GatherDims.WF S100000x128 S1700000x1 S1700000x128 [1] [0] [] [0] [] 1 ![1, 128]
  scatter_S100000x128_S1700000x1_S1700000x128_1_0_0_1_wf : ScatterDims.WF S100000x128 S1700000x1 S1700000x128 [1] [0] [0] 1
  scatter_S100000_S1700000x1_S1700000_n_0_0_1_wf : ScatterDims.WF S100000 S1700000x1 S1700000 [] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S10000x128.size a ≤ S100000x128.size a
  hwx0_0 : ∀ i : grid0.Coords, EltTy.bits .f32 = 32 ∨ (Rect.block (s := S100000x128) S10000x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S10000x128.size a ≤ S100000x128.size a
  hwx0_1 : ∀ i : grid0.Coords, EltTy.bits .f32 = 32 ∨ (Rect.block (s := S100000x128) S10000x128.size (cc0_transform_1 i) (hinb0_1 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hstart1_0 : ∀ (i : grid1.Coords) a, cc1_transform_0 i a * S5888x128.size a < S100000x128.size a
  hwx1_0 : ∀ i : grid1.Coords, EltTy.bits .f32 = 32 ∨ (Rect.unit (s := S100000x128) (fun a => cc1_transform_0 i a * S5888x128.size a) (fun a => (Pipeline.Clip.of (cc1_transform_0 i a) (S5888x128.size a) (S100000x128.size a)).extent (S5888x128.size a)) fun a => Pipeline.Clip.inb (Pipeline.Clip.ok_of (hstart1_0 i a))).WholeWords (EltTy.packing .f32)
  hwxs1_0 : ∀ i : grid1.Coords, EltTy.bits .f32 = 32 ∨ (Rect.unit (s := S5888x128) (fun _ => 0) (fun a => (Pipeline.Clip.of (cc1_transform_0 i a) (S5888x128.size a) (S100000x128.size a)).extent (S5888x128.size a)) fun a => (Nat.zero_add _).trans_le (Pipeline.Clip.extent_le (Pipeline.Clip.ok_of (hstart1_0 i a)))).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hstart1_1 : ∀ (i : grid1.Coords) a, cc1_transform_1 i a * S5888x128.size a < S100000x128.size a
  hwx1_1 : ∀ i : grid1.Coords, EltTy.bits .f32 = 32 ∨ (Rect.unit (s := S100000x128) (fun a => cc1_transform_1 i a * S5888x128.size a) (fun a => (Pipeline.Clip.of (cc1_transform_1 i a) (S5888x128.size a) (S100000x128.size a)).extent (S5888x128.size a)) fun a => Pipeline.Clip.inb (Pipeline.Clip.ok_of (hstart1_1 i a))).WholeWords (EltTy.packing .f32)
  hwxs1_1 : ∀ i : grid1.Coords, EltTy.bits .f32 = 32 ∨ (Rect.unit (s := S5888x128) (fun _ => 0) (fun a => (Pipeline.Clip.of (cc1_transform_1 i a) (S5888x128.size a) (S100000x128.size a)).extent (S5888x128.size a)) fun a => (Nat.zero_add _).trans_le (Pipeline.Clip.extent_le (Pipeline.Clip.ok_of (hstart1_1 i a)))).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hstart1_2 : ∀ (i : grid1.Coords) a, cc1_transform_2 i a * S1x5888.size a < S1x100000.size a
  hwx1_2 : ∀ i : grid1.Coords, EltTy.bits .f32 = 32 ∨ (Rect.unit (s := S1x100000) (fun a => cc1_transform_2 i a * S1x5888.size a) (fun a => (Pipeline.Clip.of (cc1_transform_2 i a) (S1x5888.size a) (S1x100000.size a)).extent (S1x5888.size a)) fun a => Pipeline.Clip.inb (Pipeline.Clip.ok_of (hstart1_2 i a))).WholeWords (EltTy.packing .f32)
  hwxs1_2 : ∀ i : grid1.Coords, EltTy.bits .f32 = 32 ∨ (Rect.unit (s := S1x5888) (fun _ => 0) (fun a => (Pipeline.Clip.of (cc1_transform_2 i a) (S1x5888.size a) (S1x100000.size a)).extent (S1x5888.size a)) fun a => (Nat.zero_add _).trans_le (Pipeline.Clip.extent_le (Pipeline.Clip.ok_of (hstart1_2 i a)))).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x1.size a ≤ S1x1.size a
  hwx1_3 : ∀ i : grid1.Coords, EltTy.bits .f32 = 32 ∨ (Rect.block (s := S1x1) S1x1.size (cc1_transform_3 i) (hinb1_3 i)).WholeWords (EltTy.packing .f32)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hstart1_4 : ∀ (i : grid1.Coords) a, cc1_transform_4 i a * S1x5888.size a < S1x100000.size a
  hwx1_4 : ∀ i : grid1.Coords, EltTy.bits .f32 = 32 ∨ (Rect.unit (s := S1x100000) (fun a => cc1_transform_4 i a * S1x5888.size a) (fun a => (Pipeline.Clip.of (cc1_transform_4 i a) (S1x5888.size a) (S1x100000.size a)).extent (S1x5888.size a)) fun a => Pipeline.Clip.inb (Pipeline.Clip.ok_of (hstart1_4 i a))).WholeWords (EltTy.packing .f32)
  hwxs1_4 : ∀ i : grid1.Coords, EltTy.bits .f32 = 32 ∨ (Rect.unit (s := S1x5888) (fun _ => 0) (fun a => (Pipeline.Clip.of (cc1_transform_4 i a) (S1x5888.size a) (S1x100000.size a)).extent (S1x5888.size a)) fun a => (Nat.zero_add _).trans_le (Pipeline.Clip.extent_le (Pipeline.Clip.ok_of (hstart1_4 i a)))).WholeWords (EltTy.packing .f32)

variable [Facts₀]

def gather_S100000x128_S1700000x1_S1700000x128_1_0_n_n_0_1_1128 : GatherDims S100000x128 S1700000x1 S1700000x128 where
  offsetDims := [1]
  collapsedSliceDims := [0]
  operandBatchingDims := []
  startIndicesBatchingDims := []
  startIndexMap := [0]
  indexVectorDim := 1
  sliceSizes := ![1, 128]
  wf := gather_S100000x128_S1700000x1_S1700000x128_1_0_n_n_0_1_1128_wf
def scatter_S100000x128_S1700000x1_S1700000x128_1_0_0_1 : ScatterDims S100000x128 S1700000x1 S1700000x128 where
  updateWindowDims := [1]
  insertedWindowDims := [0]
  scatterDimsToOperandDims := [0]
  indexVectorDim := 1
  wf := scatter_S100000x128_S1700000x1_S1700000x128_1_0_0_1_wf
def scatter_S100000_S1700000x1_S1700000_n_0_0_1 : ScatterDims S100000 S1700000x1 S1700000 where
  updateWindowDims := []
  insertedWindowDims := [0]
  scatterDimsToOperandDims := [0]
  indexVectorDim := 1
  wf := scatter_S100000_S1700000x1_S1700000_n_0_0_1_wf

abbrev win0_0 : Pipeline.Window sig grid0 :=
  Pipeline.Window.ofSpec (Memref.whole main_arg0) S10000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v7) S10000x128.size cc0_transform_1 reads0_1 true false 2 stage0_1 sem0_1
    hrank0 hreads0_1 hinb0_1 nbuf0_1 (Memref.isWhole_whole _) hwx0_1 hstage0_1

abbrev win0 : Fin 2 → Pipeline.Window sig grid0 := fun | 0 => win0_0 | 1 => win0_1 | ⟨_ + 2, h⟩ => absurd h (Nat.not_lt.2 (Nat.le_add_left _ _))
abbrev spec0 : Fin 2 → Pipeline.WinSpec sig grid0.rank := fun w => (win0 w).toWinSpec

abbrev win1_0 : Pipeline.Window sig grid1 :=
  Pipeline.Window.ofSpecClip (Memref.whole main_v7) S5888x128.size cc1_transform_0 reads1_0 false false 2 stage1_0 sem1_0
    hrank1 hreads1_0 hstart1_0 nbuf1_0 (Memref.isWhole_whole _) hwx1_0 hwxs1_0 hstage1_0

abbrev win1_1 : Pipeline.Window sig grid1 :=
  Pipeline.Window.ofSpecClip (Memref.whole main_v17) S5888x128.size cc1_transform_1 reads1_1 false false 2 stage1_1 sem1_1
    hrank1 hreads1_1 hstart1_1 nbuf1_1 (Memref.isWhole_whole _) hwx1_1 hwxs1_1 hstage1_1

abbrev win1_2 : Pipeline.Window sig grid1 :=
  Pipeline.Window.ofSpecClip (Memref.whole main_v22) S1x5888.size cc1_transform_2 reads1_2 false false 2 stage1_2 sem1_2
    hrank1 hreads1_2 hstart1_2 nbuf1_2 (Memref.isWhole_whole _) hwx1_2 hwxs1_2 hstage1_2

abbrev win1_3 : Pipeline.Window sig grid1 :=
  Pipeline.Window.ofSpec (Memref.whole main_v23) S1x1.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpecClip (Memref.whole main_v24) S1x5888.size cc1_transform_4 reads1_4 true false 2 stage1_4 sem1_4
    hrank1 hreads1_4 hstart1_4 nbuf1_4 (Memref.isWhole_whole _) hwx1_4 hwxs1_4 hstage1_4

abbrev win1 : Fin 5 → Pipeline.Window sig grid1 := fun | 0 => win1_0 | 1 => win1_1 | 2 => win1_2 | 3 => win1_3 | 4 => win1_4 | ⟨_ + 5, h⟩ => absurd h (Nat.not_lt.2 (Nat.le_add_left _ _))
abbrev spec1 : Fin 5 → Pipeline.WinSpec sig grid1.rank := fun w => (win1 w).toWinSpec

class Facts : Prop extends Facts₀ where

variable [Facts]
-- ==== ReferenceIdeal.lean ====
abbrev S100000x128 : Shape := ⟨2, ![100000, 128]⟩
abbrev S1 : Shape := ⟨1, ![1]⟩
abbrev S2x1600000 : Shape := ⟨2, ![2, 1600000]⟩
abbrev S100000 : Shape := ⟨1, ![100000]⟩
abbrev S1x1600000 : Shape := ⟨2, ![1, 1600000]⟩
abbrev S1600000 : Shape := ⟨1, ![1600000]⟩
abbrev S1700000 : Shape := ⟨1, ![1700000]⟩
abbrev S_ : Shape := ⟨0, ![]⟩
abbrev S100000x1 : Shape := ⟨2, ![100000, 1]⟩
abbrev S1700000x1 : Shape := ⟨2, ![1700000, 1]⟩
abbrev S1700000x128 : Shape := ⟨2, ![1700000, 128]⟩

abbrev nBuf : Space → Nat
  | .hbm => 65
  | .vmem => 0
  | .smem => 0
  | _ => 0

abbrev bufTy : (tb : Table) → Fin (tcTables nBuf tb) → BufTy
  | .hbm, ⟨0, _⟩ => ⟨S100000x128, .f32⟩
  | .hbm, ⟨1, _⟩ => ⟨S1, .f32⟩
  | .hbm, ⟨2, _⟩ => ⟨S2x1600000, .i32⟩
  | .hbm, ⟨3, _⟩ => ⟨S100000, .i32⟩
  | .hbm, ⟨4, _⟩ => ⟨S1x1600000, .i32⟩
  | .hbm, ⟨5, _⟩ => ⟨S1600000, .i32⟩
  | .hbm, ⟨6, _⟩ => ⟨S1700000, .i32⟩
  | .hbm, ⟨7, _⟩ => ⟨S1x1600000, .i32⟩
  | .hbm, ⟨8, _⟩ => ⟨S1600000, .i32⟩
  | .hbm, ⟨9, _⟩ => ⟨S1700000, .i32⟩
  | .hbm, ⟨10, _⟩ => ⟨S100000x128, .f32⟩
  | .hbm, ⟨11, _⟩ => ⟨S_, .f32⟩
  | .hbm, ⟨12, _⟩ => ⟨S100000, .f32⟩
  | .hbm, ⟨13, _⟩ => ⟨S100000x1, .f32⟩
  | .hbm, ⟨14, _⟩ => ⟨S100000x1, .f32⟩
  | .hbm, ⟨15, _⟩ => ⟨S_, .f32⟩
  | .hbm, ⟨16, _⟩ => ⟨S100000x1, .f32⟩
  | .hbm, ⟨17, _⟩ => ⟨S100000x1, .f32⟩
  | .hbm, ⟨18, _⟩ => ⟨S100000x128, .f32⟩
  | .hbm, ⟨19, _⟩ => ⟨S100000x128, .f32⟩
  | .hbm, ⟨20, _⟩ => ⟨S_, .i32⟩
  | .hbm, ⟨21, _⟩ => ⟨S1700000, .i32⟩
  | .hbm, ⟨22, _⟩ => ⟨S1700000, .i1⟩
  | .hbm, ⟨23, _⟩ => ⟨S_, .i32⟩
  | .hbm, ⟨24, _⟩ => ⟨S1700000, .i32⟩
  | .hbm, ⟨25, _⟩ => ⟨S1700000, .i32⟩
  | .hbm, ⟨26, _⟩ => ⟨S1700000, .i32⟩
  | .hbm, ⟨27, _⟩ => ⟨S1700000x1, .i32⟩
  | .hbm, ⟨28, _⟩ => ⟨S1700000x128, .f32⟩
  | .hbm, ⟨29, _⟩ => ⟨S_, .i32⟩
  | .hbm, ⟨30, _⟩ => ⟨S1700000, .i32⟩
  | .hbm, ⟨31, _⟩ => ⟨S1700000, .i1⟩
  | .hbm, ⟨32, _⟩ => ⟨S_, .i32⟩
  | .hbm, ⟨33, _⟩ => ⟨S1700000, .i32⟩
  | .hbm, ⟨34, _⟩ => ⟨S1700000, .i32⟩
  | .hbm, ⟨35, _⟩ => ⟨S1700000, .i32⟩
  | .hbm, ⟨36, _⟩ => ⟨S1700000x1, .i32⟩
  | .hbm, ⟨37, _⟩ => ⟨S1700000x128, .f32⟩
  | .hbm, ⟨38, _⟩ => ⟨S1700000x128, .f32⟩
  | .hbm, ⟨39, _⟩ => ⟨S_, .f32⟩
  | .hbm, ⟨40, _⟩ => ⟨S1700000, .f32⟩
  | .hbm, ⟨41, _⟩ => ⟨S_, .f32⟩
  | .hbm, ⟨42, _⟩ => ⟨S100000, .f32⟩
  | .hbm, ⟨43, _⟩ => ⟨S1700000x1, .i32⟩
  | .hbm, ⟨44, _⟩ => ⟨S100000, .f32⟩
  | .hbm, ⟨45, _⟩ => ⟨S_, .f32⟩
  | .hbm, ⟨46, _⟩ => ⟨S1700000, .f32⟩
  | .hbm, ⟨47, _⟩ => ⟨S_, .f32⟩
  | .hbm, ⟨48, _⟩ => ⟨S100000, .f32⟩
  | .hbm, ⟨49, _⟩ => ⟨S1700000x1, .i32⟩
  | .hbm, ⟨50, _⟩ => ⟨S100000, .f32⟩
  | .hbm, ⟨51, _⟩ => ⟨S_, .f32⟩
  | .hbm, ⟨52, _⟩ => ⟨S100000, .f32⟩
  | .hbm, ⟨53, _⟩ => ⟨S100000, .f32⟩
  | .hbm, ⟨54, _⟩ => ⟨S100000, .f32⟩
  | .hbm, ⟨55, _⟩ => ⟨S100000, .f32⟩
  | .hbm, ⟨56, _⟩ => ⟨S100000, .f32⟩
  | .hbm, ⟨57, _⟩ => ⟨S100000, .f32⟩
  | .hbm, ⟨58, _⟩ => ⟨S100000, .f32⟩
  | .hbm, ⟨59, _⟩ => ⟨S_, .f32⟩
  | .hbm, ⟨60, _⟩ => ⟨S100000, .f32⟩
  | .hbm, ⟨61, _⟩ => ⟨S100000, .f32⟩
  | .hbm, ⟨62, _⟩ => ⟨S_, .f32⟩
  | .hbm, ⟨63, _⟩ => ⟨S100000, .f32⟩
  | .hbm, ⟨64, _⟩ => ⟨S100000, .f32⟩
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_call0_v0 : Ref sig .tc := ⟨.hbm, 10, rfl⟩
abbrev main_call0_cst : Ref sig .tc := ⟨.hbm, 11, rfl⟩
abbrev main_call0_v1 : Ref sig .tc := ⟨.hbm, 12, rfl⟩
abbrev main_call0_v2 : Ref sig .tc := ⟨.hbm, 13, rfl⟩
abbrev main_v7 : Ref sig .tc := ⟨.hbm, 14, rfl⟩
abbrev main_cst : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_c : Ref sig .tc := ⟨.hbm, 20, rfl⟩
abbrev main_v12 : Ref sig .tc := ⟨.hbm, 21, rfl⟩
abbrev main_v13 : Ref sig .tc := ⟨.hbm, 22, rfl⟩
abbrev main_c_0 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_c_1 : Ref sig .tc := ⟨.hbm, 29, rfl⟩
abbrev main_v19 : Ref sig .tc := ⟨.hbm, 30, rfl⟩
abbrev main_v20 : Ref sig .tc := ⟨.hbm, 31, rfl⟩
abbrev main_c_2 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_cst_3 : Ref sig .tc := ⟨.hbm, 39, rfl⟩
abbrev main_v27 : Ref sig .tc := ⟨.hbm, 40, rfl⟩
abbrev main_cst_4 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_cst_5 : Ref sig .tc := ⟨.hbm, 45, rfl⟩
abbrev main_v31 : Ref sig .tc := ⟨.hbm, 46, rfl⟩
abbrev main_cst_6 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_cst_7 : Ref sig .tc := ⟨.hbm, 51, rfl⟩
abbrev main_v35 : Ref sig .tc := ⟨.hbm, 52, rfl⟩
abbrev main_v36 : Ref sig .tc := ⟨.hbm, 53, rfl⟩
abbrev main_v37 : Ref sig .tc := ⟨.hbm, 54, rfl⟩
abbrev main_v38 : Ref sig .tc := ⟨.hbm, 55, rfl⟩
abbrev main_v39 : Ref sig .tc := ⟨.hbm, 56, rfl⟩
abbrev main_v40 : Ref sig .tc := ⟨.hbm, 57, rfl⟩
abbrev main_v41 : Ref sig .tc := ⟨.hbm, 58, rfl⟩
abbrev main_cst_8 : Ref sig .tc := ⟨.hbm, 59, rfl⟩
abbrev main_v42 : Ref sig .tc := ⟨.hbm, 60, rfl⟩
abbrev main_v43 : Ref sig .tc := ⟨.hbm, 61, rfl⟩
abbrev main_cst_9 : Ref sig .tc := ⟨.hbm, 62, rfl⟩
abbrev main_v44 : Ref sig .tc := ⟨.hbm, 63, rfl⟩
abbrev main_v45 : Ref sig .tc := ⟨.hbm, 64, rfl⟩

abbrev nD : Nat := 1
abbrev τ : Topo := Topo.v7x

variable {F : FTy → Type} [FloatOps F]

class Facts₀ : Prop where
  slices_S2x1600000_S1x1600000_0_0 : S2x1600000.Slices ![0, 0] S1x1600000
  shapeCasts_S1x1600000_S1600000 : S1x1600000.ShapeCasts S1600000
  concatenates_S1600000_S100000_S1700000_d0 : Shape.Concatenates [S1600000, S100000] S1700000 0
  slices_S2x1600000_S1x1600000_1_0 : S2x1600000.Slices ![1, 0] S1x1600000
  reducesTo_S100000x128_S100000_d1 : S100000x128.ReducesTo [1] S100000
  h_S_ : 0 < S_.numel
  bcast_S100000_S100000x1_0 : S100000.BroadcastsInDim S100000x1 (![0] : Fin 1 → Fin S100000x1.rank)
  bcast_S_S100000x1 : S_.BroadcastsInDim S100000x1 (![] : Fin 0 → Fin S100000x1.rank)
  bcast_S100000x1_S100000x128_0_1 : S100000x1.BroadcastsInDim S100000x128 (![0, 1] : Fin 2 → Fin S100000x128.rank)
  bcast_S_S1700000 : S_.BroadcastsInDim S1700000 (![] : Fin 0 → Fin S1700000.rank)
  bcast_S1700000_S1700000x1_0 : S1700000.BroadcastsInDim S1700000x1 (![0] : Fin 1 → Fin S1700000x1.rank)
  reducesTo_S1700000x128_S1700000_d1 : S1700000x128.ReducesTo [1] S1700000
  bcast_S_S100000 : S_.BroadcastsInDim S100000 (![] : Fin 0 → Fin S100000.rank)
  bcast_S1_S100000_0 : S1.BroadcastsInDim S100000 (![0] : Fin 1 → Fin S100000.rank)
  gather_S100000x128_S1700000x1_S1700000x128_1_0_n_n_0_1_1128_wf : GatherDims.WF S100000x128 S1700000x1 S1700000x128 [1] [0] [] [0] [] 1 ![1, 128]
  scatter_S100000_S1700000x1_S1700000_n_0_0_1_wf : ScatterDims.WF S100000 S1700000x1 S1700000 [] [0] [0] 1

variable [Facts₀]

def gather_S100000x128_S1700000x1_S1700000x128_1_0_n_n_0_1_1128 : GatherDims S100000x128 S1700000x1 S1700000x128 where
  offsetDims := [1]
  collapsedSliceDims := [0]
  operandBatchingDims := []
  startIndicesBatchingDims := []
  startIndexMap := [0]
  indexVectorDim := 1
  sliceSizes := ![1, 128]
  wf := gather_S100000x128_S1700000x1_S1700000x128_1_0_n_n_0_1_1128_wf
def scatter_S100000_S1700000x1_S1700000_n_0_0_1 : ScatterDims S100000 S1700000x1 S1700000 where
  updateWindowDims := []
  insertedWindowDims := [0]
  scatterDimsToOperandDims := [0]
  indexVectorDim := 1
  wf := scatter_S100000_S1700000x1_S1700000_n_0_0_1_wf

class Facts : Prop extends Facts₀ where

variable [Facts]
-- ==== Proof.LibDotOfSums.lean ====
/-
  The dot product with a sum of vectors is the sum of the dot products, on finite extended reals.

  On the extended reals a product does not distribute over a sum when an infinity is present, so the law is stated for
  families of REAL numbers read as extended reals: for a vector a and a finite family of vectors b e,
      Σ_d a_d · (Σ_e b_{e,d})  =  Σ_e Σ_d b_{e,d} · a_d .
  The proof moves both sides into the reals (a finite sum or a product of reals read as extended reals is the
  extended real of the real sum or product), where it is distributivity, an exchange of the two sums and
  commutativity of the product.
-/
import Mathlib.Data.EReal.Operations
import Mathlib.Algebra.BigOperators.Ring.Finset
import Mathlib.Algebra.BigOperators.Group.Finset.Sigma

noncomputable section

open scoped BigOperators

namespace Cert.DotOfSums

/-- A finite sum of reals read as extended reals is the extended real of the real sum. -/
theorem coe_sum {ι : Type} (s : Finset ι) (f : ι → ℝ) : ((∑ i ∈ s, f i : ℝ) : EReal) = ∑ i ∈ s, (f i : EReal) := by
  classical
  induction s using Finset.induction_on with
  | empty => simp
  | insert i s hi ih => rw [Finset.sum_insert hi, Finset.sum_insert hi, EReal.coe_add, ih]

/-- THE LAW: the dot product of `a` with the sum over `e ∈ E` of the vectors `b e` is the sum over `e ∈ E` of the
    dot products of `b e` with `a`. -/
theorem dot_of_sums {ι κ : Type} [Fintype κ] (E : Finset ι) (a : κ → ℝ) (b : ι → κ → ℝ) :
    ∑ d, (a d : EReal) * ∑ e ∈ E, (b e d : EReal) = ∑ e ∈ E, ∑ d, (b e d : EReal) * (a d : EReal) := by
  have hl : ∀ d, (a d : EReal) * ∑ e ∈ E, (b e d : EReal) = ((a d * ∑ e ∈ E, b e d : ℝ) : EReal) := fun d => by
    rw [EReal.coe_mul, coe_sum]
  have hr : ∀ e, ∑ d, (b e d : EReal) * (a d : EReal) = ((∑ d, b e d * a d : ℝ) : EReal) := fun e => by
    rw [coe_sum]; exact Finset.sum_congr rfl fun d _ => (EReal.coe_mul _ _).symm
  rw [Finset.sum_congr rfl fun d _ => hl d, Finset.sum_congr rfl fun e _ => hr e, ← coe_sum, ← coe_sum]
  congr 1
  simp only [Finset.mul_sum]
  rw [Finset.sum_comm]
  exact Finset.sum_congr rfl fun e _ => Finset.sum_congr rfl fun d _ => mul_comm _ _

end Cert.DotOfSums

end
-- ==== Proof.LibGatherRows.lean ====
/-
  A host gather of whole rows, read at an index.

  The operand is a matrix [N, B]; the start indices are a column [M, 1] of signed integers, one per result row; the
  result is the matrix [M, B] whose row k is the operand's row at the start index of k. A gather clamps every start
  index so that the slice fits inside the operand: the row that is read is the start index taken as a signed integer,
  negative values becoming 0 and values past the last row becoming N - 1. The lane coordinate passes through.
-/
import Idealize.ShloMosaic.PureOps
import Idealize.ShloMosaic.Lib.ValueIdx

noncomputable section

namespace Cert.GatherRows

open Idealize.ShloMosaic Idealize.ShloMosaic.ValueIdx

variable {α : Type}

/-- The dimension numbers of `x[idx]` on a matrix `[N, B]` at `M` row indices stored as a column `[M, 1]`: the row
    axis is collapsed and indexed, the lane axis is the slice. -/
abbrev rowGather (N M B : ℕ)
    (wf : GatherDims.WF ⟨2, ![N, B]⟩ ⟨2, ![M, 1]⟩ ⟨2, ![M, B]⟩ [1] [0] [] [0] [] 1 ![1, B]) :
    GatherDims ⟨2, ![N, B]⟩ ⟨2, ![M, 1]⟩ ⟨2, ![M, B]⟩ where
  offsetDims := [1]
  collapsedSliceDims := [0]
  operandBatchingDims := []
  startIndicesBatchingDims := []
  startIndexMap := [0]
  indexVectorDim := 1
  sliceSizes := ![1, B]
  wf := wf

/-- The operand row that result row `k` reads: its start index as a signed integer, clamped into `[0, N - 1]`. -/
def row {N M w : ℕ} (hN : 0 < N) (idx : IVec ⟨2, ![M, 1]⟩ w) (k : Fin M) : Fin N :=
  ⟨min (idx (ix2 k (0 : Fin 1))).toInt.toNat (N - 1), by omega⟩

/-- A start index that already names a row `r` of the operand is not moved by the clamp. -/
theorem row_of_toInt {N M w : ℕ} (hN : 0 < N) (idx : IVec ⟨2, ![M, 1]⟩ w) (k : Fin M) (r : Fin N)
    (h : (idx (ix2 k (0 : Fin 1))).toInt = (r.val : ℤ)) : row hN idx k = r := by
  refine Fin.ext ?_
  show min (idx (ix2 k (0 : Fin 1))).toInt.toNat (N - 1) = r.val
  rw [h]
  have := r.isLt
  simp only [Int.toNat_natCast]
  omega

/-- THE ROW GATHER READ AT `(k, q)`: the operand at the clamped row of `k`, lane `q`. -/
theorem gather_rows_apply {N M B w : ℕ} (hN : 0 < N) (wf) (x : (⟨2, ![N, B]⟩ : Shape).Idx → α)
    (idx : IVec ⟨2, ![M, 1]⟩ w) (k : Fin M) (q : Fin B) :
    Host.gather (rowGather N M B wf) x idx (ix2 k q) = x (ix2 (row hN idx k) q) := by
  unfold Host.gather
  congr 1
  funext a
  refine Fin.ext ?_
  match a with
  | ⟨0, _⟩ =>
    show (rowGather N M B wf).start (ix2 k q) idx 0 + (rowGather N M B wf).batchCoord (ix2 k q) 0
      + (rowGather N M B wf).offCoord (ix2 k q) 0 = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 2) ∈ (rowGather N M B wf).startIndexMap from List.mem_singleton.mpr rfl)]
    have hsi : (rowGather N M B wf).siIdx (ix2 k q) ⟨List.idxOf (0 : Fin 2) (rowGather N M B wf).startIndexMap,
        List.idxOf_lt_length_iff.2 (List.mem_singleton.mpr rfl)⟩ = ix2 k (0 : Fin 1) := by
      funext b; refine Fin.ext ?_
      match b with
      | ⟨0, _⟩ => rfl
      | ⟨1, _⟩ => rfl
    rw [hsi]
    rfl
  | ⟨1, _⟩ =>
    show (rowGather N M B wf).start (ix2 k q) idx 1 + (rowGather N M B wf).batchCoord (ix2 k q) 1
      + (rowGather N M B wf).offCoord (ix2 k q) 1 = q.val
    rw [GatherDims.batchCoord_eq_zero _ _ _ List.not_mem_nil]
    unfold GatherDims.start
    rw [dif_neg (show ¬ (1 : Fin 2) ∈ (rowGather N M B wf).startIndexMap by
      show ¬ (1 : Fin 2) ∈ ([0] : List (Fin 2)); decide)]
    unfold GatherDims.offCoord
    rw [dif_pos (show (1 : Fin 2) ∈ (rowGather N M B wf).sKept by
      rw [GatherDims.mem_sKept]; exact ⟨by show ¬ (1 : Fin 2) ∈ ([0] : List (Fin 2)); decide, List.not_mem_nil⟩)]
    simp only [Nat.zero_add]
    rfl

end Cert.GatherRows

end
-- ==== Proof.LibScatterRead.lean ====
/-
  A host scatter that overwrites with one constant, read at an index.

  The host scatter is a left fold over the update positions in row-major order: each position whose result index
  lies inside the operand replaces the operand's element there, and a position whose result index falls outside is
  dropped. When the combining function keeps the update and every update element is the same constant c, the order
  of the fold and repeated hits do not matter: the result at an index i is c if SOME update position lands on i, and
  the operand's element at i otherwise.

  Two index layouts are read here, both with one start index per update row, stored as a column [M, 1] of signed
  integers, and both scattering along the operand's leading axis: a vector [N] receiving scalars, and a matrix [N, B]
  receiving whole rows of B elements. In both, update row k lands on operand row r exactly when the signed start
  index of k equals r; so the set of rows that are hit is the same for the two layouts.
-/
import Idealize.ShloMosaic.PureOps
import Idealize.ShloMosaic.Lib.ValueIdx

noncomputable section

namespace Cert.ScatterRead

open Idealize.ShloMosaic Idealize.ShloMosaic.ValueIdx
open scoped Classical

variable {α : Type}

/-! ## The fold -/

/-- A left fold of steps, each of which either overwrites ONE index (the one `g n` names) with the constant `c` or
    does nothing, read at `i`: `c` if some step of the list names `i`, the initial function's value otherwise. -/
theorem foldl_overwrite {ι β : Type} (g : ι → Option β) (c : α) (step : (β → α) → ι → (β → α))
    (hstep : ∀ r n i, step r n i = if g n = some i then c else r i) (L : List ι) (x : β → α) (i : β) :
    (L.foldl step x) i = if ∃ n ∈ L, g n = some i then c else x i := by
  induction L generalizing x with
  | nil => simp
  | cons n L ih =>
    rw [List.foldl_cons, ih, hstep]
    by_cases h1 : ∃ n' ∈ L, g n' = some i
    · rw [if_pos h1, if_pos]
      obtain ⟨n', hn', e⟩ := h1
      exact ⟨n', List.mem_cons_of_mem _ hn', e⟩
    · rw [if_neg h1]
      by_cases h2 : g n = some i
      · rw [if_pos h2, if_pos]
        exact ⟨n, List.mem_cons_self, h2⟩
      · rw [if_neg h2, if_neg]
        rintro ⟨n', hn', e⟩
        rcases List.mem_cons.mp hn' with rfl | hn'
        · exact h2 e
        · exact h1 ⟨n', hn', e⟩

/-- THE SCATTER OF ONE CONSTANT READ AT AN INDEX: with the update kept and every update element `c`, the result at
    `i` is `c` where some update position's result index is `i`, and the operand's element elsewhere. -/
theorem scatter_const_apply {s si u : Shape} {w : ℕ} (d : ScatterDims s si u) (x : s.Idx → α) (idx : IVec si w)
    (upd : u.Idx → α) (c : α) (hupd : ∀ j, upd j = c) (i : s.Idx) :
    Host.scatter d (fun _ b => b) x idx upd i = if ∃ j : u.Idx, d.resultIdx? j idx = some i then c else x i := by
  unfold Host.scatter
  refine (foldl_overwrite (fun n => d.resultIdx? (u.rowMajor.symm n) idx) c _ ?_ _ x i).trans ?_
  · intro r n i'
    dsimp only
    cases h : d.resultIdx? (u.rowMajor.symm n) idx with
    | none => simp
    | some i0 =>
      dsimp only
      by_cases hi : i' = i0
      · subst hi; rw [if_pos rfl, if_pos rfl, hupd]
      · rw [if_neg hi, if_neg]
        intro e
        exact hi (Option.some.inj e).symm
  · by_cases h : ∃ j : u.Idx, d.resultIdx? j idx = some i
    · rw [if_pos h, if_pos]
      obtain ⟨j, hj⟩ := h
      exact ⟨u.rowMajor j, List.mem_finRange _, by rw [Equiv.symm_apply_apply]; exact hj⟩
    · rw [if_neg h, if_neg]
      rintro ⟨n, _, e⟩
      exact h ⟨_, e⟩

/-! ## When an update position lands on an index -/

/-- An update position's result index is `i` exactly when, on every axis of the operand, the window's start plus the
    coordinate inside the window is `i`'s coordinate (which, being a coordinate, is inside the operand). -/
theorem resultIdx?_eq_some_iff {s si u : Shape} {w : ℕ} (d : ScatterDims s si u) (j : u.Idx) (idx : IVec si w) (i : s.Idx) :
    d.resultIdx? j idx = some i ↔ ∀ a, d.start j idx a + (d.window j a : ℤ) = ((i a).val : ℤ) := by
  unfold ScatterDims.resultIdx?
  split
  · rename_i h
    constructor
    · intro e a
      have e1 := congrArg Fin.val (congrFun (Option.some.inj e) a)
      have := h a
      simp only at e1
      omega
    · intro e
      refine congrArg some (funext fun a => Fin.ext ?_)
      have := e a
      have := h a
      simp only
      omega
  · rename_i h
    constructor
    · intro e; cases e
    · intro e
      exfalso
      apply h
      intro a
      have := e a
      have := (i a).isLt
      omega

/-! ## A column of start indices scattering scalars into a vector -/

/-- The dimension numbers of `x.at[idx].set(v)` on a vector `[N]` with `M` scalar updates, the start indices a
    column `[M, 1]`: no window axis in the updates, the operand's one axis inserted and scattered. -/
abbrev vecDims (N M : ℕ) (wf : ScatterDims.WF ⟨1, ![N]⟩ ⟨2, ![M, 1]⟩ ⟨1, ![M]⟩ [] [0] [0] 1) :
    ScatterDims ⟨1, ![N]⟩ ⟨2, ![M, 1]⟩ ⟨1, ![M]⟩ where
  updateWindowDims := []
  insertedWindowDims := [0]
  scatterDimsToOperandDims := [0]
  indexVectorDim := 1
  wf := wf

theorem vecDims_start {N M w : ℕ} (wf) (j : (⟨1, ![M]⟩ : Shape).Idx) (idx : IVec ⟨2, ![M, 1]⟩ w) :
    (vecDims N M wf).start j idx 0 = (idx (ix2 (j 0) (0 : Fin 1))).toInt := by
  unfold ScatterDims.start
  rw [dif_pos (show (0 : Fin 1) ∈ (vecDims N M wf).scatterDimsToOperandDims from List.mem_singleton.mpr rfl)]
  have hsi : (vecDims N M wf).siIdx j ⟨List.idxOf (0 : Fin 1) (vecDims N M wf).scatterDimsToOperandDims,
      List.idxOf_lt_length_iff.2 (List.mem_singleton.mpr rfl)⟩ = ix2 (j 0) (0 : Fin 1) := by
    funext b; refine Fin.ext ?_
    match b with
    | ⟨0, _⟩ => rfl
    | ⟨1, _⟩ => rfl
  rw [hsi]
  rfl

theorem vecDims_window {N M : ℕ} (wf) (j : (⟨1, ![M]⟩ : Shape).Idx) : (vecDims N M wf).window j 0 = 0 := by
  unfold ScatterDims.window
  rw [dif_neg (show ¬ (0 : Fin 1) ∈ (vecDims N M wf).sKept by
    show ¬ (0 : Fin 1) ∈ ([] : List (Fin 1)); simp)]

/-- Update `j` lands on element `i` of the vector exactly when its signed start index is `i`. -/
theorem vecDims_lands {N M w : ℕ} (wf) (j : (⟨1, ![M]⟩ : Shape).Idx) (idx : IVec ⟨2, ![M, 1]⟩ w) (i : (⟨1, ![N]⟩ : Shape).Idx) :
    (vecDims N M wf).resultIdx? j idx = some i ↔ (idx (ix2 (j 0) (0 : Fin 1))).toInt = ((i 0).val : ℤ) := by
  rw [resultIdx?_eq_some_iff]
  constructor
  · intro h
    have := h 0
    rw [vecDims_start, vecDims_window] at this
    simpa using this
  · intro h a
    obtain rfl : a = 0 := Subsingleton.elim _ _
    rw [vecDims_start, vecDims_window]
    simpa using h

/-! ## The same column scattering whole rows into a matrix -/

/-- The dimension numbers of `x.at[idx].set(v)` on a matrix `[N, B]` with `M` row updates `[M, B]`, the start
    indices a column `[M, 1]`: the updates' lane axis is the window, the operand's row axis inserted and scattered. -/
abbrev rowDims (N M B : ℕ) (wf : ScatterDims.WF ⟨2, ![N, B]⟩ ⟨2, ![M, 1]⟩ ⟨2, ![M, B]⟩ [1] [0] [0] 1) :
    ScatterDims ⟨2, ![N, B]⟩ ⟨2, ![M, 1]⟩ ⟨2, ![M, B]⟩ where
  updateWindowDims := [1]
  insertedWindowDims := [0]
  scatterDimsToOperandDims := [0]
  indexVectorDim := 1
  wf := wf

theorem rowDims_start0 {N M B w : ℕ} (wf) (j : (⟨2, ![M, B]⟩ : Shape).Idx) (idx : IVec ⟨2, ![M, 1]⟩ w) :
    (rowDims N M B wf).start j idx 0 = (idx (ix2 (j 0) (0 : Fin 1))).toInt := by
  unfold ScatterDims.start
  rw [dif_pos (show (0 : Fin 2) ∈ (rowDims N M B wf).scatterDimsToOperandDims from List.mem_singleton.mpr rfl)]
  have hsi : (rowDims N M B wf).siIdx j ⟨List.idxOf (0 : Fin 2) (rowDims N M B wf).scatterDimsToOperandDims,
      List.idxOf_lt_length_iff.2 (List.mem_singleton.mpr rfl)⟩ = ix2 (j 0) (0 : Fin 1) := by
    funext b; refine Fin.ext ?_
    match b with
    | ⟨0, _⟩ => rfl
    | ⟨1, _⟩ => rfl
  rw [hsi]
  rfl

theorem rowDims_start1 {N M B w : ℕ} (wf) (j : (⟨2, ![M, B]⟩ : Shape).Idx) (idx : IVec ⟨2, ![M, 1]⟩ w) :
    (rowDims N M B wf).start j idx 1 = 0 := by
  unfold ScatterDims.start
  rw [dif_neg (show ¬ (1 : Fin 2) ∈ (rowDims N M B wf).scatterDimsToOperandDims by
    show ¬ (1 : Fin 2) ∈ ([0] : List (Fin 2)); decide)]

theorem rowDims_window0 {N M B : ℕ} (wf) (j : (⟨2, ![M, B]⟩ : Shape).Idx) : (rowDims N M B wf).window j 0 = 0 := by
  unfold ScatterDims.window
  rw [dif_neg (show ¬ (0 : Fin 2) ∈ (rowDims N M B wf).sKept by
    show ¬ (0 : Fin 2) ∈ ([1] : List (Fin 2)); decide)]

theorem rowDims_window1 {N M B : ℕ} (wf) (j : (⟨2, ![M, B]⟩ : Shape).Idx) : (rowDims N M B wf).window j 1 = (j 1).val := by
  unfold ScatterDims.window
  rw [dif_pos (show (1 : Fin 2) ∈ (rowDims N M B wf).sKept by
    show (1 : Fin 2) ∈ ([1] : List (Fin 2)); decide)]
  rfl

/-- Update element `(k, q)` lands on element `(r, q')` of the matrix exactly when the signed start index of row `k`
    is `r` and the lanes agree. -/
theorem rowDims_lands {N M B w : ℕ} (wf) (j : (⟨2, ![M, B]⟩ : Shape).Idx) (idx : IVec ⟨2, ![M, 1]⟩ w) (i : (⟨2, ![N, B]⟩ : Shape).Idx) :
    (rowDims N M B wf).resultIdx? j idx = some i
      ↔ (idx (ix2 (j 0) (0 : Fin 1))).toInt = ((i 0).val : ℤ) ∧ (j 1).val = (i 1).val := by
  rw [resultIdx?_eq_some_iff]
  constructor
  · intro h
    have h0 := h 0
    have h1 := h 1
    rw [rowDims_start0, rowDims_window0] at h0
    rw [rowDims_start1, rowDims_window1] at h1
    exact ⟨by simpa using h0, by simpa using h1⟩
  · rintro ⟨h0, h1⟩ a
    match a with
    | ⟨0, _⟩ =>
      show (rowDims N M B wf).start j idx 0 + ((rowDims N M B wf).window j 0 : ℤ) = ((i 0).val : ℤ)
      rw [rowDims_start0, rowDims_window0]; simpa using h0
    | ⟨1, _⟩ =>
      show (rowDims N M B wf).start j idx 1 + ((rowDims N M B wf).window j 1 : ℤ) = ((i 1).val : ℤ)
      rw [rowDims_start1, rowDims_window1]; simpa using h1

/-! ## The rows that are hit, and the two scatters read by them -/

/-- Row `r` is hit by the column of start indices: some update row's signed start index is `r`. -/
def Hit {M w : ℕ} (idx : IVec ⟨2, ![M, 1]⟩ w) (r : ℕ) : Prop :=
  ∃ k : Fin M, (idx (ix2 k (0 : Fin 1))).toInt = (r : ℤ)

/-- The vector scatter of one constant, at `r`: the constant if row `r` is hit, the operand's element otherwise. -/
theorem scatter_vec_apply {N M w : ℕ} (wf) (x : (⟨1, ![N]⟩ : Shape).Idx → α) (idx : IVec ⟨2, ![M, 1]⟩ w)
    (upd : (⟨1, ![M]⟩ : Shape).Idx → α) (c : α) (hupd : ∀ j, upd j = c) (r : Fin N) :
    Host.scatter (vecDims N M wf) (fun _ b => b) x idx upd (ix1 r) = if Hit idx r.val then c else x (ix1 r) := by
  rw [scatter_const_apply _ _ _ _ c hupd]
  by_cases h : Hit idx r.val
  · rw [if_pos h, if_pos]
    obtain ⟨k, hk⟩ := h
    exact ⟨ix1 k, (vecDims_lands wf _ idx _).mpr hk⟩
  · rw [if_neg h, if_neg]
    rintro ⟨j, hj⟩
    exact h ⟨j 0, (vecDims_lands wf j idx _).mp hj⟩

/-- The row scatter of one constant, at `(r, q)`: the constant if row `r` is hit, the operand's element otherwise. -/
theorem scatter_row_apply {N M B w : ℕ} (wf) (x : (⟨2, ![N, B]⟩ : Shape).Idx → α) (idx : IVec ⟨2, ![M, 1]⟩ w)
    (upd : (⟨2, ![M, B]⟩ : Shape).Idx → α) (c : α) (hupd : ∀ j, upd j = c) (r : Fin N) (q : Fin B) :
    Host.scatter (rowDims N M B wf) (fun _ b => b) x idx upd (ix2 r q) = if Hit idx r.val then c else x (ix2 r q) := by
  rw [scatter_const_apply _ _ _ _ c hupd]
  by_cases h : Hit idx r.val
  · rw [if_pos h, if_pos]
    obtain ⟨k, hk⟩ := h
    exact ⟨ix2 k q, (rowDims_lands wf _ idx _).mpr ⟨hk, rfl⟩⟩
  · rw [if_neg h, if_neg]
    rintro ⟨j, hj⟩
    exact h ⟨j 0, ((rowDims_lands wf j idx _).mp hj).1⟩

end Cert.ScatterRead

end
-- ==== Proof.LibScatterAddRead.lean ====
/-
  A host scatter that ADDS, read at an index, on the extended reals.

  On the extended reals the accumulating scatter has one value whatever the order of the additions: the operand's
  element plus the sum of the update elements whose result index is that element. Two index layouts are read here,
  both with one start index per update row stored as a column [M, 1] of signed integers, both scattering along the
  operand's leading axis: a vector [N] receiving scalars and a matrix [N, B] receiving whole rows. Update row k lands
  on operand row r exactly when the signed start index of k equals r (a start index outside [0, N) lands nowhere and
  is dropped), so in both layouts the sum runs over the SAME set of update rows
      { k : the start index of k is r },
  and for the matrix the lane passes through: element (r, q) receives the elements (k, q) of those rows.
-/
import proofs.«133917_j824633721278_2_alg».proof.Proof.LibScatterRead
import Idealize.ShloMosaic.PureOps.Ideal

noncomputable section

open scoped BigOperators

namespace Cert.ScatterAddRead

open Idealize.ShloMosaic Idealize.ShloMosaic.ValueIdx Cert.ScatterRead
open scoped Classical

/-- The update rows whose signed start index is `r`. -/
def landing {M w : ℕ} (idx : IVec ⟨2, ![M, 1]⟩ w) (r : ℕ) : Finset (Fin M) :=
  Finset.univ.filter fun k => (idx (ix2 k (0 : Fin 1))).toInt = (r : ℤ)

theorem mem_landing {M w : ℕ} (idx : IVec ⟨2, ![M, 1]⟩ w) (r : ℕ) (k : Fin M) :
    k ∈ landing idx r ↔ (idx (ix2 k (0 : Fin 1))).toInt = (r : ℤ) := by
  unfold landing; rw [Finset.mem_filter]; exact ⟨fun h => h.2, fun h => ⟨Finset.mem_univ _, h⟩⟩

/-- A rank-1 index set is its one coordinate range. -/
def idxEquiv1 {n : ℕ} : (⟨1, ![n]⟩ : Shape).Idx ≃ Fin n where
  toFun i := i 0
  invFun := ix1
  left_inv i := (eq_ix1 i).symm
  right_inv _ := rfl

/-- THE ACCUMULATING VECTOR SCATTER READ AT `r`: the operand's element plus the sum of the updates of the rows that
    land on `r`. -/
theorem scatterAdd_vec_apply {φ : FTy} {N M w : ℕ} (wf) (x : FVec Ideal ⟨1, ![N]⟩ φ) (idx : IVec ⟨2, ![M, 1]⟩ w)
    (upd : FVec Ideal ⟨1, ![M]⟩ φ) (r : Fin N) :
    Host.scatterAdd (vecDims N M wf) x idx upd (ix1 r) = (x (ix1 r) + ∑ k ∈ landing idx r.val, upd (ix1 k) : EReal) := by
  show Ideal.hostScatterAdd (vecDims N M wf) x idx upd (ix1 r) = _
  unfold Ideal.hostScatterAdd landing
  congr 1
  rw [Finset.sum_filter, Finset.sum_filter, ← Equiv.sum_comp (idxEquiv1 (n := M)).symm]
  refine Finset.sum_congr rfl fun k _ => ?_
  show (if (vecDims N M wf).resultIdx? (ix1 k) idx = some (ix1 r) then upd (ix1 k) else 0) = _
  by_cases h : (idx (ix2 k (0 : Fin 1))).toInt = (r.val : ℤ)
  · rw [if_pos h, if_pos ((vecDims_lands wf (ix1 k) idx (ix1 r)).mpr h)]
  · rw [if_neg h, if_neg fun h' => h ((vecDims_lands wf (ix1 k) idx (ix1 r)).mp h')]

/-- THE ACCUMULATING ROW SCATTER READ AT `(r, q)`: the operand's element plus the sum, over the rows that land on
    `r`, of their elements in lane `q`. -/
theorem scatterAdd_row_apply {φ : FTy} {N M B w : ℕ} (wf) (x : FVec Ideal ⟨2, ![N, B]⟩ φ) (idx : IVec ⟨2, ![M, 1]⟩ w)
    (upd : FVec Ideal ⟨2, ![M, B]⟩ φ) (r : Fin N) (q : Fin B) :
    Host.scatterAdd (rowDims N M B wf) x idx upd (ix2 r q)
      = (x (ix2 r q) + ∑ k ∈ landing idx r.val, upd (ix2 k q) : EReal) := by
  show Ideal.hostScatterAdd (rowDims N M B wf) x idx upd (ix2 r q) = _
  unfold Ideal.hostScatterAdd landing
  congr 1
  rw [Finset.sum_filter, sum_idx2, Finset.sum_filter]
  refine Finset.sum_congr rfl fun k _ => ?_
  by_cases h : (idx (ix2 k (0 : Fin 1))).toInt = (r.val : ℤ)
  · rw [if_pos h, Finset.sum_eq_single q]
    · rw [if_pos ((rowDims_lands wf (ix2 k q) idx (ix2 r q)).mpr ⟨h, rfl⟩)]
    · intro b _ hb
      rw [if_neg]
      intro h'
      exact hb (Fin.ext ((rowDims_lands wf (ix2 k b) idx (ix2 r q)).mp h').2)
    · intro hq; exact absurd (Finset.mem_univ q) hq
  · rw [if_neg h]
    refine Finset.sum_eq_zero fun b _ => ?_
    rw [if_neg]
    intro h'
    exact h ((rowDims_lands wf (ix2 k b) idx (ix2 r q)).mp h').1

end Cert.ScatterAddRead

end
-- ==== Proof.GateSpec.lean ====
/-
  The homophily gate as one function of the argument arrays, and the law that joins its two arrangements.

  Nodes are the rows of a matrix x [100000, 128]. Row r is normalised by the larger of its Euclidean length and a
  small positive constant:
      a(r, q) = x(r, q) / max (sqrt (Σ_k x(r,k)²)) ε .
  An edge k reads the node s k and is accumulated into a node n when k belongs to the set E of edges whose target
  is n. One arrangement first sums the edges' normalised rows lane by lane and then takes the dot product with row n;
  the other takes each edge's dot product with the row t k of its target and then sums over the edges:
      Σ_d a(n,d) · Σ_{k ∈ E} a(s k, d)      against      Σ_{k ∈ E} Σ_d a(s k, d) · a(t k, d) .
  They agree because every t k with k ∈ E is n, and because every a(r, q) is a real number when x is: then the
  product distributes over the finite sum and the two sums exchange. Finiteness is used exactly there, and it comes
  from the divisor being at least ε > 0 (never zero, never infinite).
-/
import proofs.«133917_j824633721278_2_alg».proof.Proof.LibDotOfSums
import proofs.«133917_j824633721278_2_alg».proof.Proof.LibGatherRows
import proofs.«133917_j824633721278_2_alg».proof.Proof.LibScatterAddRead
import Idealize.ShloMosaic.PureOps.Ideal
import Idealize.ShloMosaic.Lib.ValueIdx

noncomputable section

open scoped BigOperators

namespace Cert.Gate

open Idealize.ShloMosaic Idealize.ShloMosaic.ValueIdx

/-- The node features' shape. -/
abbrev SND : Shape := ⟨2, ![100000, 128]⟩

/-- The lower clamp of a row's length: the single-precision number nearest 1e-12. -/
def eps : EReal := Ideal.ofBits .f32 0x2B8CBCCC#32

/-- The clamp is a positive real number. -/
theorem eps_pos : ∃ e : ℝ, 0 < e ∧ eps = (e : EReal) := by
  refine ⟨(9223372 : ℝ) * (2 : ℝ) ^ (-63 : ℤ), by positivity, ?_⟩
  unfold eps
  simp [Ideal.ofBits, Ideal.ieee, -EReal.coe_mul]

/-- The squared length of row `r`. -/
def sq (x : SND.Idx → EReal) (r : Fin 100000) : EReal := ∑ k : Fin 128, x (ix2 r k) * x (ix2 r k)

/-- The divisor of row `r`: its length, clamped below by `eps`. -/
def nrm (x : SND.Idx → EReal) (r : Fin 100000) : EReal := max (Ideal.sqrt (sq x r)) eps

/-- The normalised features. -/
def an (x : SND.Idx → EReal) : SND.Idx → EReal := fun i => Ideal.div (x i) (nrm x (i 0))

theorem an_apply (x : SND.Idx → EReal) (r : Fin 100000) (q : Fin 128) :
    an x (ix2 r q) = Ideal.div (x (ix2 r q)) (nrm x r) := rfl

/-- Real features have real normalised features: the divisor is a real number that is at least `eps`, so not zero. -/
theorem an_real (x : SND.Idx → EReal) (hx : ∀ i, ∃ v : ℝ, x i = (v : EReal)) (i : SND.Idx) :
    ∃ v : ℝ, an x i = (v : EReal) := by
  obtain ⟨e, he, hE⟩ := eps_pos
  choose xr hxr using hx
  have hsq : sq x (i 0) = ((∑ k : Fin 128, xr (ix2 (i 0) k) * xr (ix2 (i 0) k) : ℝ) : EReal) := by
    unfold sq
    rw [Cert.DotOfSums.coe_sum]
    exact Finset.sum_congr rfl fun k _ => by rw [hxr, EReal.coe_mul]
  have hnn : (0 : ℝ) ≤ ∑ k : Fin 128, xr (ix2 (i 0) k) * xr (ix2 (i 0) k) :=
    Finset.sum_nonneg fun k _ => mul_self_nonneg _
  have hn : nrm x (i 0)
      = ((max (Real.sqrt (∑ k : Fin 128, xr (ix2 (i 0) k) * xr (ix2 (i 0) k))) e : ℝ) : EReal) := by
    unfold nrm
    rw [hsq, Ideal.sqrt_coe, if_neg (not_lt.mpr hnn), hE]
    exact (EReal.coe_strictMono.monotone.map_max).symm
  have hne : max (Real.sqrt (∑ k : Fin 128, xr (ix2 (i 0) k) * xr (ix2 (i 0) k))) e ≠ 0 :=
    (lt_of_lt_of_le he (le_max_right _ _)).ne'
  refine ⟨xr i * (1 / max (Real.sqrt (∑ k : Fin 128, xr (ix2 (i 0) k) * xr (ix2 (i 0) k))) e), ?_⟩
  show Ideal.div (x i) (nrm x (i 0)) = _
  rw [hn, Ideal.div_coe hne, hxr, EReal.coe_mul]

/-- THE LAW, with the zero initial values the two programs' sums start from: over real features, the dot product of
    row `n` with the lane-wise sum of the edges' rows is the sum of the edges' dot products with their targets' rows,
    every target of an edge of `E` being `n`. -/
theorem dot_agg_eq_sum_sim {M : ℕ} (a : SND.Idx → EReal) (ha : ∀ i, ∃ v : ℝ, a i = (v : EReal))
    (E : Finset (Fin M)) (s t : Fin M → Fin 100000) (n : Fin 100000) (ht : ∀ k ∈ E, t k = n) :
    ∑ d : Fin 128, a (ix2 n d) * (0 + ∑ k ∈ E, a (ix2 (s k) d))
      = 0 + ∑ k ∈ E, (0 + ∑ d : Fin 128, a (ix2 (s k) d) * a (ix2 (t k) d)) := by
  choose ar har using ha
  simp only [zero_add]
  have key := Cert.DotOfSums.dot_of_sums E (fun d : Fin 128 => ar (ix2 n d)) (fun k d => ar (ix2 (s k) d))
  simp only [har]
  refine key.trans ?_
  exact Finset.sum_congr rfl fun k hk => by rw [ht k hk]

/-- THE GATE, as one function of the normalised features `a`, the temperature, the column of source rows `sW` (read
    clamped, as a gather reads it) and the column of target indices `tC` (read exactly, as a scatter reads it): at
    node `n`, the logistic of the temperature times the mean, over the edges whose target is `n`, of the dot products —
    written with the lane-wise sum taken first, and the count of those edges clamped below by one. -/
def gate (a : SND.Idx → EReal) (temp : EReal) (sW tC : IVec ⟨2, ![1700000, 1]⟩ 32) (n : Fin 100000) : EReal :=
  Ideal.logistic (temp * Ideal.div
    (∑ d : Fin 128, a (ix2 n d)
      * (0 + ∑ k ∈ Cert.ScatterAddRead.landing tC n.val, a (ix2 (Cert.GatherRows.row (by decide) sW k) d)))
    (max (0 + ∑ _k ∈ Cert.ScatterAddRead.landing tC n.val, (1 : EReal)) 1))

end Cert.Gate

end
-- ==== Proof.RefSide.lean ====
/-
  The reference, read at a node, is the gate.

  The reference normalises the rows, gathers for every edge the row of its source and the row of its target, takes the
  edge's dot product, scatters the dot products and a count of ones onto the targets, divides, scales by the temperature
  and applies 1 / (1 + exp (-·)). Read one operation at a time this is the gate with the sum over the edges taken last;
  the law of the specification turns it into the gate as stated. Two facts about indices enter: an edge whose target
  index, read exactly, is a node n has a non-negative index, so the wrap of negative indices leaves it alone and the
  gather's clamp reads row n; and the gathers read rows of the normalised features, which are real numbers when the
  features are.
-/
import proofs.«133917_j824633721278_2_alg».proof.Proof.Gen.ReferenceIdeal.Read
import proofs.«133917_j824633721278_2_alg».proof.Proof.GateSpec
import Idealize.ShloMosaic.Lib.IdealHost
import Idealize.ShloMosaic.PureOps.Ideal.Laws

noncomputable section

open scoped BigOperators

namespace Cert.ReferenceIdeal.RefValue

open Cert.ReferenceIdeal Cert.ReferenceIdeal.Gen Cert.ReferenceIdeal.Read
open Idealize.ShloMosaic Idealize.ShloMosaic.ValueIdx
open Cert.Gate Cert.GatherRows Cert.ScatterRead Cert.ScatterAddRead

/-! ## The normalised features -/

theorem idx_row (r : Fin 100000) (q k : Fin 128) :
    idx_main_call0_v1 (idx_main_call0_v2 (idx_main_v10 (ix2 r q))) k = ix2 r k :=
  funext fun a => Fin.ext (by match a with | ⟨0, _⟩ => rfl | ⟨1, _⟩ => rfl)

/-- The reference's normalised features are `an`. -/
theorem v11_apply (x0 : FVec Ideal S100000x128 .f32) (r : Fin 100000) (q : Fin 128) :
    val_main_v11 (F := Ideal) x0 (ix2 r q) = an x0 (ix2 r q) := by
  rw [an_apply, val_main_v11_apply, val_main_v10_apply, val_main_v9_apply, val_main_v7_apply,
    val_main_call0_v2_apply, val_main_call0_v1_apply, val_main_v8_apply, val_main_cst_apply,
    val_main_call0_cst_apply]
  simp only [val_main_call0_v0_apply, idx_row, Ideal.hostDivf_def, Ideal.maximumf_def, Ideal.hostUnary_sqrt_def,
    Ideal.mulf_def, Ideal.ofBits_def, Ideal.ofBits_zero_f32, zero_add]
  rfl

/-! ## The wrap of negative indices, and the two columns -/

/-- A word that is not negative as a signed integer is not moved by "add 100000 if negative". -/
theorem wrap_of_nonneg (a : BitVec 32) (h : 0 ≤ a.toInt) :
    Scalar.select (IntOp.cmpi .slt a 0#32) (IntOp.addi a 100000#32) a = a := by
  have hc : IntOp.cmpi .slt a 0#32 = 0#1 := by
    unfold IntOp.cmpi
    have : a.slt 0#32 = false := by
      simp only [BitVec.slt, BitVec.toInt_zero, decide_eq_false_iff_not, not_lt]; exact h
    simp only [this]; rfl
  rw [hc]; exact select_zero _ _

theorem v29_apply (x2 : IVec S2x1600000 32) (k : Fin 1700000) :
    val_main_v29 (F := Ideal) x2 (ix2 k (0 : Fin 1)) = val_main_v6 (F := Ideal) x2 (ix1 k) := by
  rw [val_main_v29_apply]
  exact congrArg _ (funext fun a => Fin.ext (by match a with | ⟨0, _⟩ => rfl))

theorem v24_apply (x2 : IVec S2x1600000 32) (k : Fin 1700000) :
    val_main_v24 (F := Ideal) x2 (ix2 k (0 : Fin 1))
      = Scalar.select (IntOp.cmpi .slt (val_main_v6 (F := Ideal) x2 (ix1 k)) 0#32)
          (IntOp.addi (val_main_v6 (F := Ideal) x2 (ix1 k)) 100000#32) (val_main_v6 (F := Ideal) x2 (ix1 k)) := by
  have hi : idx_main_v24 (ix2 k (0 : Fin 1)) = ix1 k := funext fun a => Fin.ext (by match a with | ⟨0, _⟩ => rfl)
  rw [val_main_v24_apply, hi, val_main_v23_apply, val_main_v20_apply, val_main_v22_apply, val_main_v19_apply,
    val_main_v21_apply, val_main_c_1_apply, val_main_c_2_apply]

/-- An edge that lands on node `n` gathers, for its target, row `n`. -/
theorem target_row (x2 : IVec S2x1600000 32) (n : Fin 100000) (k : Fin 1700000)
    (hk : k ∈ landing (val_main_v29 (F := Ideal) x2) n.val) :
    row (by decide) (val_main_v24 (F := Ideal) x2) k = n := by
  rw [mem_landing, v29_apply] at hk
  refine row_of_toInt _ _ k n ?_
  rw [v24_apply, wrap_of_nonneg _ (by rw [hk]; exact Int.natCast_nonneg _)]
  exact hk

/-! ## The gathers -/

theorem gatherDims_eq : gather_S100000x128_S1700000x1_S1700000x128_1_0_n_n_0_1_1128
    = rowGather 100000 1700000 128 Facts₀.gather_S100000x128_S1700000x1_S1700000x128_1_0_n_n_0_1_1128_wf := rfl

theorem v18_apply (x0 : FVec Ideal S100000x128 .f32) (x2 : IVec S2x1600000 32) (k : Fin 1700000) (d : Fin 128) :
    val_main_v18 (F := Ideal) x0 x2 (ix2 k d) = an x0 (ix2 (row (by decide) (val_main_v17 (F := Ideal) x2) k) d) := by
  unfold val_main_v18
  rw [gatherDims_eq, gather_rows_apply (by decide)]
  exact v11_apply x0 _ d

theorem v25_apply (x0 : FVec Ideal S100000x128 .f32) (x2 : IVec S2x1600000 32) (k : Fin 1700000) (d : Fin 128) :
    val_main_v25 (F := Ideal) x0 x2 (ix2 k d) = an x0 (ix2 (row (by decide) (val_main_v24 (F := Ideal) x2) k) d) := by
  unfold val_main_v25
  rw [gatherDims_eq, gather_rows_apply (by decide)]
  exact v11_apply x0 _ d

/-! ## The edges' dot products, the two scatters, the gate -/

/-- Edge `k`'s dot product of its source's row with its target's row. -/
theorem v27_apply (x0 : FVec Ideal S100000x128 .f32) (x2 : IVec S2x1600000 32) (k : Fin 1700000) :
    val_main_v27 (F := Ideal) x0 x2 (ix1 k)
      = 0 + ∑ d : Fin 128, an x0 (ix2 (row (by decide) (val_main_v17 (F := Ideal) x2) k) d)
          * an x0 (ix2 (row (by decide) (val_main_v24 (F := Ideal) x2) k) d) := by
  have hi : ∀ d : Fin 128, idx_main_v27 (ix1 k) d = ix2 k d := fun d =>
    funext fun a => Fin.ext (by match a with | ⟨0, _⟩ => rfl | ⟨1, _⟩ => rfl)
  rw [val_main_v27_apply, val_main_cst_3_apply]
  simp only [hi, val_main_v26_apply, v18_apply, v25_apply, Ideal.mulf_def, Ideal.ofBits_def, Ideal.ofBits_zero_f32]

theorem scatterDims_eq : scatter_S100000_S1700000x1_S1700000_n_0_0_1
    = vecDims 100000 1700000 Facts₀.scatter_S100000_S1700000x1_S1700000_n_0_0_1_wf := rfl

/-- Node `n`'s sum of the dot products of the edges that land on it. -/
theorem v30_apply (x0 : FVec Ideal S100000x128 .f32) (x2 : IVec S2x1600000 32) (n : Fin 100000) :
    val_main_v30 (F := Ideal) x0 x2 (ix1 n)
      = 0 + ∑ k ∈ landing (val_main_v29 (F := Ideal) x2) n.val,
          (0 + ∑ d : Fin 128, an x0 (ix2 (row (by decide) (val_main_v17 (F := Ideal) x2) k) d)
            * an x0 (ix2 (row (by decide) (val_main_v24 (F := Ideal) x2) k) d)) := by
  unfold val_main_v30
  rw [scatterDims_eq, scatterAdd_vec_apply, val_main_v28_apply, val_main_cst_4_apply]
  simp only [v27_apply, Ideal.ofBits_def, Ideal.ofBits_zero_f32]

/-- Node `n`'s count of the edges that land on it. -/
theorem v34_apply (x2 : IVec S2x1600000 32) (n : Fin 100000) :
    val_main_v34 (F := Ideal) x2 (ix1 n) = 0 + ∑ _k ∈ landing (val_main_v29 (F := Ideal) x2) n.val, (1 : EReal) := by
  unfold val_main_v34
  rw [scatterDims_eq, scatterAdd_vec_apply, val_main_v32_apply, val_main_cst_6_apply]
  simp only [val_main_v31_apply, val_main_cst_5_apply, Ideal.ofBits_def, Ideal.ofBits_zero_f32, Ideal.ofBits_one_f32]
  rfl

/-- THE REFERENCE AT NODE `n` IS THE GATE of the normalised features, the temperature, the wrapped source column and
    the target column, when the features are real numbers. -/
theorem ref_apply (x0 : FVec Ideal S100000x128 .f32) (x1 : FVec Ideal S1 .f32) (x2 : IVec S2x1600000 32)
    (hx0 : ∀ i, ∃ v : ℝ, x0 i = (v : EReal)) (n : Fin 100000) :
    val_main_v45 (F := Ideal) x0 x1 x2 (ix1 n)
      = gate (an x0) (x1 (ix1 (0 : Fin 1))) (val_main_v17 (F := Ideal) x2) (val_main_v29 (F := Ideal) x2) n := by
  have h1 : idx_main_v38 (ix1 n) = ix1 (0 : Fin 1) := funext fun a => Fin.ext (by match a with | ⟨0, _⟩ => rfl)
  rw [val_main_v45_apply, val_main_v44_apply, val_main_cst_9_apply, val_main_v43_apply, val_main_v42_apply,
    val_main_cst_8_apply, val_main_v41_apply, val_main_v40_apply, val_main_v39_apply, val_main_v38_apply, h1,
    val_main_v37_apply, val_main_v36_apply, val_main_v35_apply, val_main_cst_7_apply, v30_apply, v34_apply,
    ← dot_agg_eq_sum_sim (an x0) (an_real x0 hx0) (landing (val_main_v29 (F := Ideal) x2) n.val)
      (fun k => row (by decide) (val_main_v17 (F := Ideal) x2) k)
      (fun k => row (by decide) (val_main_v24 (F := Ideal) x2) k) n (fun k hk => target_row x2 n k hk)]
  unfold gate Ideal.logistic
  simp only [Ideal.hostDivf_def, Ideal.addf_def, Ideal.hostUnary_exp_def, Ideal.hostNegf_def, Ideal.negf_def,
    Ideal.mulf_def, Ideal.maximumf_def, Ideal.ofBits_def, Ideal.ofBits_one_f32]

end Cert.ReferenceIdeal.RefValue

end
-- ==== Proof.KRegion0.lean ====
/-
  The first kernel region (the row normalisation), as proof data for the pipeline.

  The region has one input window and one output window, both of 10000 rows by 128 lanes, tiling their arrays exactly
  over ten grid points. At a point the body loads the input block whole and stores the normalised block whole, so after
  the body the input's staging buffer holds its block and the output's holds the stored payload of that block. The
  invariant carried through the region is the untouched rest; nothing is owed; shares are full.
-/
import proofs.«133917_j824633721278_2_alg».proof.Proof.Gen.KernelIdeal.Launch
import proofs.«133917_j824633721278_2_alg».proof.Proof.Gen.KernelIdeal.Skeleton
import proofs.«133917_j824633721278_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The input's current staging buffer holds its block at every point, for any proof data over these arrays whose
    body leaves the block in place. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-- The whole block, as the rectangle the body's load and store use. -/
abbrev r0_0 : Rect S10000x128 := Rect.unit (s := S10000x128) ![0, 0] S10000x128.size inb_S10000x128_S10000x128_0_0

/-- The output's staging buffer after the body: the one whole store of the normalised block. -/
def out0_1 (x0 : Vec F S10000x128 .f32) : Vec F S10000x128 .f32 :=
  View.canon [⟨r0_0, k0_pay1 (View.ld x0 r0_0)⟩]

/-- The one store covers the buffer. -/
theorem cover0_1 (p0 : Vec F S10000x128 .f32) (y : S10000x128.Idx) :
    ∃ pc ∈ ([⟨r0_0, p0⟩] : List (View.Piece (Elt F) S10000x128 .f32)), y ∈ pc.1.set :=
  View.cover_of_tiled [⟨r0_0, p0⟩] S10000x128.size (by rfl) y

set_option maxHeartbeats 1000000 in
/-- The body on whole staging memrefs, the input's at its read contents and the output's at anything, runs to the
    continuation with the input's as it was and the output's at the stored block. -/
theorem sound_kernel0 (c : Dev nD) (E : Set ℕ) (i : grid0.Coords) (arg0 : Memref sig .tc .vmem S10000x128 .f32) (harg0 : arg0.IsWhole)
    (arg1 : Memref sig .tc .vmem S10000x128 .f32) (harg1 : arg1.IsWhole)
    (x0 : Vec F S10000x128 .f32) (K : PUnit → sProp 𝕄) :
    iprop(owns (c : Thread nD τ) arg0 fullShare x0 ∗ (∃ d, owns (c : Thread nD τ) arg1 fullShare d)
        ∗ (iprop(owns (c : Thread nD τ) arg0 fullShare x0 ∗ owns (c : Thread nD τ) arg1 fullShare (out0_1 x0)) -∗ K ⟨⟩))
      ⊢ wp frame (wpE (defs₀ (F := F)) Variants.none c none) E (cc0__normalize_kernel i arg0 harg0 arg1 harg1) K := by
  simp only [cc0__normalize_kernel_eq_skeleton]; unfold cc0__normalize_kernel_skel
  unfold owns
  iintro ⟨⟨%f0, %hf0, H0⟩, ⟨%d1, %f1, -, H1⟩, Hk⟩
  subst hf0
  sl_exec
  sl_step
  iapply Hk
  isplitl [H0]
  · iexists f0; isplitr; · ipureintro; rfl
    iexact H0
  iexists _; isplitr
  swap; · iexact H1
  ipureintro
  exact View.read_writes_eq_canon _ _ _ (cover0_1 _)

/-- The proof data of the first pipeline on core `c`. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => out0_1 (iblk0 V c 0 t)
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = out0_1 (iblk0 V c 0 t) := by dsimp only [dat0]

theorem before0_0 (c : Dev nD) (t : Fin cfg0.N) (d) : (dat0 V c).before 0 t d = iblk0 V c 0 t :=
  before0_0_of V (dat0 V c) (A_eq0 V c 0) (after0_0 V c) t d

/-- What the body is called with at point `t`, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t))

theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0]
  rw [show (dat0 V c).Φ t.succ = (dat0 V c).Φ t.castSucc from rfl,
    show (dat0 V c).owesAt () t.succ = (dat0 V c).owesAt () t.castSucc from rfl,
    after0_0, after0_1]
  iintro ⟨HΦ, Ho, ⟨%d0, H0⟩, ⟨%d1, H1⟩⟩
  iapply (sound_kernel0 c Set.univ _ _ _ _ _ (iblk0 V c 0 t) _)
  isplitl [H0]; · iexact H0
  isplitl [H1]; · iexists _; iexact H1
  iintro ⟨H0, H1⟩
  isplitl [HΦ]; · iexact HΦ
  isplitl [Ho]; · iexact Ho
  isplitl [H0]; · iexact H0
  iexact H1

/-- The library's body obligation, at every point. -/
theorem body_obligation0 (c : Dev nD) : BodyObligation (dat0 (F := F) V c) (defs₀ (F := F)) Variants.none () Set.univ := fun t => by
  rw [bigSep_W0, bigSep_W0]
  exact sound_body0 V c t

end Cert.KernelIdeal.Hand

end
-- ==== Proof.LibLayoutRead.lean ====
/-
  Layout operations read at explicit coordinates, for the shapes a row-wise normalisation meets.

  A keepdims row statistic lives in a column [a, 1]: it is made from a vector [a] by a shape cast and spread
  back over the b lanes of its row by a broadcast; a parameter vector [b] becomes a row [1, b] and is spread
  over the rows. On the host the same happens one rank up, on [n, g, 1] and [n, g, b], and a matrix [n, g*b] is
  re-read as [n, g, b] by its row-major position p*b + j. Each lemma names the ONE operand element an output element
  reads, with every index written by the literal-size constructors ix1, ix2, ix3.
-/
import Idealize.ShloMosaic.Lib.ValueIdx
import Idealize.ShloMosaic.Lib.Pipeline.Value
import Idealize.ShloMosaic.Lib.ValueLayout
import Idealize.ShloMosaic.PureOps.Ideal.Laws

noncomputable section

namespace Cert.LayoutRead

open Idealize.ShloMosaic Idealize.ShloMosaic.ValueIdx

variable {α : Type}

/-! ## Rank 2: a column of row statistics -/

/-- A vector [a] cast to the column [a, 1] reads, at (r, u), the vector at r. -/
theorem cast_col {a : ℕ} (x : (⟨1, ![a]⟩ : Shape).Idx → α) (h : (⟨1, ![a]⟩ : Shape).ShapeCasts ⟨2, ![a, 1]⟩)
    (r : Fin a) (u : Fin 1) : shapeCast ⟨2, ![a, 1]⟩ x h (ix2 r u) = x (ix1 r) :=
  shapeCast_apply x h _ _ (by
    have hu : u.val = 0 := by omega
    rw [Shape.rowMajor_val_two, Shape.rowMajor_val_one]
    show r.val = r.val * 1 + u.val
    omega)

/-- A column [a, 1] broadcast over b lanes reads, at (r, j), the column at row r. -/
theorem bcast_col {a b : ℕ} (v : (⟨2, ![a, 1]⟩ : Shape).Idx → α) (h : (⟨2, ![a, 1]⟩ : Shape).Broadcasts ⟨2, ![a, b]⟩)
    (r : Fin a) (j : Fin b) : broadcastTo ⟨2, ![a, b]⟩ v h (ix2 r j) = v (ix2 r (0 : Fin 1)) := by
  refine broadcastTo_apply v h (ix2 r j) (ix2 r (0 : Fin 1)) fun ax => ?_
  match ax with
  | ⟨0, _⟩ =>
    show r.val = if a = 1 then 0 else r.val
    split
    · have := r.isLt; omega
    · rfl
  | ⟨1, _⟩ => rfl

/-- The lane sum of a matrix, at row r, is the sum of that row (at the extended reals). -/
theorem rowsum {a b : ℕ} (src : FVec Ideal ⟨2, ![a, b]⟩ .f32) (h : (⟨2, ![a, b]⟩ : Shape).Reduces [1] ⟨1, ![a]⟩) (r : Fin a) :
    multiReduction .add [1] ⟨1, ![a]⟩ src 0x00000000#32 h (.inl rfl) rfl (ix1 r) = ∑ k : Fin b, src (ix2 r k) :=
  (Ideal.multiReduction_add_single src 0x00000000#32 h (.inl rfl) rfl (ix1 r)).trans
    (Finset.sum_congr rfl fun k _ => congrArg src (funext fun ax => by
      match ax with
      | ⟨0, _⟩ => rfl
      | ⟨1, _⟩ => rfl))

/-! ## The host's forms: broadcast_in_dim, the rank-3 view of the four gates, the host sum -/

/-- A coordinate is what a broadcast asks of it: itself, or zero when its axis has one element. -/
theorem unit_or (n : ℕ) (j : Fin n) : j.val = if n = 1 then 0 else j.val := by
  split
  · have := j.isLt; omega
  · rfl

/-- A rank-zero value broadcast to any shape reads its one element everywhere. -/
theorem bcast_scalar {t : Shape} (x : (⟨0, ![]⟩ : Shape).Idx → α) (dims : Fin 0 → Fin t.rank)
    (h : (⟨0, ![]⟩ : Shape).BroadcastsInDim t dims) (j : t.Idx) : broadcastInDim t dims h x j = x ix0 :=
  broadcastInDim_apply dims h x j ix0 fun a => a.elim0

/-- A vector [n] as the row [1, n]. -/
theorem bid_row {n : ℕ} (x : (⟨1, ![n]⟩ : Shape).Idx → α) (h : (⟨1, ![n]⟩ : Shape).BroadcastsInDim ⟨2, ![1, n]⟩ ![1])
    (u : Fin 1) (j : Fin n) : broadcastInDim ⟨2, ![1, n]⟩ ![1] h x (ix2 u j) = x (ix1 j) :=
  broadcastInDim_apply _ h x _ _ fun a => by
    match a with
    | ⟨0, _⟩ => exact unit_or n j

/-- A row [1, n] spread over m rows. -/
theorem bid_rows {m n : ℕ} (x : (⟨2, ![1, n]⟩ : Shape).Idx → α) (h : (⟨2, ![1, n]⟩ : Shape).BroadcastsInDim ⟨2, ![m, n]⟩ ![0, 1])
    (b : Fin m) (j : Fin n) : broadcastInDim ⟨2, ![m, n]⟩ ![0, 1] h x (ix2 b j) = x (ix2 (0 : Fin 1) j) :=
  broadcastInDim_apply _ h x _ _ fun a => by
    match a with
    | ⟨0, _⟩ => rfl
    | ⟨1, _⟩ => exact unit_or n j

/-- A vector [m] as the column [m, 1]. -/
theorem bid_col {m : ℕ} (x : (⟨1, ![m]⟩ : Shape).Idx → α) (h : (⟨1, ![m]⟩ : Shape).BroadcastsInDim ⟨2, ![m, 1]⟩ ![0])
    (b : Fin m) (u : Fin 1) : broadcastInDim ⟨2, ![m, 1]⟩ ![0] h x (ix2 b u) = x (ix1 b) :=
  broadcastInDim_apply _ h x _ _ fun a => by
    match a with
    | ⟨0, _⟩ => exact unit_or m b

/-- A column [m, 1] spread over n lanes. -/
theorem bid_cols {m n : ℕ} (x : (⟨2, ![m, 1]⟩ : Shape).Idx → α) (h : (⟨2, ![m, 1]⟩ : Shape).BroadcastsInDim ⟨2, ![m, n]⟩ ![0, 1])
    (b : Fin m) (j : Fin n) : broadcastInDim ⟨2, ![m, n]⟩ ![0, 1] h x (ix2 b j) = x (ix2 b (0 : Fin 1)) :=
  broadcastInDim_apply _ h x _ _ fun a => by
    match a with
    | ⟨0, _⟩ => exact unit_or m b
    | ⟨1, _⟩ => rfl

/-- A matrix [m, g] of per-gate statistics as [m, g, 1]. -/
theorem bid_stat {m g : ℕ} (x : (⟨2, ![m, g]⟩ : Shape).Idx → α) (h : (⟨2, ![m, g]⟩ : Shape).BroadcastsInDim ⟨3, ![m, g, 1]⟩ ![0, 1])
    (b : Fin m) (p : Fin g) (u : Fin 1) : broadcastInDim ⟨3, ![m, g, 1]⟩ ![0, 1] h x (ix3 b p u) = x (ix2 b p) :=
  broadcastInDim_apply _ h x _ _ fun a => by
    match a with
    | ⟨0, _⟩ => exact unit_or m b
    | ⟨1, _⟩ => exact unit_or g p

/-- Per-gate statistics [m, g, 1] spread over the n lanes of each gate. -/
theorem bid_stats {m g n : ℕ} (x : (⟨3, ![m, g, 1]⟩ : Shape).Idx → α)
    (h : (⟨3, ![m, g, 1]⟩ : Shape).BroadcastsInDim ⟨3, ![m, g, n]⟩ ![0, 1, 2])
    (b : Fin m) (p : Fin g) (j : Fin n) : broadcastInDim ⟨3, ![m, g, n]⟩ ![0, 1, 2] h x (ix3 b p j) = x (ix3 b p (0 : Fin 1)) :=
  broadcastInDim_apply _ h x _ _ fun a => by
    match a with
    | ⟨0, _⟩ => exact unit_or m b
    | ⟨1, _⟩ => exact unit_or g p
    | ⟨2, _⟩ => rfl

/-- The per-gate parameters [g, n] as [1, g, n]. -/
theorem bid_par {g n : ℕ} (x : (⟨2, ![g, n]⟩ : Shape).Idx → α) (h : (⟨2, ![g, n]⟩ : Shape).BroadcastsInDim ⟨3, ![1, g, n]⟩ ![1, 2])
    (u : Fin 1) (p : Fin g) (j : Fin n) : broadcastInDim ⟨3, ![1, g, n]⟩ ![1, 2] h x (ix3 u p j) = x (ix2 p j) :=
  broadcastInDim_apply _ h x _ _ fun a => by
    match a with
    | ⟨0, _⟩ => exact unit_or g p
    | ⟨1, _⟩ => exact unit_or n j

/-- The per-gate parameters [1, g, n] spread over m rows. -/
theorem bid_pars {m g n : ℕ} (x : (⟨3, ![1, g, n]⟩ : Shape).Idx → α)
    (h : (⟨3, ![1, g, n]⟩ : Shape).BroadcastsInDim ⟨3, ![m, g, n]⟩ ![0, 1, 2])
    (b : Fin m) (p : Fin g) (j : Fin n) : broadcastInDim ⟨3, ![m, g, n]⟩ ![0, 1, 2] h x (ix3 b p j) = x (ix3 (0 : Fin 1) p j) :=
  broadcastInDim_apply _ h x _ _ fun a => by
    match a with
    | ⟨0, _⟩ => rfl
    | ⟨1, _⟩ => exact unit_or g p
    | ⟨2, _⟩ => exact unit_or n j

/-- The four gates' pre-activations [m, 4096] re-read as [m, 4, 1024]: gate p, lane j is column 1024 p + j. -/
theorem cast_gates {m : ℕ} (x : (⟨2, ![m, 4096]⟩ : Shape).Idx → α) (h : (⟨2, ![m, 4096]⟩ : Shape).ShapeCasts ⟨3, ![m, 4, 1024]⟩)
    (b : Fin m) (p : Fin 4) (j : Fin 1024) (k : Fin 4096) (hk : k.val = 1024 * p.val + j.val) :
    shapeCast ⟨3, ![m, 4, 1024]⟩ x h (ix3 b p j) = x (ix2 b k) :=
  shapeCast_apply x h _ _ (by
    rw [Shape.rowMajor_val_two, Shape.rowMajor_val_three]
    show b.val * 4096 + k.val = (b.val * 4 + p.val) * 1024 + j.val
    omega)

/-- One gate cut out of [m, 4, n] keeps its row and lane. -/
theorem slice_gate {m n : ℕ} (o : ℕ) (x : (⟨3, ![m, 4, n]⟩ : Shape).Idx → α)
    (h : (⟨3, ![m, 4, n]⟩ : Shape).Slices ![0, o, 0] ⟨3, ![m, 1, n]⟩) (b : Fin m) (u : Fin 1) (j : Fin n) (p : Fin 4)
    (hp : p.val = o) : extractStridedSlice ⟨3, ![m, 1, n]⟩ ![0, o, 0] x h (ix3 b u j) = x (ix3 b p j) :=
  slice3_axis1_apply o x h b u j p (by have := u.isLt; omega)

/-- The cut gate [m, 1, n] as a matrix [m, n]. -/
theorem cast_gate {m n : ℕ} (x : (⟨3, ![m, 1, n]⟩ : Shape).Idx → α) (h : (⟨3, ![m, 1, n]⟩ : Shape).ShapeCasts ⟨2, ![m, n]⟩)
    (b : Fin m) (j : Fin n) : shapeCast ⟨2, ![m, n]⟩ x h (ix2 b j) = x (ix3 b (0 : Fin 1) j) :=
  shapeCast_apply x h _ _ (by
    rw [Shape.rowMajor_val_two, Shape.rowMajor_val_three]
    show (b.val * 1 + 0) * n + j.val = b.val * n + j.val
    rw [Nat.mul_one, Nat.add_zero])

/-- The host's sum over the lanes of each gate: the initial value plus the sum of the gate's lanes. -/
theorem hostsum_gate {m g n : ℕ} (x : FVec Ideal ⟨3, ![m, g, n]⟩ .f32) (init : (⟨0, ![]⟩ : Shape).Idx → Ideal .f32)
    (h' : (⟨3, ![m, g, n]⟩ : Shape).ReducesTo [2] ⟨2, ![m, g]⟩) (h : (⟨3, ![m, g, n]⟩ : Shape).Reduces [2] ⟨2, ![m, g]⟩)
    (hu : 0 < (⟨0, ![]⟩ : Shape).numel) (b : Fin m) (p : Fin g) :
    Host.reduceAdd x init h' hu (ix2 b p) = init ix0 + ∑ k : Fin n, x (ix3 b p k) := by
  unfold Host.reduceAdd
  rw [Ideal.hostReduceAdd_def, Ideal.hostReduceAdd_single h' h]
  refine congrArg₂ (· + ·) (congrArg init (funext fun a => a.elim0)) (Finset.sum_congr rfl fun k _ => congrArg x (funext fun ax => ?_))
  match ax with
  | ⟨0, _⟩ => rfl
  | ⟨1, _⟩ => rfl
  | ⟨2, _⟩ => rfl

/-- The host's sum over the lanes of a matrix row. -/
theorem hostsum_row {m n : ℕ} (x : FVec Ideal ⟨2, ![m, n]⟩ .f32) (init : (⟨0, ![]⟩ : Shape).Idx → Ideal .f32)
    (h' : (⟨2, ![m, n]⟩ : Shape).ReducesTo [1] ⟨1, ![m]⟩) (h : (⟨2, ![m, n]⟩ : Shape).Reduces [1] ⟨1, ![m]⟩)
    (hu : 0 < (⟨0, ![]⟩ : Shape).numel) (b : Fin m) :
    Host.reduceAdd x init h' hu (ix1 b) = init ix0 + ∑ k : Fin n, x (ix2 b k) := by
  unfold Host.reduceAdd
  rw [Ideal.hostReduceAdd_def, Ideal.hostReduceAdd_single h' h]
  refine congrArg₂ (· + ·) (congrArg init (funext fun a => a.elim0)) (Finset.sum_congr rfl fun k _ => congrArg x (funext fun ax => ?_))
  match ax with
  | ⟨0, _⟩ => rfl
  | ⟨1, _⟩ => rfl

end Cert.LayoutRead

end
-- ==== Proof.KernelPay.lean ====
/-
  What the two kernel bodies store, read at an index, on the extended reals.

  The first body stores, for its block of 10000 rows, each entry divided by the larger of its row's length and the
  clamp: entry (p, q) of the stored block depends on row p of the loaded block only. The second body stores one row of
  5888 lanes: lane j is the logistic of the temperature times the quotient of the dot product of row j of its two
  loaded blocks by the larger of the j-th count and one. The column of dot products becomes a row by a transpose;
  the temperature, a [1,1] block, is spread over the lanes.
-/
import proofs.«133917_j824633721278_2_alg».proof.Proof.Gen.KernelIdeal.Skeleton
import proofs.«133917_j824633721278_2_alg».proof.Proof.LibLayoutRead
import Idealize.ShloMosaic.Lib.ValueLayout
import Idealize.ShloMosaic.Lib.Pipeline.Value
import Idealize.ShloMosaic.PureOps.Ideal.Laws

noncomputable section

open scoped BigOperators

namespace Cert.KernelIdeal.Pay

open Cert.KernelIdeal Cert.KernelIdeal.Gen
open Idealize.ShloMosaic Idealize.ShloMosaic.ValueIdx Cert.LayoutRead

/-- A [1, 1] block spread over b lanes reads its one element everywhere. -/
theorem bcast_11 {α : Type} {b : ℕ} (v : (⟨2, ![1, 1]⟩ : Shape).Idx → α)
    (h : (⟨2, ![1, 1]⟩ : Shape).Broadcasts ⟨2, ![1, b]⟩) (u : Fin 1) (j : Fin b) :
    broadcastTo ⟨2, ![1, b]⟩ v h (ix2 u j) = v (ix2 (0 : Fin 1) (0 : Fin 1)) := by
  refine broadcastTo_apply v h (ix2 u j) (ix2 (0 : Fin 1) (0 : Fin 1)) fun ax => ?_
  match ax with
  | ⟨0, _⟩ => rfl
  | ⟨1, _⟩ => rfl

/-- THE NORMALISED BLOCK AT `(p, q)`: the entry over the clamped length of its row. -/
theorem pay0_apply (v0 : Vec Ideal S10000x128 .f32) (p : Fin 10000) (q : Fin 128) :
    k0_pay1 (F := Ideal) v0 (ix2 p q)
      = Ideal.div (v0 (ix2 p q))
          (max (Ideal.sqrt (∑ k : Fin 128, v0 (ix2 p k) * v0 (ix2 p k))) (Ideal.ofBits .f32 0x2B8CBCCC#32)) := by
  unfold k0_pay1
  rw [divf_apply, bcast_col, maximumf_apply]
  show Ideal.div _ (max (Ideal.sqrt (shapeCast S10000x1 _ shapeCasts_S10000_S10000x1 (ix2 p (0 : Fin 1)))) _) = _
  rw [cast_col, rowsum]
  rfl

/-- THE GATE'S ROW AT LANE `j`: the logistic of the temperature times the dot product of row `j` of the two blocks over
    the clamped count. -/
theorem pay1_apply (v0 v2 : Vec Ideal S5888x128 .f32) (v8 : Vec Ideal S1x5888 .f32) (v13 : Vec Ideal S1x1 .f32)
    (u : Fin 1) (j : Fin 5888) :
    k1_pay1 (F := Ideal) v0 v2 v8 v13 (ix2 u j)
      = Ideal.logistic (v13 (ix2 (0 : Fin 1) (0 : Fin 1))
          * Ideal.div (∑ k : Fin 128, v0 (ix2 j k) * v2 (ix2 j k))
              (max (v8 (ix2 u j)) (Ideal.ofBits .f32 0x3F800000#32))) := by
  unfold k1_pay1
  simp only [shapeCast_self]
  show Ideal.logistic (broadcastTo S1x5888 v13 broadcasts_S1x1_S1x5888 (ix2 u j)
      * Ideal.div (transpose S1x5888 [1, 0] _ transposes_S5888x1_p1_0_S1x5888 (ix2 u j)) (max (v8 (ix2 u j)) _)) = _
  rw [bcast_11, transpose_ix2_apply, cast_col, rowsum]
  rfl

end Cert.KernelIdeal.Pay

end
-- ==== Proof.KRegion1.lean ====
/-
  The second kernel region (the per-node finalisation), as proof data for the pipeline, on the extended reals.

  Seventeen grid points of 5888 nodes cover 100000 nodes: the last block overhangs by 96. A fetch of an overhanging
  block fills only the leading 5792 rows (or lanes) of its staging buffer; what the rest holds is not named. The body
  loads the two 5888 x 128 blocks, the 1 x 5888 row of counts and the 1 x 1 temperature whole, and stores one row of
  5888 lanes. Lane j of that row is the logistic of the temperature times the quotient of the dot product of ROW j of
  the two blocks by the clamped j-th count: it reads nothing of the other rows. So on the lanes the write-back
  moves (the leading ones) the stored row does not depend on what the unnamed rows hold, and the region's output is
  a function of the arrays; past them it may be anything, and the write-back does not move it.
-/
import proofs.«133917_j824633721278_2_alg».proof.Proof.Gen.KernelIdeal.Launch
import proofs.«133917_j824633721278_2_alg».proof.Proof.Gen.KernelIdeal.Skeleton
import proofs.«133917_j824633721278_2_alg».proof.Proof.Gen.KernelIdeal.Points
import proofs.«133917_j824633721278_2_alg».proof.Proof.KernelPay
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

local notation "𝕄" => MT nD τ sig Unit (Elt Ideal) ℕ (UR sig nD τ) ℕ

variable (V : (c : Dev nD) → (b : Ref sig .tc) → Buf (Elt Ideal) ((c : Thread nD τ).loc b))

/-- Window `w`'s block at point `t`, its part inside the array, read off the array as the region finds it. -/
def iblk1 (c : Dev nD) (w : Fin cfg1.W) (t : Fin cfg1.N) : ((cfg1.win w).xblock (cfg1.grid.coords t)).Idx → Elt Ideal (cfg1.win w).elt :=
  ((cfg1.win w).blk t).view.read (Elt Ideal) (V c (Pipeline.arrRef spec1 w))

/-- The three clipped inputs' staging buffers after the body, stated on the rows inside the array; the filler past
    them is the zero word, and nothing reads it. -/
def a0 (c : Dev nD) (t : Fin cfg1.N) : S5888x128.Idx → Elt Ideal .f32 :=
  win1_0.fill (grid1.coords t) (fun _ => Scalar.ofBits (F := Ideal) .f32 0#32) (iblk1 V c 0 t)
def a1 (c : Dev nD) (t : Fin cfg1.N) : S5888x128.Idx → Elt Ideal .f32 :=
  win1_1.fill (grid1.coords t) (fun _ => Scalar.ofBits (F := Ideal) .f32 0#32) (iblk1 V c 1 t)
def a2 (c : Dev nD) (t : Fin cfg1.N) : S1x5888.Idx → Elt Ideal .f32 :=
  win1_2.fill (grid1.coords t) (fun _ => Scalar.ofBits (F := Ideal) .f32 0#32) (iblk1 V c 2 t)
/-- The temperature's block. -/
def a3 (c : Dev nD) (t : Fin cfg1.N) : S1x1.Idx → Elt Ideal .f32 := iblk1 V c 3 t
/-- The stored row, of the blocks so filled. -/
def a4 (c : Dev nD) (t : Fin cfg1.N) : S1x5888.Idx → Elt Ideal .f32 :=
  k1_pay1 (F := Ideal) (a0 V c t) (a1 V c t) (a2 V c t) (a3 V c t)

/-- The proof data of the second pipeline on core `c`. -/
def dat1 (c : Dev nD) : Dat τ (Elt Ideal) Unit ℕ (UR sig nD τ) ℕ cfg1 c where
  A w := V c (Pipeline.arrRef spec1 w)
  after w t := match w with
    | ⟨0, _⟩ => a0 V c t
    | ⟨1, _⟩ => a1 V c t
    | ⟨2, _⟩ => a2 V c t
    | ⟨3, _⟩ => a3 V c t
    | ⟨4, _⟩ => a4 V c t
  Φ _ := Pipeline.ΦA spec1 c
  q _ := fullShare
  owed _ := 0

theorem A_eq1 (c : Dev nD) (w : Fin cfg1.W) : (dat1 V c).A w = V c (Pipeline.arrRef spec1 w) := by
  dsimp only [dat1]

theorem after1_0 (c : Dev nD) (t : Fin cfg1.N) : (dat1 V c).after 0 t = a0 V c t := by dsimp only [dat1]
theorem after1_1 (c : Dev nD) (t : Fin cfg1.N) : (dat1 V c).after 1 t = a1 V c t := by dsimp only [dat1]
theorem after1_2 (c : Dev nD) (t : Fin cfg1.N) : (dat1 V c).after 2 t = a2 V c t := by dsimp only [dat1]
theorem after1_3 (c : Dev nD) (t : Fin cfg1.N) : (dat1 V c).after 3 t = a3 V c t := by dsimp only [dat1]
theorem after1_4 (c : Dev nD) (t : Fin cfg1.N) : (dat1 V c).after 4 t = a4 V c t := by dsimp only [dat1]

/-- What the body finds: the three clipped inputs just fetched — the block on the part inside the array, `d` past it. -/
theorem before1_0 (c : Dev nD) (t : Fin cfg1.N) (d) :
    (dat1 V c).before (0 : Fin 5) t d = win1_0.fill (grid1.coords t) d (iblk1 V c 0 t) := by
  unfold Dat.before; rw [if_pos (fetch1_0 t)]; rfl
theorem before1_1 (c : Dev nD) (t : Fin cfg1.N) (d) :
    (dat1 V c).before (1 : Fin 5) t d = win1_1.fill (grid1.coords t) d (iblk1 V c 1 t) := by
  unfold Dat.before; rw [if_pos (fetch1_1 t)]; rfl
theorem before1_2 (c : Dev nD) (t : Fin cfg1.N) (d) :
    (dat1 V c).before (2 : Fin 5) t d = win1_2.fill (grid1.coords t) d (iblk1 V c 2 t) := by
  unfold Dat.before; rw [if_pos (fetch1_2 t)]; rfl
/-- The temperature's buffer holds its block at every point, fetched at the first only: the block index never moves. -/
theorem before1_3 (c : Dev nD) (t : Fin cfg1.N) (d) : (dat1 V c).before (3 : Fin 5) t d = a3 V c t :=
  ((dat1 V c).before_in_eq_fetched 3 rfl (fun _ => rfl) (fun _ _ _ => rfl)
    (fun t => by rw [after1_3]; unfold Dat.blockOf a3 iblk1; rw [A_eq1]; try rfl) t d).trans
    (by unfold Dat.fetched Dat.blockOf a3 iblk1; rw [A_eq1]; try rfl)

/-- The output window is never fetched, -/
theorem fetch1_4 : ∀ t : Fin cfg1.N, (cfg1.win 4).fetch t = false :=
  (by decide +kernel : ∀ t : Fin grid1.N, win1_4.fetch t = false)
/-- and is written back at every point: its buffer arrives at contents nothing names. -/
theorem before1_4 (c : Dev nD) (t : Fin cfg1.N) (d) : (dat1 V c).before (4 : Fin 5) t d = d := by
  unfold Dat.before
  rw [if_neg (by rw [fetch1_4 t]; exact Bool.false_ne_true)]
  by_cases h0 : t.val = 0
  · rw [if_pos h0]
  · rw [if_neg h0]; exact if_pos (flush1_4 _)

/-! ## The body on whole staging buffers -/

abbrev r1_0 : Rect S5888x128 := Rect.unit (s := S5888x128) ![0, 0] S5888x128.size inb_S5888x128_S5888x128_0_0
abbrev r1_2 : Rect S1x5888 := Rect.unit (s := S1x5888) ![0, 0] S1x5888.size inb_S1x5888_S1x5888_0_0
abbrev r1_3 : Rect S1x1 := Rect.unit (s := S1x1) ![0, 0] S1x1.size inb_S1x1_S1x1_0_0

/-- The output's staging buffer after the body: the one whole store. -/
def out1_4 (x0 x1 : Vec Ideal S5888x128 .f32) (x2 : Vec Ideal S1x5888 .f32) (x3 : Vec Ideal S1x1 .f32) : Vec Ideal S1x5888 .f32 :=
  View.canon [⟨r1_2, k1_pay1 (F := Ideal) (View.ld x0 r1_0) (View.ld x1 r1_0) (View.ld x2 r1_2) (View.ld x3 r1_3)⟩]

theorem cover1_4 (p0 : Vec Ideal S1x5888 .f32) (y : S1x5888.Idx) :
    ∃ pc ∈ ([⟨r1_2, p0⟩] : List (View.Piece (Elt Ideal) S1x5888 .f32)), y ∈ pc.1.set :=
  View.cover_of_tiled [⟨r1_2, p0⟩] S1x5888.size (by rfl) y

/-- One whole store of whole loads: the stored row is the payload of the buffers' contents. -/
theorem out1_4_eq (x0 x1 : Vec Ideal S5888x128 .f32) (x2 : Vec Ideal S1x5888 .f32) (x3 : Vec Ideal S1x1 .f32) :
    out1_4 x0 x1 x2 x3 = k1_pay1 (F := Ideal) x0 x1 x2 x3 := by
  have hz : (![0, 0] : Fin 2 → Nat) = fun _ => 0 := funext fun a => by fin_cases a <;> rfl
  unfold out1_4
  rw [View.canon_unit_zero hz]
  simp only [View.ld_unit_zero (S := S5888x128) hz, View.ld_unit_zero (S := S1x5888) hz, View.ld_unit_zero (S := S1x1) hz]

set_option maxHeartbeats 2000000 in
/-- The body on whole staging memrefs, the four inputs' at their read contents and the output's at anything, runs to
    the continuation with the inputs' as they were and the output's at the stored row. -/
theorem sound_kernel1 (c : Dev nD) (E : Set ℕ) (i : grid1.Coords)
    (arg1 : Memref sig .tc .vmem S5888x128 .f32) (harg1 : arg1.IsWhole) (arg2 : Memref sig .tc .vmem S5888x128 .f32) (harg2 : arg2.IsWhole)
    (arg3 : Memref sig .tc .vmem S1x5888 .f32) (harg3 : arg3.IsWhole) (arg4 : Memref sig .tc .vmem S1x1 .f32) (harg4 : arg4.IsWhole)
    (arg5 : Memref sig .tc .vmem S1x5888 .f32) (harg5 : arg5.IsWhole)
    (x0 x1 : Vec Ideal S5888x128 .f32) (x2 : Vec Ideal S1x5888 .f32) (x3 : Vec Ideal S1x1 .f32) (K : PUnit → sProp 𝕄) :
    iprop(owns (c : Thread nD τ) arg1 fullShare x0 ∗ owns (c : Thread nD τ) arg2 fullShare x1
        ∗ owns (c : Thread nD τ) arg3 fullShare x2 ∗ owns (c : Thread nD τ) arg4 fullShare x3
        ∗ (∃ d, owns (c : Thread nD τ) arg5 fullShare d)
        ∗ (iprop(owns (c : Thread nD τ) arg1 fullShare x0 ∗ owns (c : Thread nD τ) arg2 fullShare x1
            ∗ owns (c : Thread nD τ) arg3 fullShare x2 ∗ owns (c : Thread nD τ) arg4 fullShare x3
            ∗ owns (c : Thread nD τ) arg5 fullShare (out1_4 x0 x1 x2 x3)) -∗ K ⟨⟩))
      ⊢ wp frame (wpE (defs₀ (F := Ideal)) Variants.none c none) E
          (cc1__finalize_kernel i arg1 harg1 arg2 harg2 arg3 harg3 arg4 harg4 arg5 harg5) K := by
  simp only [cc1__finalize_kernel_eq_skeleton]; unfold cc1__finalize_kernel_skel
  unfold owns
  iintro ⟨⟨%f0, %hf0, H0⟩, ⟨%f1, %hf1, H1⟩, ⟨%f2, %hf2, H2⟩, ⟨%f3, %hf3, H3⟩, ⟨%d4, %f4, -, H4⟩, Hk⟩
  subst hf0; subst hf1; subst hf2; subst hf3
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  iexists _; isplitr
  swap; · iexact H4
  ipureintro
  exact View.read_writes_eq_canon _ _ _ (cover1_4 _)

/-! ## What the transfers move, and that the stored row does not read past it -/

/-- The clipped windows cut alike at every point: the rows of the two feature blocks, the lanes of the counts and the
    lanes of the output are cut at one place; the other axes are not cut. -/
theorem xs (t : Fin cfg1.N) :
    win1_0.xsize (grid1.coords t) 0 = win1_4.xsize (grid1.coords t) 1 ∧ win1_0.xsize (grid1.coords t) 1 = 128
    ∧ win1_1.xsize (grid1.coords t) 0 = win1_4.xsize (grid1.coords t) 1 ∧ win1_1.xsize (grid1.coords t) 1 = 128
    ∧ win1_2.xsize (grid1.coords t) 0 = 1 ∧ win1_2.xsize (grid1.coords t) 1 = win1_4.xsize (grid1.coords t) 1
    ∧ win1_4.xsize (grid1.coords t) 0 = 1 :=
  (by decide +kernel : ∀ t : Fin grid1.N,
    win1_0.xsize (grid1.coords t) 0 = win1_4.xsize (grid1.coords t) 1 ∧ win1_0.xsize (grid1.coords t) 1 = 128
    ∧ win1_1.xsize (grid1.coords t) 0 = win1_4.xsize (grid1.coords t) 1 ∧ win1_1.xsize (grid1.coords t) 1 = 128
    ∧ win1_2.xsize (grid1.coords t) 0 = 1 ∧ win1_2.xsize (grid1.coords t) 1 = win1_4.xsize (grid1.coords t) 1
    ∧ win1_4.xsize (grid1.coords t) 0 = 1) t

/-- On the part a transfer moves, a filled block does not depend on what it was filled over. -/
theorem fill_of_moved {α : Type} (w : Pipeline.Window sig grid1) (i : grid1.Coords) (d d' : w.block.Idx → α)
    (g : (w.xblock i).Idx → α) (j : w.block.Idx) (h : w.moved i j = true) : w.fill i d g j = w.fill i d' g j := by
  unfold Pipeline.Window.fill; rw [dif_pos h, dif_pos h]

/-- THE STORED ROW ON THE LANES THE WRITE-BACK MOVES does not depend on what the three clipped buffers hold past
    their arrays' ends: lane `j` reads row `j` of the two feature blocks and lane `j` of the counts, all inside. -/
theorem cut_agree (c : Dev nD) (t : Fin cfg1.N) (d0 d1 : S5888x128.Idx → Elt Ideal .f32) (d2 : S1x5888.Idx → Elt Ideal .f32) :
    win1_4.cut (grid1.coords t) (k1_pay1 (F := Ideal) (win1_0.fill (grid1.coords t) d0 (iblk1 V c 0 t))
        (win1_1.fill (grid1.coords t) d1 (iblk1 V c 1 t)) (win1_2.fill (grid1.coords t) d2 (iblk1 V c 2 t)) (a3 V c t))
      = win1_4.cut (grid1.coords t) (a4 V c t) := by
  obtain ⟨h00, h01, h10, h11, h20, h21, h40⟩ := xs t
  funext j
  have hj1 : (j 1).val < win1_4.xsize (grid1.coords t) 1 := (j 1).isLt
  have hj0 : (j 0).val < win1_4.xsize (grid1.coords t) 0 := (j 0).isLt
  have hl : (j 1).val < 5888 := lt_of_lt_of_le hj1 (win1_4.xsize_le (grid1.coords t) 1)
  have hu : (j 0).val < 1 := by rw [h40] at hj0; exact hj0
  have hx : win1_4.xinj (grid1.coords t) j = ix2 (⟨(j 0).val, hu⟩ : Fin 1) (⟨(j 1).val, hl⟩ : Fin 5888) :=
    funext fun a => by match a with | ⟨0, _⟩ => rfl | ⟨1, _⟩ => rfl
  show k1_pay1 (F := Ideal) _ _ _ _ (win1_4.xinj (grid1.coords t) j) = a4 V c t (win1_4.xinj (grid1.coords t) j)
  rw [hx]
  unfold a4
  rw [Cert.KernelIdeal.Pay.pay1_apply, Cert.KernelIdeal.Pay.pay1_apply]
  have e0 : ∀ k : Fin 128, win1_0.fill (grid1.coords t) d0 (iblk1 V c 0 t) (ix2 (⟨(j 1).val, hl⟩ : Fin 5888) k)
      = a0 V c t (ix2 (⟨(j 1).val, hl⟩ : Fin 5888) k) := fun k =>
    fill_of_moved win1_0 _ _ _ _ _ ((win1_0.moved_iff _ _).mpr fun a => by
      match a with
      | ⟨0, _⟩ => show (j 1).val < win1_0.xsize (grid1.coords t) 0; rw [h00]; exact hj1
      | ⟨1, _⟩ => show k.val < win1_0.xsize (grid1.coords t) 1; rw [h01]; exact k.isLt)
  have e1 : ∀ k : Fin 128, win1_1.fill (grid1.coords t) d1 (iblk1 V c 1 t) (ix2 (⟨(j 1).val, hl⟩ : Fin 5888) k)
      = a1 V c t (ix2 (⟨(j 1).val, hl⟩ : Fin 5888) k) := fun k =>
    fill_of_moved win1_1 _ _ _ _ _ ((win1_1.moved_iff _ _).mpr fun a => by
      match a with
      | ⟨0, _⟩ => show (j 1).val < win1_1.xsize (grid1.coords t) 0; rw [h10]; exact hj1
      | ⟨1, _⟩ => show k.val < win1_1.xsize (grid1.coords t) 1; rw [h11]; exact k.isLt)
  have e2 : win1_2.fill (grid1.coords t) d2 (iblk1 V c 2 t) (ix2 (⟨(j 0).val, hu⟩ : Fin 1) (⟨(j 1).val, hl⟩ : Fin 5888))
      = a2 V c t (ix2 (⟨(j 0).val, hu⟩ : Fin 1) (⟨(j 1).val, hl⟩ : Fin 5888)) :=
    fill_of_moved win1_2 _ _ _ _ _ ((win1_2.moved_iff _ _).mpr fun a => by
      match a with
      | ⟨0, _⟩ => show (j 0).val < win1_2.xsize (grid1.coords t) 0; rw [h20]; exact hu
      | ⟨1, _⟩ => show (j 1).val < win1_2.xsize (grid1.coords t) 1; rw [h21]; exact hj1)
  simp only [e0, e1, e2]

/-! ## The body obligation -/

/-- The library's body obligation: the three clipped inputs arrive holding their blocks filled out with unnamed
    contents past the arrays' ends and leave as they came, which on the moved part is their blocks; the temperature's
    buffer holds its block; the output's buffer arrives at anything and leaves at the stored row, which on the moved
    part is the row of the zero-filled blocks (`cut_agree`). -/
theorem body_obligation1 (c : Dev nD) : BodyObligationLoose (dat1 V c) (defs₀ (F := Ideal)) Variants.none () Set.univ := fun t => by
  rw [bigSep_W1, bigSep_W1]
  simp only
  rw [show (dat1 V c).Φ t.succ = (dat1 V c).Φ t.castSucc from rfl,
    show (dat1 V c).owesAt () t.succ = (dat1 V c).owesAt () t.castSucc from rfl]
  show _ ⊢ wp frame (wpE (defs₀ (F := Ideal)) Variants.none c none) Set.univ (bodyAt1 t) _
  iintro ⟨HΦ, Ho, ⟨%d0, H0⟩, ⟨%d1, H1⟩, ⟨%d2, H2⟩, ⟨%d3, H3⟩, ⟨%d4, H4⟩⟩
  rw [before1_0 V c t d0, before1_1 V c t d1, before1_2 V c t d2, before1_3 V c t d3, before1_4 V c t d4]
  iapply (sound_kernel1 c Set.univ (grid1.coords t)
    (win1_0.stage (cfg1.slots t 0)) (hstage1_0 ((cfg1.slots t 0).cast nbuf1_0))
    (win1_1.stage (cfg1.slots t 1)) (hstage1_1 ((cfg1.slots t 1).cast nbuf1_1))
    (win1_2.stage (cfg1.slots t 2)) (hstage1_2 ((cfg1.slots t 2).cast nbuf1_2))
    (win1_3.stage (cfg1.slots t 3)) (hstage1_3 ((cfg1.slots t 3).cast nbuf1_3))
    (win1_4.stage (cfg1.slots t 4)) (hstage1_4 ((cfg1.slots t 4).cast nbuf1_4))
    (win1_0.fill (grid1.coords t) d0 (iblk1 V c 0 t)) (win1_1.fill (grid1.coords t) d1 (iblk1 V c 1 t))
    (win1_2.fill (grid1.coords t) d2 (iblk1 V c 2 t)) (a3 V c t) _)
  isplitl [H0]; · iexact H0
  isplitl [H1]; · iexact H1
  isplitl [H2]; · iexact H2
  isplitl [H3]; · iexact H3
  isplitl [H4]; · iexists _; iexact H4
  iintro ⟨H0, H1, H2, H3, H4⟩
  isplitl [HΦ]; · iexact HΦ
  isplitl [Ho]; · iexact Ho
  have hc0 : win1_0.cut (grid1.coords t) (a0 V c t) = iblk1 V c 0 t := win1_0.cut_fill _ _ _
  have hc1 : win1_1.cut (grid1.coords t) (a1 V c t) = iblk1 V c 1 t := win1_1.cut_fill _ _ _
  have hc2 : win1_2.cut (grid1.coords t) (a2 V c t) = iblk1 V c 2 t := win1_2.cut_fill _ _ _
  isplitl [H0]
  · iexists d0
    change _ ⊢ owns (c : Thread nD τ) (st1_0 t) fullShare (win1_0.fill (grid1.coords t) d0 (win1_0.cut (grid1.coords t) (a0 V c t)))
    rw [hc0]; try iexact H0
  isplitl [H1]
  · iexists d1
    change _ ⊢ owns (c : Thread nD τ) (st1_1 t) fullShare (win1_1.fill (grid1.coords t) d1 (win1_1.cut (grid1.coords t) (a1 V c t)))
    rw [hc1]; try iexact H1
  isplitl [H2]
  · iexists d2
    change _ ⊢ owns (c : Thread nD τ) (st1_2 t) fullShare (win1_2.fill (grid1.coords t) d2 (win1_2.cut (grid1.coords t) (a2 V c t)))
    rw [hc2]; try iexact H2
  isplitl [H3]
  · rw [after1_3 V c t]; try iexact H3
  · rw [out1_4_eq]
    iexists k1_pay1 (F := Ideal) (win1_0.fill (grid1.coords t) d0 (iblk1 V c 0 t)) (win1_1.fill (grid1.coords t) d1 (iblk1 V c 1 t))
      (win1_2.fill (grid1.coords t) d2 (iblk1 V c 2 t)) (a3 V c t)
    change _ ⊢ owns (c : Thread nD τ) (st1_4 t) fullShare (win1_4.fill (grid1.coords t) _ (win1_4.cut (grid1.coords t) (a4 V c t)))
    rw [win1_4.fill_congr_cut (grid1.coords t) (cut_agree V c t d0 d1 d2)]; try iexact H4

end Cert.KernelIdeal.Hand

end
-- ==== Proof.KRun.lean ====
/-
  The idealized kernel's run, with every buffer's final contents named.

  @main is five items: a host stretch, the normalisation region, a host stretch (the gather and the two scatters), the
  finalisation region, and the closing reshape. The buffers' contents at each boundary are a fold from the launch
  memory: a host stretch applies its operations; a region leaves its windows' arrays at what its write-backs leave and
  every other buffer as it found it. Each region is entered from "every unscoped buffer at the boundary's contents,
  the generator register at some state, nothing owed" and left at the same statement one boundary on. At the end every
  unscoped buffer is read back at the last boundary's contents: the three arguments, which no item writes, at their
  launch contents, and the result at the fold's value.
-/
import proofs.«133917_j824633721278_2_alg».proof.Proof.KRegion0
import proofs.«133917_j824633721278_2_alg».proof.Proof.KRegion1
import proofs.«133917_j824633721278_2_alg».proof.Proof.Gen.KernelIdeal.Regions
import Idealize.ShloMosaic.Adequacy
import Idealize.ShloMosaic.Init

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

local notation "𝕄" => MT nD τ sig Unit (Elt Ideal) ℕ (UR sig nD τ) ℕ

variable (m : (ℓ : Loc nD τ sig) → Buf (Elt Ideal) ℓ) (ρ : Dev nD → PrngReg)

/-! ## The buffers' contents at each boundary -/

abbrev W0 : Dev nD → Valuation τ sig (Elt Ideal) := fun c b => (s₀ m ρ).mem ((c : Dev nD), b)
abbrev W1 : Dev nD → Valuation τ sig (Elt Ideal) := fun c => StableHlo.after hostOps0 (W0 m ρ c)
abbrev V1 : (c : Dev nD) → (b : Ref sig .tc) → Buf (Elt Ideal) ((c : Thread nD τ).loc b) := fun c b => W1 m ρ c b
def W2 (c : Dev nD) : Valuation τ sig (Elt Ideal) :=
  Pipeline.withArrays spec0 c (W1 m ρ c) fun w => (dat0 (F := Ideal) (V1 m ρ) c).arrAt w cfg0.N
theorem W2_arr (c : Dev nD) (w : Fin cfg0.W) :
    W2 m ρ c (Proc.devRef .tc (Pipeline.arrRef spec0 w)) = (dat0 (F := Ideal) (V1 m ρ) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m ρ c (Proc.devRef .tc b) = W1 m ρ c (Proc.devRef .tc b) := by
  unfold W2; exact Pipeline.withArrays_of_ne spec0 c _ _ b hb
abbrev V2 : (c : Dev nD) → (b : Ref sig .tc) → Buf (Elt Ideal) ((c : Thread nD τ).loc b) := fun c b => W2 m ρ c b
theorem hF0 (c : Dev nD) (w : Fin cfg0.W) : (dat0 (F := Ideal) (V1 m ρ) c).arrAt w cfg0.N = V2 m ρ c (Pipeline.arrRef spec0 w) :=
  (W2_arr m ρ c w).symm
theorem hrest0 (c : Dev nD) : ∀ b, b ∉ Finset.univ.image (Pipeline.arrRef spec0) → V2 m ρ c b = V1 m ρ c b :=
  fun b hb => W2_of_ne m ρ c b fun w e => hb (Finset.mem_image.mpr ⟨w, Finset.mem_univ _, e⟩)

abbrev W3 : Dev nD → Valuation τ sig (Elt Ideal) := fun c => StableHlo.after hostOps1 (W2 m ρ c)
abbrev V3 : (c : Dev nD) → (b : Ref sig .tc) → Buf (Elt Ideal) ((c : Thread nD τ).loc b) := fun c b => W3 m ρ c b
def W4 (c : Dev nD) : Valuation τ sig (Elt Ideal) :=
  Pipeline.withArrays spec1 c (W3 m ρ c) fun w => (dat1 (V3 m ρ) c).arrAt w cfg1.N
theorem W4_arr (c : Dev nD) (w : Fin cfg1.W) :
    W4 m ρ c (Proc.devRef .tc (Pipeline.arrRef spec1 w)) = (dat1 (V3 m ρ) c).arrAt w cfg1.N := by
  unfold W4; exact Pipeline.withArrays_arr spec1 launch1.win.arr_inj c _ _ w
theorem W4_of_ne (c : Dev nD) (b : Ref sig .tc) (hb : ∀ w, Pipeline.arrRef spec1 w ≠ b) :
    W4 m ρ c (Proc.devRef .tc b) = W3 m ρ c (Proc.devRef .tc b) := by
  unfold W4; exact Pipeline.withArrays_of_ne spec1 c _ _ b hb
abbrev V4 : (c : Dev nD) → (b : Ref sig .tc) → Buf (Elt Ideal) ((c : Thread nD τ).loc b) := fun c b => W4 m ρ c b
theorem hF1 (c : Dev nD) (w : Fin cfg1.W) : (dat1 (V3 m ρ) c).arrAt w cfg1.N = V4 m ρ c (Pipeline.arrRef spec1 w) :=
  (W4_arr m ρ c w).symm
theorem hrest1 (c : Dev nD) : ∀ b, b ∉ Finset.univ.image (Pipeline.arrRef spec1) → V4 m ρ c b = V3 m ρ c b :=
  fun b hb => W4_of_ne m ρ c b fun w e => hb (Finset.mem_image.mpr ⟨w, Finset.mem_univ _, e⟩)

abbrev W5 : Dev nD → Valuation τ sig (Elt Ideal) := fun c => StableHlo.after hostOps2 (W4 m ρ c)

/-! ## The arguments end as launched -/

theorem W1_of (c : Dev nD) (r : Ref sig .tc) (h : r ∉ hostOps0_W) : W1 m ρ c r = W0 m ρ c r :=
  StableHlo.after_of_writes_sub hostOps0 _ hostOps0_writes h
theorem W3_of (c : Dev nD) (r : Ref sig .tc) (h : r ∉ hostOps1_W) : W3 m ρ c r = W2 m ρ c r :=
  StableHlo.after_of_writes_sub hostOps1 _ hostOps1_writes h
theorem W5_of (c : Dev nD) (r : Ref sig .tc) (h : r ∉ hostOps2_W) : W5 m ρ c r = W4 m ρ c r :=
  StableHlo.after_of_writes_sub hostOps2 _ hostOps2_writes h

theorem W5_main_arg0 (c : Dev nD) : W5 m ρ c (Proc.devRef .tc main_arg0) = m ((c : Thread nD τ).loc main_arg0) :=
  (W5_of m ρ c main_arg0 (by decide)).trans <| (W4_of_ne m ρ c main_arg0 (by decide)).trans <|
    (W3_of m ρ c main_arg0 (by decide)).trans <|
    ((W2_arr m ρ c 0).trans (((dat0 (F := Ideal) (V1 m ρ) c).arrAt_in 0 rfl _).trans (A_eq0 (V1 m ρ) c 0))).trans <|
    (W1_of m ρ c main_arg0 (by decide)).trans rfl
theorem W5_main_arg1 (c : Dev nD) : W5 m ρ c (Proc.devRef .tc main_arg1) = m ((c : Thread nD τ).loc main_arg1) :=
  (W5_of m ρ c main_arg1 (by decide)).trans <| (W4_of_ne m ρ c main_arg1 (by decide)).trans <|
    (W3_of m ρ c main_arg1 (by decide)).trans <| (W2_of_ne m ρ c main_arg1 (by decide)).trans <|
    (W1_of m ρ c main_arg1 (by decide)).trans rfl
theorem W5_main_arg2 (c : Dev nD) : W5 m ρ c (Proc.devRef .tc main_arg2) = m ((c : Thread nD τ).loc main_arg2) :=
  (W5_of m ρ c main_arg2 (by decide)).trans <| (W4_of_ne m ρ c main_arg2 (by decide)).trans <|
    (W3_of m ρ c main_arg2 (by decide)).trans <| (W2_of_ne m ρ c main_arg2 (by decide)).trans <|
    (W1_of m ρ c main_arg2 (by decide)).trans rfl

/-! ## The proof data family and the thread state -/

abbrev adm' : (p : Fin 2) → (pcfgs (F := Ideal) p).Adm := fun p => (cfgs p).toPCfg_adm
def pdats : (p : Fin 2) → (c : Dev nD) → Dat τ (Elt Ideal) Unit ℕ (UR sig nD τ) ℕ (Pipeline.pin (pcfgs (F := Ideal)) adm' p) c
  | ⟨0, _⟩ => fun c => dat0 (F := Ideal) (V1 m ρ) c
  | ⟨1, _⟩ => fun c => dat1 (V3 m ρ) c
abbrev 𝒱₀ : Variants := Variants.none
abbrev L : GSem nD τ sig → Finset Unit := fun _ => ∅
abbrev lv : GSem nD τ sig → Unit → ℕ := fun _ _ => 0
/-- What rides beside the buffers through every item: the generator register at some state, and nothing owed. -/
abbrev R (c : Dev nD) : sProp 𝕄 := iprop((∃ r, prngReg c r) ∗ ∃ W, owes (c : Thread nD τ) (0 : CellTallies nD τ sig Unit) W)
abbrev hseg (ops : List (HloOp τ sig (Elt Ideal))) (hsub : ops.Forall fun op => op.bufs ⊆ StableHlo.tcRefs τ sig)
    (hfresh : ops.Forall fun op => op.fresh = ∅) (W : Dev nD → Valuation τ sig (Elt Ideal)) :
    Pipeline.HostSeg (Name := ℕ) (U := UR sig nD τ) (pcfgs (F := Ideal)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
abbrev Tₙ (c : Dev nD) : sProp 𝕄 := iprop(StableHlo.held (c : Thread nD τ) (Pipeline.ucRefs τ sig) (W5 m ρ c) ∗ ∃ r, prngReg c r)

/-! ## The regions as items -/

set_option backward.isDefEq.respectTransparency.types false in
/-- The normalisation region: entered from every unscoped buffer at `W1`, left at `W2`. -/
def reg0 : Pipeline.RegionSeg (pcfgs (F := Ideal)) adm' (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (F := Ideal) (V1 m ρ) c).loose
  hwaits := Pipeline.hwaits_of_owed_zero _ _ _ _ L lv 0 fun _ _ => rfl
  pre c := iprop(StableHlo.held (c : Thread nD τ) (Pipeline.ucRefs τ sig) (W1 m ρ c) ∗ R c)
  post c := iprop(StableHlo.held (c : Thread nD τ) (Pipeline.ucRefs τ sig) (W2 m ρ c) ∗ R c)
  X c := iprop(∃ r, prngReg c r)
  Y c := iprop(∃ r, prngReg c r)
  Z c := Pipeline.unscopedRest (Ix := Unit) (Name := ℕ) (U := UR sig nD τ) (Lvl := ℕ) spec0 c (V1 m ρ c)
  hentry c := by
    rw [Pipeline.ownSems0_none]
    have hsplit := Pipeline.arrays_of_unscopedBufs (p := 0) (pcfgs (F := Ideal)) adm' (pdats m ρ) launch0.win launch0.arr_whole c
      ((pdats m ρ 0 c).share_full fun _ => rfl) (V1 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := Ideal)) adm' (Ix := Unit) (Name := ℕ) (U := UR sig nD τ) (Lvl := ℕ)
      launch0.win launch0.arr_whole c (pdats m ρ) ((pdats m ρ 0 c).share_full fun _ => rfl)
      (V1 m ρ c) (V2 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- The finalisation region: entered from every unscoped buffer at `W3`, left at `W4`. -/
def reg1 : Pipeline.RegionSeg (pcfgs (F := Ideal)) adm' (pdats m ρ) () defs₀ 𝒱₀ L lv 1 where
  win := launch1.win.to₀
  block_pos := launch1.block_pos
  stage_whole := launch1.stage_whole
  K := PEmpty
  osem k := k.elim
  ho := Pipeline.OwnSemFacts.none _
  hbody c := body_obligation1 (V3 m ρ) c
  hwaits := Pipeline.hwaits_of_owed_zero _ _ _ _ L lv 1 fun _ _ => rfl
  pre c := iprop(StableHlo.held (c : Thread nD τ) (Pipeline.ucRefs τ sig) (W3 m ρ c) ∗ R c)
  post c := iprop(StableHlo.held (c : Thread nD τ) (Pipeline.ucRefs τ sig) (W4 m ρ c) ∗ R c)
  X c := iprop(∃ r, prngReg c r)
  Y c := iprop(∃ r, prngReg c r)
  Z c := Pipeline.unscopedRest (Ix := Unit) (Name := ℕ) (U := UR sig nD τ) (Lvl := ℕ) spec1 c (V3 m ρ c)
  hentry c := by
    rw [Pipeline.ownSems0_none]
    have hsplit := Pipeline.arrays_of_unscopedBufs (p := 1) (pcfgs (F := Ideal)) adm' (pdats m ρ) launch1.win launch1.arr_whole c
      ((pdats m ρ 1 c).share_full fun _ => rfl) (V3 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m ρ 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := Ideal)) adm' (Ix := Unit) (Name := ℕ) (U := UR sig nD τ) (Lvl := ℕ)
      launch1.win launch1.arr_whole c (pdats m ρ) ((pdats m ρ 1 c).share_full fun _ => rfl)
      (V3 m ρ c) (V4 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## @main as items, and the run -/

abbrev segs : List (Pipeline.Seg (pcfgs (F := Ideal)) adm' (pdats m ρ) () defs₀ 𝒱₀ L lv) :=
  [ .host (hseg hostOps0 hostOps0_sub hostOps0_fresh (W0 m ρ)),
    .region (reg0 m ρ),
    .host (hseg hostOps1 hostOps1_sub hostOps1_fresh (W2 m ρ)),
    .region (reg1 m ρ),
    .host (hseg hostOps2 hostOps2_sub hostOps2_fresh (W4 m ρ)) ]
theorem main_run (c : Dev nD) : main (F := Ideal) c = Pipeline.Seg.run (segs m ρ) := (main_chain c).trans (by chain_rfl)

set_option backward.isDefEq.respectTransparency.types false in
/-- THE RUN: from any memory with zero counters every weakly fair execution of @main terminates, nothing faulting, and
    every final state holds every unscoped buffer at the last boundary's contents. -/
theorem run_all : θ_run defs (onTc (τ := τ) (main (F := Ideal))) ⟨m, fun _ => 0, ρ⟩ (fun r => ∀ c : Dev nD,
      ∀ b ∈ Pipeline.ucRefs τ sig, r.2.mem (((c : Thread nD τ)).1, b) = W5 m ρ c b) :=
  Pipeline.θ_run_regions_kit (pcfgs (F := Ideal)) adm' (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun c => by
      show iprop(StableHlo.held (c : Thread nD τ) (Pipeline.ucRefs τ sig) (W5 m ρ c) ∗ R c)
        ⊢ iprop(Tₙ m ρ c ∗ ∃ W, owes (c : Thread nD τ) (0 : CellTallies nD τ sig Unit) W)
      iintro ⟨Hh, Hp, Ho⟩
      isplitr [Ho]
      · isplitl [Hh]; · iexact Hh
        iexact Hp
      iexact Ho⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W5 m ρ c b)
    (hfin := fun c s' => by
      iintro ⟨⟨Hh, -⟩, HSI⟩
      unfold StableHlo.held
      imodintro
      iapply (pointsTo_read_all (Pipeline.ucRefs τ sig) (fun b => (((c : Thread nD τ)).1, b)) (W5 m ρ c) s')
      isplitl [Hh] <;> iassumption)
    (hQ := fun s h c => h c)

/-- The run with the result and the three arguments named. -/
theorem run : θ_run defs (onTc (τ := τ) (main (F := Ideal))) ⟨m, fun _ => 0, ρ⟩ (fun r => ∀ c : Dev nD,
      r.2.mem ((c.tc : Thread nD τ).loc main_v25) = W5 m ρ c (Proc.devRef .tc main_v25)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun r h c =>
    ⟨h c _ (mem_uc main_v25 (by decide)),
     (h c _ (mem_uc main_arg0 (by decide))).trans (W5_main_arg0 m ρ c),
     (h c _ (mem_uc main_arg1 (by decide))).trans (W5_main_arg1 m ρ c),
     (h c _ (mem_uc main_arg2 (by decide))).trans (W5_main_arg2 m ρ c)⟩) (run_all m ρ)

end Cert.KernelIdeal.Hand

end
-- ==== Proof.KRegion0B.lean ====
/-
  The first kernel region (the row normalisation), as proof data for the pipeline.

  The region has one input window and one output window, both of 10000 rows by 128 lanes, tiling their arrays exactly
  over ten grid points. At a point the body loads the input block whole and stores the normalised block whole, so after
  the body the input's staging buffer holds its block and the output's holds the stored payload of that block. The
  invariant carried through the region is the untouched rest; nothing is owed; shares are full.
-/
import proofs.«133917_j824633721278_2_alg».proof.Proof.Gen.Kernel.Launch
import proofs.«133917_j824633721278_2_alg».proof.Proof.Gen.Kernel.Skeleton
import proofs.«133917_j824633721278_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The input's current staging buffer holds its block at every point, for any proof data over these arrays whose
    body leaves the block in place. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-- The whole block, as the rectangle the body's load and store use. -/
abbrev r0_0 : Rect S10000x128 := Rect.unit (s := S10000x128) ![0, 0] S10000x128.size inb_S10000x128_S10000x128_0_0

/-- The output's staging buffer after the body: the one whole store of the normalised block. -/
def out0_1 (x0 : Vec F S10000x128 .f32) : Vec F S10000x128 .f32 :=
  View.canon [⟨r0_0, k0_pay1 (View.ld x0 r0_0)⟩]

/-- The one store covers the buffer. -/
theorem cover0_1 (p0 : Vec F S10000x128 .f32) (y : S10000x128.Idx) :
    ∃ pc ∈ ([⟨r0_0, p0⟩] : List (View.Piece (Elt F) S10000x128 .f32)), y ∈ pc.1.set :=
  View.cover_of_tiled [⟨r0_0, p0⟩] S10000x128.size (by rfl) y

set_option maxHeartbeats 1000000 in
/-- The body on whole staging memrefs, the input's at its read contents and the output's at anything, runs to the
    continuation with the input's as it was and the output's at the stored block. -/
theorem sound_kernel0 (c : Dev nD) (E : Set ℕ) (i : grid0.Coords) (arg0 : Memref sig .tc .vmem S10000x128 .f32) (harg0 : arg0.IsWhole)
    (arg1 : Memref sig .tc .vmem S10000x128 .f32) (harg1 : arg1.IsWhole)
    (x0 : Vec F S10000x128 .f32) (K : PUnit → sProp 𝕄) :
    iprop(owns (c : Thread nD τ) arg0 fullShare x0 ∗ (∃ d, owns (c : Thread nD τ) arg1 fullShare d)
        ∗ (iprop(owns (c : Thread nD τ) arg0 fullShare x0 ∗ owns (c : Thread nD τ) arg1 fullShare (out0_1 x0)) -∗ K ⟨⟩))
      ⊢ wp frame (wpE (defs₀ (F := F)) Variants.none c none) E (cc0__normalize_kernel i arg0 harg0 arg1 harg1) K := by
  simp only [cc0__normalize_kernel_eq_skeleton]; unfold cc0__normalize_kernel_skel
  unfold owns
  iintro ⟨⟨%f0, %hf0, H0⟩, ⟨%d1, %f1, -, H1⟩, Hk⟩
  subst hf0
  sl_exec
  sl_step
  iapply Hk
  isplitl [H0]
  · iexists f0; isplitr; · ipureintro; rfl
    iexact H0
  iexists _; isplitr
  swap; · iexact H1
  ipureintro
  exact View.read_writes_eq_canon _ _ _ (cover0_1 _)

/-- The proof data of the first pipeline on core `c`. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => out0_1 (iblk0 V c 0 t)
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = out0_1 (iblk0 V c 0 t) := by dsimp only [dat0]

theorem before0_0 (c : Dev nD) (t : Fin cfg0.N) (d) : (dat0 V c).before 0 t d = iblk0 V c 0 t :=
  before0_0_of V (dat0 V c) (A_eq0 V c 0) (after0_0 V c) t d

/-- What the body is called with at point `t`, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t))

theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0]
  rw [show (dat0 V c).Φ t.succ = (dat0 V c).Φ t.castSucc from rfl,
    show (dat0 V c).owesAt () t.succ = (dat0 V c).owesAt () t.castSucc from rfl,
    after0_0, after0_1]
  iintro ⟨HΦ, Ho, ⟨%d0, H0⟩, ⟨%d1, H1⟩⟩
  iapply (sound_kernel0 c Set.univ _ _ _ _ _ (iblk0 V c 0 t) _)
  isplitl [H0]; · iexact H0
  isplitl [H1]; · iexists _; iexact H1
  iintro ⟨H0, H1⟩
  isplitl [HΦ]; · iexact HΦ
  isplitl [Ho]; · iexact Ho
  isplitl [H0]; · iexact H0
  iexact H1

/-- The library's body obligation, at every point. -/
theorem body_obligation0 (c : Dev nD) : BodyObligation (dat0 (F := F) V c) (defs₀ (F := F)) Variants.none () Set.univ := fun t => by
  rw [bigSep_W0, bigSep_W0]
  exact sound_body0 V c t

end Cert.Kernel.Hand

end
-- ==== Proof.KFrameB1.lean ====
/-
  The second kernel region (the per-row score), as relational proof data for the pipeline.

  The region has four input windows and one output window over a grid of seventeen points. Three of the inputs and the
  output are cut at the last point: their blocks overhang the arrays' end, so the staging buffers' trailing rows hold
  contents nobody chose. The body loads the four input buffers whole, loads the output buffer once without using the
  value, and stores one whole block computed from the four loads. That block contains a sum over each row of the WHOLE
  staged blocks, so what the output buffer holds afterwards is a function of rows that hold arbitrary contents at the
  last point. For the claim "no argument array changes" none of this matters: the data below constrain NOTHING about
  what the body leaves in any staging buffer (the relation that holds of every pair of contents). What remains to be
  shown of the body is that it runs: every load and the store are of whole buffers the body was handed, and every buffer
  comes back holding something. An input array is never written back, whatever its staging buffer holds, so the arrays
  the region only reads end as they were.
-/
import proofs.«133917_j824633721278_2_alg».proof.Proof.Gen.Kernel.Launch
import proofs.«133917_j824633721278_2_alg».proof.Proof.Gen.Kernel.Skeleton
import proofs.«133917_j824633721278_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (RDat Dat Cfg Window cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

set_option maxHeartbeats 1000000 in
/-- The body on whole staging memrefs at ANY contents runs to the continuation with the four input buffers as they
    were and the output buffer at some contents: four whole loads, one load of the output buffer whose value is not
    used, one whole store into the output buffer. -/
theorem sound_kernel1 (c : Dev nD) (E : Set ℕ) (i : grid1.Coords)
    (arg0 : Memref sig .tc .vmem S5888x128 .f32) (harg0 : arg0.IsWhole)
    (arg1 : Memref sig .tc .vmem S5888x128 .f32) (harg1 : arg1.IsWhole)
    (arg2 : Memref sig .tc .vmem S1x5888 .f32) (harg2 : arg2.IsWhole)
    (arg3 : Memref sig .tc .vmem S1x1 .f32) (harg3 : arg3.IsWhole)
    (arg4 : Memref sig .tc .vmem S1x5888 .f32) (harg4 : arg4.IsWhole)
    (x0 : Vec F S5888x128 .f32) (x1 : Vec F S5888x128 .f32) (x2 : Vec F S1x5888 .f32) (x3 : Vec F S1x1 .f32)
    (x4 : Vec F S1x5888 .f32) (K : PUnit → sProp 𝕄) :
    iprop(owns (c : Thread nD τ) arg0 fullShare x0 ∗ owns (c : Thread nD τ) arg1 fullShare x1
        ∗ owns (c : Thread nD τ) arg2 fullShare x2 ∗ owns (c : Thread nD τ) arg3 fullShare x3
        ∗ owns (c : Thread nD τ) arg4 fullShare x4
        ∗ (iprop(owns (c : Thread nD τ) arg0 fullShare x0 ∗ owns (c : Thread nD τ) arg1 fullShare x1
            ∗ owns (c : Thread nD τ) arg2 fullShare x2 ∗ owns (c : Thread nD τ) arg3 fullShare x3
            ∗ (∃ X, owns (c : Thread nD τ) arg4 fullShare X)) -∗ K ⟨⟩))
      ⊢ wp frame (wpE (defs₀ (F := F)) Variants.none c none) E
          (cc1__finalize_kernel i arg0 harg0 arg1 harg1 arg2 harg2 arg3 harg3 arg4 harg4) K := by
  simp only [cc1__finalize_kernel_eq_skeleton]; unfold cc1__finalize_kernel_skel
  unfold owns
  iintro ⟨⟨%f0, %hf0, H0⟩, ⟨%f1, %hf1, H1⟩, ⟨%f2, %hf2, H2⟩, ⟨%f3, %hf3, H3⟩, ⟨%f4, %hf4, H4⟩, Hk⟩
  subst hf0 hf1 hf2 hf3 hf4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  iexists _; iexists _; isplitr
  swap; · iexact H4
  ipureintro
  rfl

/-- The relational proof data of the second pipeline on core `c`: the arrays as the region finds them; of what the
    body leaves in a staging buffer, nothing is said; the invariant is the untouched rest; nothing owed; full shares. -/
def rdat1 (c : Dev nD) : RDat τ (Elt F) Unit ℕ (UR sig nD τ) ℕ cfg1 c where
  A w := V c (Pipeline.arrRef spec1 w)
  after _ _ _ _ := True
  Φ _ := Pipeline.ΦA spec1 c
  q _ := fullShare
  owed _ := 0

theorem rA_eq1 (c : Dev nD) (w : Fin cfg1.W) : (rdat1 V c).A w = V c (Pipeline.arrRef spec1 w) := by
  dsimp only [rdat1]

/-- What the body is called with at point `t`, the windows' current buffers at contents `Y w`, -/
def bodyPre1 (c : Dev nD) (t : Fin cfg1.N) (Y : (w : Fin cfg1.W) → (cfg1.win w).block.Idx → Elt F (cfg1.win w).elt) : sProp 𝕄 :=
  iprop((rdat1 V c).Φ t.castSucc ∗ (rdat1 V c).owesAt () t.castSucc
    ∗ owns (c : Thread nD τ) (st1_0 t) fullShare (Y 0)
    ∗ owns (c : Thread nD τ) (st1_1 t) fullShare (Y 1)
    ∗ owns (c : Thread nD τ) (st1_2 t) fullShare (Y 2)
    ∗ owns (c : Thread nD τ) (st1_3 t) fullShare (Y 3)
    ∗ owns (c : Thread nD τ) (st1_4 t) fullShare (Y 4))

/-- and what it returns: each buffer at some contents the (empty) relation allows. -/
def bodyPost1 (c : Dev nD) (t : Fin cfg1.N) (Y : (w : Fin cfg1.W) → (cfg1.win w).block.Idx → Elt F (cfg1.win w).elt) : sProp 𝕄 :=
  iprop((rdat1 V c).Φ t.succ ∗ (rdat1 V c).owesAt () t.succ
    ∗ (∃ X, ⌜(rdat1 V c).after 0 t (Y 0) X⌝ ∗ owns (c : Thread nD τ) (st1_0 t) fullShare X)
    ∗ (∃ X, ⌜(rdat1 V c).after 1 t (Y 1) X⌝ ∗ owns (c : Thread nD τ) (st1_1 t) fullShare X)
    ∗ (∃ X, ⌜(rdat1 V c).after 2 t (Y 2) X⌝ ∗ owns (c : Thread nD τ) (st1_2 t) fullShare X)
    ∗ (∃ X, ⌜(rdat1 V c).after 3 t (Y 3) X⌝ ∗ owns (c : Thread nD τ) (st1_3 t) fullShare X)
    ∗ (∃ X, ⌜(rdat1 V c).after 4 t (Y 4) X⌝ ∗ owns (c : Thread nD τ) (st1_4 t) fullShare X))

/-- The body at any point, whatever the buffers hold: the invariant and the core's dues pass through unread. -/
theorem sound_body1 (c : Dev nD) (t : Fin cfg1.N) (Y : (w : Fin cfg1.W) → (cfg1.win w).block.Idx → Elt F (cfg1.win w).elt) :
    bodyPre1 V c t Y ⊢ wp frame (wpE (defs₀ (F := F)) Variants.none c none) Set.univ (bodyAt1 t) (fun _ => bodyPost1 V c t Y) := by
  unfold bodyPre1 bodyPost1 bodyAt1
  rw [show (rdat1 V c).Φ t.succ = (rdat1 V c).Φ t.castSucc from rfl,
    show (rdat1 V c).owesAt () t.succ = (rdat1 V c).owesAt () t.castSucc from rfl]
  iintro ⟨HΦ, Ho, H0, H1, H2, H3, H4⟩
  iapply (sound_kernel1 c Set.univ _ _ _ _ _ _ _ _ _ _ _ (Y 0) (Y 1) (Y 2) (Y 3) (Y 4) _)
  isplitl [H0]; · iexact H0
  isplitl [H1]; · iexact H1
  isplitl [H2]; · iexact H2
  isplitl [H3]; · iexact H3
  isplitl [H4]; · iexact H4
  iintro ⟨H0, H1, H2, H3, ⟨%X4, H4⟩⟩
  isplitl [HΦ]; · iexact HΦ
  isplitl [Ho]; · iexact Ho
  isplitl [H0]
  · iexists (Y 0); isplitr; · ipureintro; trivial
    iexact H0
  isplitl [H1]
  · iexists (Y 1); isplitr; · ipureintro; trivial
    iexact H1
  isplitl [H2]
  · iexists (Y 2); isplitr; · ipureintro; trivial
    iexact H2
  isplitl [H3]
  · iexists (Y 3); isplitr; · ipureintro; trivial
    iexact H3
  iexists X4; isplitr; · ipureintro; trivial
  iexact H4

/-- The library's relational body obligation, at every point and whatever the buffers are found holding. -/
theorem body_obligation1 (c : Dev nD) : (rdat1 (F := F) V c).BodyObligation (defs₀ (F := F)) Variants.none () Set.univ := fun t Y _ => by
  rw [bigSep_W1, bigSep_W1]
  exact sound_body1 V c t Y

end Cert.Kernel.Hand

end
-- ==== Proof.KFrameB2.lean ====
/-
  The frame of the word-level program: no run of it changes an argument array.

  The program is five items in a row: a stretch of host operations, the first kernel region (row normalisation), a
  second stretch, the second kernel region (the per-row score), a last stretch of one reshape. Between items a core
  holds every unscoped buffer whole, at contents we track as a valuation.

  * The first region's proof data name everything (its blocks tile the arrays), so after it the valuation is still a
    closed form of the launch memory: the stretch's valuation with the region's two arrays at what the write-backs
    leave. Read as relational data, what the arrays may hold is exactly what the data name.
  * The second region's data constrain nothing about the staging buffers, so of its output array we know only that it
    holds SOMETHING when the region is left. From there on the thread state is existential: some valuation is held of
    which we keep one fact, that the three argument buffers hold their launch contents. The region reads or bypasses
    the arguments and writes back into its own output array only; the last stretch writes one buffer that is no
    argument; so the fact survives to the end, where the arguments are read off the final state.
  * A host stretch entered from such an existential state is a segment in its own right: open the existential, run the
    stretch from the valuation found, close it again over the valuation the stretch leaves.
-/
import proofs.«133917_j824633721278_2_alg».proof.Proof.KRegion0B
import proofs.«133917_j824633721278_2_alg».proof.Proof.KFrameB1
import proofs.«133917_j824633721278_2_alg».proof.Proof.Gen.Kernel.Regions

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (RDat Dat Cfg Window cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffers' contents between items, while they are still named -/

/-- Core `c`'s buffers at launch. -/
abbrev W0 : Dev nD → Valuation τ sig (Elt F) := fun c b => m (c, b)
/-- After the first stretch (the first region's entry). -/
abbrev W1 : Dev nD → Valuation τ sig (Elt F) := fun c => StableHlo.after hostOps0 (W0 m c)
/-- The same, read at the TensorCore's references. -/
abbrev U1 : (c : Dev nD) → (b : Ref sig .tc) → Buf (Elt F) ((c : Thread nD τ).loc b) := fun c b => W1 m c b
/-- At the first region's exit: its arrays at what the write-backs leave, every other buffer as entered. -/
def W2 (c : Dev nD) : Valuation τ sig (Elt F) :=
  Pipeline.withArrays spec0 c (W1 m c) fun w => (dat0 (U1 m) c).arrAt w cfg0.N
theorem W2_arr (c : Dev nD) (w : Fin cfg0.W) :
    W2 m c (Proc.devRef .tc (Pipeline.arrRef spec0 w)) = (dat0 (U1 m) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m c (Proc.devRef .tc b) = W1 m c (Proc.devRef .tc b) := by
  unfold W2; exact Pipeline.withArrays_of_ne spec0 c _ _ b hb
abbrev U2 : (c : Dev nD) → (b : Ref sig .tc) → Buf (Elt F) ((c : Thread nD τ).loc b) := fun c b => W2 m c b
theorem hF0 (c : Dev nD) (w : Fin cfg0.W) : (dat0 (U1 m) c).arrAt w cfg0.N = U2 m c (Pipeline.arrRef spec0 w) :=
  (W2_arr m c w).symm
theorem hrest0 (c : Dev nD) : ∀ b, b ∉ Finset.univ.image (Pipeline.arrRef spec0) → U2 m c b = U1 m c b :=
  fun b hb => W2_of_ne m c b fun w e => hb (Finset.mem_image.mpr ⟨w, Finset.mem_univ _, e⟩)
/-- After the second stretch (the second region's entry). -/
abbrev W3 : Dev nD → Valuation τ sig (Elt F) := fun c => StableHlo.after hostOps1 (W2 m c)
abbrev U3 : (c : Dev nD) → (b : Ref sig .tc) → Buf (Elt F) ((c : Thread nD τ).loc b) := fun c b => W3 m c b

/-! ## The one fact kept of a valuation that is no longer named -/

/-- The three argument buffers hold their launch contents. -/
def ArgsAt (c : Dev nD) (Vx : Valuation τ sig (Elt F)) : Prop :=
  Vx (Proc.devRef .tc main_arg0) = m ((c : Thread nD τ).loc main_arg0)
  ∧ Vx (Proc.devRef .tc main_arg1) = m ((c : Thread nD τ).loc main_arg1)
  ∧ Vx (Proc.devRef .tc main_arg2) = m ((c : Thread nD τ).loc main_arg2)

/-- At the second region's entry the arguments are as launched: no stretch writes one, the first region reads
    `main_arg0` through an input window and bypasses the other two. -/
theorem argsAt_W3 (c : Dev nD) : ArgsAt m c (W3 m c) := by
  refine ⟨?_, ?_, ?_⟩
  · calc W3 m c (Proc.devRef .tc main_arg0)
      _ = W2 m c (Proc.devRef .tc main_arg0) := StableHlo.after_of_writes_sub hostOps1 _ hostOps1_writes (by decide)
      _ = W1 m c (Proc.devRef .tc main_arg0) := (W2_arr m c 0).trans (((dat0 (U1 m) c).arrAt_in 0 rfl _).trans (A_eq0 (U1 m) c 0))
      _ = W0 m c (Proc.devRef .tc main_arg0) := StableHlo.after_of_writes_sub hostOps0 _ hostOps0_writes (by decide)
      _ = m ((c : Thread nD τ).loc main_arg0) := rfl
  · calc W3 m c (Proc.devRef .tc main_arg1)
      _ = W2 m c (Proc.devRef .tc main_arg1) := StableHlo.after_of_writes_sub hostOps1 _ hostOps1_writes (by decide)
      _ = W1 m c (Proc.devRef .tc main_arg1) := W2_of_ne m c main_arg1 (by decide)
      _ = W0 m c (Proc.devRef .tc main_arg1) := StableHlo.after_of_writes_sub hostOps0 _ hostOps0_writes (by decide)
      _ = m ((c : Thread nD τ).loc main_arg1) := rfl
  · calc W3 m c (Proc.devRef .tc main_arg2)
      _ = W2 m c (Proc.devRef .tc main_arg2) := StableHlo.after_of_writes_sub hostOps1 _ hostOps1_writes (by decide)
      _ = W1 m c (Proc.devRef .tc main_arg2) := W2_of_ne m c main_arg2 (by decide)
      _ = W0 m c (Proc.devRef .tc main_arg2) := StableHlo.after_of_writes_sub hostOps0 _ hostOps0_writes (by decide)
      _ = m ((c : Thread nD τ).loc main_arg2) := rfl

/-- Whatever the second region leaves in its arrays, the arguments are as launched: none is an array of the region. -/
theorem argsAt_exit1 (c : Dev nD) (A : (w : Fin cfg1.W) → Buf (Elt F) ((spec1 w).arr.view.loc (c.tc : Thread nD τ))) :
    ArgsAt m c (Pipeline.withArrays spec1 c (W3 m c) A) := by
  obtain ⟨h0, h1, h2⟩ := argsAt_W3 m c
  exact ⟨(Pipeline.withArrays_of_ne spec1 c _ A main_arg0 (by decide)).trans h0,
    (Pipeline.withArrays_of_ne spec1 c _ A main_arg1 (by decide)).trans h1,
    (Pipeline.withArrays_of_ne spec1 c _ A main_arg2 (by decide)).trans h2⟩

/-- The last stretch writes no argument. -/
theorem argsAt_after2 (c : Dev nD) (Vx : Valuation τ sig (Elt F)) (h : ArgsAt m c Vx) : ArgsAt m c (StableHlo.after hostOps2 Vx) := by
  obtain ⟨h0, h1, h2⟩ := h
  exact ⟨(StableHlo.after_of_writes_sub hostOps2 _ hostOps2_writes (by decide)).trans h0,
    (StableHlo.after_of_writes_sub hostOps2 _ hostOps2_writes (by decide)).trans h1,
    (StableHlo.after_of_writes_sub hostOps2 _ hostOps2_writes (by decide)).trans h2⟩

/-! ## The proof data family and the thread state -/

/-- Every pipeline's relational proof data, each at its region's entry contents: the first region's exact data read
    relationally, the second region's data that constrain nothing. -/
def rdats : (p : Fin 2) → (c : Dev nD) → RDat τ (Elt F) Unit ℕ (UR sig nD τ) ℕ (Pipeline.pin (pcfgs (F := F)) adm p) c
  | ⟨0, _⟩ => fun c => (dat0 (U1 m) c).toR
  | ⟨1, _⟩ => fun c => rdat1 (U3 m) c
abbrev 𝒱n : Variants := Variants.none
/-- No core owes another anything: no level is assigned. -/
abbrev Ln : GSem nD τ sig → Finset Unit := fun _ => ∅
abbrev lvn : GSem nD τ sig → Unit → ℕ := fun _ _ => 0
/-- What rides beside the buffers through every segment: the generator register at some state, and nothing owed. -/
abbrev Rst (c : Dev nD) : sProp 𝕄 := iprop((∃ r, prngReg c r) ∗ ∃ W, owes (c : Thread nD τ) (0 : CellTallies nD τ sig Unit) W)
/-- A host stretch entered from a NAMED valuation, as a segment. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱n Ln lvn :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W Rst
/-- The thread state once the valuation is no longer named: some valuation with the arguments as launched is held,
    the generator register at some state. The chain ends at it beside the core owing nothing. -/
abbrev Tn (c : Dev nD) : sProp 𝕄 :=
  iprop(∃ Vx : Valuation τ sig (Elt F), ⌜ArgsAt m c Vx⌝ ∗ StableHlo.held (c : Thread nD τ) (Pipeline.ucRefs τ sig) Vx ∗ ∃ r, prngReg c r)
/-- The same with the dues beside it, as the second region leaves it. -/
abbrev Tx (c : Dev nD) : sProp 𝕄 :=
  iprop(∃ Vx : Valuation τ sig (Elt F), ⌜ArgsAt m c Vx⌝ ∗ StableHlo.held (c : Thread nD τ) (Pipeline.ucRefs τ sig) Vx ∗ Rst c)

set_option backward.isDefEq.respectTransparency.types false in
/-- The last stretch, entered from a valuation that is not named: the existential is opened, the stretch run from the
    valuation found, and the state closed again over the valuation the stretch leaves; the arguments' fact carries over
    because the stretch writes none of them. -/
def hsegX : Pipeline.HostSeg (Name := ℕ) (U := UR sig nD τ) (pcfgs (F := F)) defs₀ 𝒱n Ln lvn where
  prog := StableHlo.seq hostOps2
  pre c := Tx m c
  post c := iprop(Tn m c ∗ ∃ W, owes (c : Thread nD τ) (0 : CellTallies nD τ sig Unit) W)
  run c {β} k K := by
    iintro ⟨Hk, Hbd, ⟨%Vx, %hVx, Hh, HR⟩, Hlev⟩
    have h := (hseg (F := F) hostOps2 hostOps2_sub hostOps2_fresh (fun _ => Vx)).run c k K
    dsimp only [hseg, Pipeline.HostSeg.ofOps] at h
    iapply h
    isplitl [Hk]
    · iintro ⟨Hbd, Hh, ⟨Hp, HO⟩⟩
      iapply Hk
      isplitl [Hbd]; · iexact Hbd
      isplitl [Hh Hp]
      · iexists (StableHlo.after hostOps2 Vx)
        isplitr; · ipureintro; exact argsAt_after2 m c Vx hVx
        isplitl [Hh]; · iexact Hh
        iexact Hp
      iexact HO
    isplitl [Hbd]; · iexact Hbd
    isplitl [Hh HR]
    · isplitl [Hh]; · iexact Hh
      iexact HR
    iexact Hlev

/-! ## The arrays back among the unscoped buffers, for relational data -/

/-- A pipeline's arrays at contents `A` and the unscoped rest at `Va` are the core's unscoped buffers at any
    valuation that has the arrays at `A` and agrees with `Va` off them. -/
theorem unscopedBufs_of_arraysR
    (rd : (p : Fin 2) → (c : Dev nD) → RDat τ (Elt F) Unit ℕ (UR sig nD τ) ℕ (Pipeline.pin (pcfgs (F := F)) adm p) c)
    {p : Fin 2} (hw : Pipeline.WinFacts (Pipeline.pin (pcfgs (F := F)) adm p).spec)
    (harr : ∀ w, ((Pipeline.pin (pcfgs (F := F)) adm p).spec w).arr.IsWhole)
    (c : Dev nD) (hshare : ∀ w, (rd p c).share w = fullShare)
    (Va Vb : (b : Ref sig .tc) → Buf (Elt F) ((c.tc : Thread nD τ).loc b))
    (A : (w : Fin (Pipeline.pin (pcfgs (F := F)) adm p).W) → Buf (Elt F) (((Pipeline.pin (pcfgs (F := F)) adm p).spec w).arr.view.loc (c.tc : Thread nD τ)))
    (hF : ∀ w, A w = Vb (Pipeline.arrRef (Pipeline.pin (pcfgs (F := F)) adm p).spec w))
    (hrest : ∀ b, b ∉ Finset.univ.image (Pipeline.arrRef (Pipeline.pin (pcfgs (F := F)) adm p).spec) → Vb b = Va b) :
    iprop((rd p c).arrays A ∗ Pipeline.unscopedRest (Ix := Unit) (Name := ℕ) (U := UR sig nD τ) (Lvl := ℕ) (Pipeline.pin (pcfgs (F := F)) adm p).spec c Va)
      ⊢ (unscopedBufs c Vb : sProp 𝕄) := by
  rw [Pipeline.unscopedBufs_split (Pipeline.pin (pcfgs (F := F)) adm) p hw.arr_unscoped hw.arr_inj c Vb,
    Pipeline.RDat.arrays_eq (pcfgs (F := F)) adm rd p c harr hshare]
  refine sep_mono (Entails.of_eq (bigSep_congr fun w _ => by rw [hF])) (Entails.of_eq ?_)
  unfold Pipeline.unscopedRest
  exact bigSep_congr fun b hb => by rw [hrest b (Finset.mem_sdiff.mp hb).2]

/-! ## The regions as segments -/

set_option backward.isDefEq.respectTransparency.types false in
/-- The first region over the thread state: entered from every unscoped buffer at `W1`, left at `W2`. Its arrays are
    split out of the unscoped buffers and put back at what the data name; the generator register goes into the region's
    invariant and comes out; nothing owed; no semaphore of the kernel's own. -/
def reg0 : Pipeline.RDat.RegionSeg (pcfgs (F := F)) adm (rdats m) () defs₀ 𝒱n Ln lvn 0 where
  win := launch0.win.to₀
  block_pos := launch0.block_pos
  stage_whole := launch0.stage_whole
  K := PEmpty
  osem k := k.elim
  ho := Pipeline.OwnSemFacts.none _
  hbody c := (body_obligation0 (U1 m) c).loose.toR
  hwaits := Pipeline.RDat.hwaits_of_owed_zero _ _ _ _ Ln lvn 0 fun _ _ => rfl
  pre c := iprop(StableHlo.held (c : Thread nD τ) (Pipeline.ucRefs τ sig) (W1 m c) ∗ Rst c)
  post c := iprop(StableHlo.held (c : Thread nD τ) (Pipeline.ucRefs τ sig) (W2 m c) ∗ Rst c)
  X c := iprop(∃ r, prngReg c r)
  Y c := iprop(∃ r, prngReg c r)
  Z c := Pipeline.unscopedRest (Ix := Unit) (Name := ℕ) (U := UR sig nD τ) (Lvl := ℕ) spec0 c (U1 m c)
  hentry c := by
    rw [Pipeline.ownSems0_none]
    have hsplit := Pipeline.RDat.arrays_of_unscopedBufs (p := 0) (pcfgs (F := F)) adm (rdats m) launch0.win launch0.arr_whole c
      ((rdats m 0 c).share_full fun _ => rfl) (U1 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.RDat.owesAt Pipeline.owesWithin
      icases HO with ⟨%W, HO⟩; iexists W; isplitr; · ipureintro; exact fun _ _ => Or.inl trivial
      iexact HO
    isplitl [Hp]; · iexact Hp
    iexact Hrest
  hin c := by
    rw [show (rdats m 0 c).Φ 0 = Pipeline.ΦA spec0 c from rfl]; unfold Pipeline.ΦA
    iintro ⟨Hp, -, Hr⟩
    isplitl [Hr]; · iexact Hr
    iexact Hp
  hout c := by
    rw [Pipeline.ownSems0_none, show (rdats m 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := unscopedBufs_of_arraysR (F := F) (rdats m) (p := 0) launch0.win launch0.arr_whole c
      ((rdats m 0 c).share_full fun _ => rfl)
      (U1 m c) (U2 m c) (fun w => (dat0 (U1 m) c).arrAt w cfg0.N) (hF0 m c) (hrest0 m c)
    rw [Pipeline.unscopedBufs_held] at hjoin
    rw [show ((rdats m 0 c).arraysAt (Pipeline.pin (pcfgs (F := F)) adm 0).N : sProp 𝕄) = (rdats m 0 c).arrays (fun w => (dat0 (U1 m) c).arrAt w cfg0.N)
      from (dat0 (U1 m) c).toR_arraysAt_eq cfg0.N]
    iintro ⟨Ha, HO, HY, Hrest⟩
    imodintro
    isplitl [Ha Hrest]
    · iapply hjoin; isplitl [Ha] <;> iassumption
    isplitl [HY]; · iexact HY
    unfold Pipeline.RDat.owesAt Pipeline.owesWithin
    icases HO with ⟨%W, -, HO⟩; iexists W; iexact HO

set_option backward.isDefEq.respectTransparency.types false in
/-- The second region over the thread state: entered from every unscoped buffer at `W3`, left with SOME valuation held
    of which the arguments' fact is known. Its arrays are split out of the unscoped buffers; at the exit each array is
    taken at whatever it then holds, and the valuation that has the arrays there and every other buffer as entered is
    the one exhibited. -/
def reg1 : Pipeline.RDat.RegionSeg (pcfgs (F := F)) adm (rdats m) () defs₀ 𝒱n Ln lvn 1 where
  win := launch1.win.to₀
  block_pos := launch1.block_pos
  stage_whole := launch1.stage_whole
  K := PEmpty
  osem k := k.elim
  ho := Pipeline.OwnSemFacts.none _
  hbody c := body_obligation1 (U3 m) c
  hwaits := Pipeline.RDat.hwaits_of_owed_zero _ _ _ _ Ln lvn 1 fun _ _ => rfl
  pre c := iprop(StableHlo.held (c : Thread nD τ) (Pipeline.ucRefs τ sig) (W3 m c) ∗ Rst c)
  post c := Tx m c
  X c := iprop(∃ r, prngReg c r)
  Y c := iprop(∃ r, prngReg c r)
  Z c := Pipeline.unscopedRest (Ix := Unit) (Name := ℕ) (U := UR sig nD τ) (Lvl := ℕ) spec1 c (U3 m c)
  hentry c := by
    rw [Pipeline.ownSems0_none]
    have hsplit := Pipeline.RDat.arrays_of_unscopedBufs (p := 1) (pcfgs (F := F)) adm (rdats m) launch1.win launch1.arr_whole c
      ((rdats m 1 c).share_full fun _ => rfl) (U3 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.RDat.owesAt Pipeline.owesWithin
      icases HO with ⟨%W, HO⟩; iexists W; isplitr; · ipureintro; exact fun _ _ => Or.inl trivial
      iexact HO
    isplitl [Hp]; · iexact Hp
    iexact Hrest
  hin c := by
    rw [show (rdats m 1 c).Φ 0 = Pipeline.ΦA spec1 c from rfl]; unfold Pipeline.ΦA
    iintro ⟨Hp, -, Hr⟩
    isplitl [Hr]; · iexact Hr
    iexact Hp
  hout c := by
    rw [Pipeline.ownSems0_none, show (rdats m 1 c).Φ (Fin.last _) = Pipeline.ΦA spec1 c from rfl]; unfold Pipeline.ΦA
    iintro ⟨Hr, Hp⟩
    isplitl [Hp]; · iexact Hp
    isplitr; · iempintro
    iexact Hr
  hexit c := by
    unfold Pipeline.RDat.arraysAt
    iintro ⟨Ha, HO, HY, Hrest⟩
    ihave Ha' := (BI.bigSep_exists_pi Finset.univ (fun w G => iprop(⌜(rdats m 1 c).ArrAt w cfg1.N G⌝
        ∗ (cfg1.win w).arr.view.loc (c.tc : Thread nD τ) ↦[(cfg1.win w).arr.view.set]{(rdats m 1 c).share w} G))) $$ Ha
    icases Ha' with ⟨%A, Ha⟩
    ihave Ha2 := (BI.bigSep_pure_sep Finset.univ (fun w => (rdats m 1 c).ArrAt w cfg1.N (A w))
        (fun w => ((cfg1.win w).arr.view.loc (c.tc : Thread nD τ) ↦[(cfg1.win w).arr.view.set]{(rdats m 1 c).share w} A w : sProp 𝕄))) $$ Ha
    icases Ha2 with ⟨-, Ha⟩
    have hjoin := unscopedBufs_of_arraysR (F := F) (rdats m) (p := 1) launch1.win launch1.arr_whole c
      ((rdats m 1 c).share_full fun _ => rfl)
      (U3 m c) (fun b => Pipeline.withArrays spec1 c (W3 m c) A (Proc.devRef .tc b)) A
      (fun w => (Pipeline.withArrays_arr spec1 launch1.win.arr_inj c _ A w).symm)
      (fun b hb => Pipeline.withArrays_of_ne spec1 c _ A b fun w e => hb (Finset.mem_image.mpr ⟨w, Finset.mem_univ _, e⟩))
    rw [Pipeline.unscopedBufs_held] at hjoin
    imodintro
    iexists (Pipeline.withArrays spec1 c (W3 m c) A)
    isplitr; · ipureintro; exact argsAt_exit1 m c A
    isplitl [Ha Hrest]
    · iapply hjoin
      isplitl [Ha]
      · unfold Pipeline.RDat.arrays; iexact Ha
      iexact Hrest
    isplitl [HY]; · iexact HY
    unfold Pipeline.RDat.owesAt Pipeline.owesWithin
    icases HO with ⟨%W, -, HO⟩; iexists W; iexact HO

/-! ## The program as segments, and the launch -/

/-- The program's five segments in order. -/
abbrev segs : List (Pipeline.RDat.Seg (pcfgs (F := F)) adm (rdats m) () defs₀ 𝒱n Ln lvn) :=
  [ .host (hseg hostOps0 hostOps0_sub hostOps0_fresh (W0 m)),
    .region (reg0 m),
    .host (hseg hostOps1 hostOps1_sub hostOps1_fresh (W2 m)),
    .region (reg1 m),
    .host (hsegX m) ]

set_option backward.isDefEq.respectTransparency.types false in
/-- THE FRAME: from any memory with zero counters, every weakly fair execution of the program on the TensorCores
    terminates, and every final state has the three argument arrays as launched. -/
theorem frame : θ_run (Cert.Kernel.defs (F := F)) (onTc (τ := Cert.Kernel.τ) (Cert.Kernel.main (F := F))) ⟨m, fun _ => 0, ρ⟩ (fun r => ∀ c : Dev Cert.Kernel.nD,
      r.2.mem ((c.tc : Thread _ _).loc Cert.Kernel.main_arg0) = m ((c.tc : Thread _ _).loc Cert.Kernel.main_arg0)
      ∧ r.2.mem ((c.tc : Thread _ _).loc Cert.Kernel.main_arg1) = m ((c.tc : Thread _ _).loc Cert.Kernel.main_arg1)
      ∧ r.2.mem ((c.tc : Thread _ _).loc Cert.Kernel.main_arg2) = m ((c.tc : Thread _ _).loc Cert.Kernel.main_arg2)) :=
  Pipeline.RDat.θ_run_regions_kit (pcfgs (F := F)) adm (rdats m) () cellOf_inj emb₁ defs₀ 𝒱n Ln lvn m ρ main (segs m)
    (fun c Q => by
      rewrite [main_chain c, Pipeline.RDat.Seg.run_eq_chain,
        show (segs m).map Pipeline.RDat.Seg.prog = [
          StableHlo.seq hostOps0,
          Prog.lift (.customCall (Pipeline.entry 0) ()),
          StableHlo.seq hostOps1,
          Prog.lift (.customCall (Pipeline.entry 1) ()),
          StableHlo.seq hostOps2 ] from rfl]
      exact .rfl)
    (by simp only [segs, Pipeline.RDat.Seg.pipes_host, Pipeline.RDat.Seg.pipes_region, Pipeline.RDat.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m c) ∗ Rst c)) (Tₙ := Tn m)
    (hch := ⟨fun _ => .rfl, fun _ => .rfl, fun _ => .rfl, fun _ => .rfl, fun _ => .rfl, fun _ => .rfl⟩)
    (hinit := by
      refine Pipeline.initEach Ln lvn fun c => ?_
      rw [show unscopedBufs c (fun b => m ((c : Thread nD τ).loc b)) = StableHlo.held (c : Thread nD τ) (Pipeline.ucRefs τ sig) (W0 m c)
        from Pipeline.unscopedBufs_held c (W0 m c)]
      iintro ⟨⟨Hh, -, HO, -, Hp, -⟩, -⟩
      imodintro
      isplitl [Hh]; · iexact Hh
      isplitl [Hp]; · iexists _; iexact Hp
      iexists ∅; iexact HO)
    (QY := fun c s => s.mem ((c.tc : Thread nD τ).loc main_arg0) = m ((c.tc : Thread nD τ).loc main_arg0)
      ∧ s.mem ((c.tc : Thread nD τ).loc main_arg1) = m ((c.tc : Thread nD τ).loc main_arg1)
      ∧ s.mem ((c.tc : Thread nD τ).loc main_arg2) = m ((c.tc : Thread nD τ).loc main_arg2))
    (hfin := fun c s' => by
      iintro ⟨⟨%Vx, %hVx, Hh, -⟩, HSI⟩
      unfold StableHlo.held
      ihave Hr := (pointsTo_read_all (Pipeline.ucRefs τ sig) (fun b => ((c : Thread nD τ).1, b)) Vx s') $$ [Hh HSI]
      · isplitl [Hh] <;> iassumption
      icases Hr with ⟨%h, HSI⟩
      imodintro
      isplitr
      · ipureintro
        obtain ⟨h0, h1, h2⟩ := hVx
        exact ⟨(h (Proc.devRef .tc main_arg0) (Finset.mem_filter.mpr ⟨StableHlo.devRef_mem_tcRefs main_arg0, by decide⟩)).trans h0,
          (h (Proc.devRef .tc main_arg1) (Finset.mem_filter.mpr ⟨StableHlo.devRef_mem_tcRefs main_arg1, by decide⟩)).trans h1,
          (h (Proc.devRef .tc main_arg2) (Finset.mem_filter.mpr ⟨StableHlo.devRef_mem_tcRefs main_arg2, by decide⟩)).trans h2⟩
      · iexact HSI)
    (hQ := fun _ h => h)

end Cert.Kernel.Hand

end
-- ==== Proof.KValue0.lean ====
/-
  The array the first region leaves: the normalised features.

  The output window's blocks are 10000 rows by 128 lanes and tile the array [100000, 128] exactly over the ten grid
  points: point t holds rows 10000 t … 10000 t + 9999, all 128 lanes, and the input window's block at t is the same rows
  of the features. The body stores, at row p and lane q of its block, the loaded entry over the clamped length of the
  loaded row p; a row of a block is a whole row of the array, so this is the normalised feature at row 10000 t + p,
  lane q. Hence what point t writes back is block t of ONE function of the features, the normalised features; row r of
  the array lies in the block of point r / 10000; and the array ends holding the normalised features everywhere.
-/
import proofs.«133917_j824633721278_2_alg».proof.Proof.KRegion0
import proofs.«133917_j824633721278_2_alg».proof.Proof.KernelPay
import proofs.«133917_j824633721278_2_alg».proof.Proof.GateSpec
import Idealize.ShloMosaic.Lib.Pipeline.Value
import Idealize.ShloMosaic.Lib.ValueIdx

set_option maxRecDepth 16384

noncomputable section

open scoped BigOperators

namespace Cert.KernelIdeal.Hand

open Cert.KernelIdeal Cert.KernelIdeal.Gen
open Idealize.ShloMosaic Idealize.ShloMosaic.TcCoe Idealize.ShloMosaic.ValueIdx
open Idealize.SL.Sem
open Idealize.ShloMosaic.Pipeline (Dat)

variable (V : (c : Dev nD) → (b : Ref sig .tc) → Buf (Elt Ideal) ((c : Thread nD τ).loc b))

/-- The whole block's rectangle starts at the origin. -/
theorem origin0 : (![0, 0] : Fin 2 → Nat) = fun _ => 0 := funext fun a => by fin_cases a <;> rfl

/-- Both windows' block at point `t` is block `(t, 0)`: row block `t`, the one lane block. -/
theorem block_index0 : ∀ t : Fin cfg0.N, win0_0.index t (0 : Fin 2) = t.val ∧ win0_0.index t (1 : Fin 2) = 0
    ∧ win0_1.index t (0 : Fin 2) = t.val ∧ win0_1.index t (1 : Fin 2) = 0 :=
  (by decide +kernel : ∀ t : Fin grid0.N, _)

/-- A block that is rows `10000 b … 10000 b + 9999` of `X` is normalised, by the body, to the same rows of the
    normalised `X`: the length of row `p` of the block is the length of row `10000 b + p` of `X`. -/
theorem normalised_of_rows (X : S100000x128.Idx → EReal) (v0 : Vec Ideal S10000x128 .f32) (b : ℕ) (hb : b < 10)
    (hv : ∀ (p : Fin 10000) (k : Fin 128),
      v0 (ix2 p k) = X (ix2 (⟨b * 10000 + p.val, by have := p.isLt; omega⟩ : Fin 100000) k))
    (p : Fin 10000) (q : Fin 128) :
    k0_pay1 (F := Ideal) v0 (ix2 p q)
      = Cert.Gate.an X (ix2 (⟨b * 10000 + p.val, by have := p.isLt; omega⟩ : Fin 100000) q) := by
  rw [Cert.KernelIdeal.Pay.pay0_apply, Cert.Gate.an_apply]
  unfold Cert.Gate.nrm Cert.Gate.sq Cert.Gate.eps
  simp only [hv]

/-- WHAT POINT `t` WRITES BACK is block `t` of the normalised features. -/
theorem written_back0 (c : Dev nD) (t : Fin cfg0.N) :
    (dat0 (F := Ideal) V c).flushed 1 t
      = ((cfg0.win 1).blk t).view.read (Elt Ideal) (Cert.Gate.an (V c main_arg0)) := by
  show (cfg0.win 1).cut (grid0.coords t) ((dat0 V c).after 1 t) = _
  rw [after0_1]
  unfold out0_1
  rw [View.canon_unit_zero origin0]
  simp only [View.ld_unit_zero (S := S10000x128) origin0]
  funext j
  obtain ⟨p, q, rfl⟩ : ∃ (p : Fin 10000) (q : Fin 128), j = ix2 p q := ⟨j 0, j 1, eq_ix2 j⟩
  obtain ⟨e0, e1, e2, e3⟩ := block_index0 t
  have ht : t.val < 10 := lt_of_lt_of_eq t.isLt N_0
  refine (normalised_of_rows (V c main_arg0) (iblk0 V c 0 t) t.val ht ?_ p q).trans ?_
  · -- the input block at `t` is rows `10000 t …` of the features
    intro p k
    show V c main_arg0 (((cfg0.win 0).blk t).view.emb (ix2 p k)) = V c main_arg0 _
    refine congrArg _ (funext fun a => Fin.ext ?_)
    match a with
    | ⟨0, _⟩ => show win0_0.index t (0 : Fin 2) * 10000 + 1 * p.val = t.val * 10000 + p.val; rw [e0]; omega
    | ⟨1, _⟩ => show win0_0.index t (1 : Fin 2) * 128 + 1 * k.val = k.val; rw [e1]; omega
  · -- and the output block at `t` sits on the same rows
    show Cert.Gate.an (V c main_arg0) _ = Cert.Gate.an (V c main_arg0) (((cfg0.win 1).blk t).view.emb (ix2 p q))
    refine congrArg _ (funext fun a => Fin.ext ?_)
    match a with
    | ⟨0, _⟩ => show t.val * 10000 + p.val = win0_1.index t (0 : Fin 2) * 10000 + 1 * p.val; rw [e2]; omega
    | ⟨1, _⟩ => show q.val = win0_1.index t (1 : Fin 2) * 128 + 1 * q.val; rw [e3]; omega

/-- An index of the array is in point `t`'s output block iff each coordinate is in the block's range on its axis. -/
theorem mem_out_block0 (t : Fin cfg0.N) (i : S100000x128.Idx) :
    i ∈ ((cfg0.win 1).blk t).view.set ↔ ∀ a : Fin 2, win0_1.index t a * S10000x128.size a ≤ (i a).val
      ∧ (i a).val < win0_1.index t a * S10000x128.size a + S10000x128.size a := by
  show i ∈ ((View.whole main_v7).slice (win0_1.rect t)).set ↔ _
  rw [View.set_slice_whole, Rect.mem_set_unit]
  exact Iff.rfl

/-- THE ARRAY AFTER THE REGION is the normalised features: row `r` is written by point `r / 10000`. -/
theorem normalised_array (c : Dev nD) :
    (dat0 (F := Ideal) V c).arrAt 1 cfg0.N = Cert.Gate.an (V c main_arg0) :=
  (dat0 (F := Ideal) V c).arrAt_eq_of_cover 1 (Cert.Gate.an (V c main_arg0)) (fun t _ => written_back0 V c t) fun i => by
    have hi0 : (i 0).val < 100000 := (i 0).isLt
    have hi1 : (i 1).val < 128 := (i 1).isLt
    have hN : cfg0.N = 10 := N_0
    refine ⟨⟨(i 0).val / 10000, by rw [hN]; omega⟩, flush0_1 _, ?_⟩
    rw [mem_out_block0]
    obtain ⟨e0, e1, e2, e3⟩ := block_index0 ⟨(i 0).val / 10000, by rw [hN]; omega⟩
    intro a
    match a with
    | ⟨0, _⟩ =>
      show win0_1.index _ (0 : Fin 2) * 10000 ≤ (i 0).val ∧ (i 0).val < win0_1.index _ (0 : Fin 2) * 10000 + 10000
      rw [e2]
      show (i 0).val / 10000 * 10000 ≤ _ ∧ _ < (i 0).val / 10000 * 10000 + 10000
      omega
    | ⟨1, _⟩ =>
      show win0_1.index _ (1 : Fin 2) * 128 ≤ (i 1).val ∧ (i 1).val < win0_1.index _ (1 : Fin 2) * 128 + 128
      rw [e3]; omega

/-- The same, read at row `r` and lane `q`. -/
theorem normalised_array_apply (c : Dev nD) (r : Fin 100000) (q : Fin 128) :
    ((dat0 (F := Ideal) V c).arrAt 1 cfg0.N : S100000x128.Idx → EReal) (ix2 r q)
      = Cert.Gate.an (V c main_arg0) (ix2 r q) := by
  rw [normalised_array]

end Cert.KernelIdeal.Hand

end
-- ==== Proof.KHost.lean ====
/-
  The host stretches of the kernel's program, read at an index on the extended reals.

  Before the first region the host builds, from the two rows of the edge list, the vector of edge sources and the
  vector of edge targets, each followed by the nodes 0 … 99999 themselves (every node is also an edge to itself).
  Between the regions it wraps negative sources by the number of nodes, gathers for every edge the row of its source
  out of the normalised features, adds the gathered rows onto the rows of their targets starting from zero, counts
  for every node the edges that land on it starting from zero, and re-lays the counts as a row and the temperature as
  a [1, 1] block. After the second region it re-lays the row of gates as a vector.

  Read at an index: row n, lane d of the aggregate is zero plus the sum, over the edges whose target index read
  exactly is n, of lane d of the row the edge's wrapped and clamped source names; the count of n is zero plus that many
  ones; the re-layings move nothing. The column of wrapped sources and the column of targets are written here as the
  very operations the reference applies to its own source and target vectors, so that on the same edge list the two
  programs' columns are the same terms.
-/
import proofs.«133917_j824633721278_2_alg».proof.Proof.Gen.KernelIdeal.Regions
import proofs.«133917_j824633721278_2_alg».proof.Proof.Gen.ReferenceIdeal.Read
import proofs.«133917_j824633721278_2_alg».proof.Proof.LibGatherRows
import proofs.«133917_j824633721278_2_alg».proof.Proof.LibScatterAddRead
import proofs.«133917_j824633721278_2_alg».proof.Proof.LibLayoutRead
import Idealize.ShloMosaic.Lib.StableHlo.Run
import Idealize.ShloMosaic.Lib.Pipeline.Value
import Idealize.ShloMosaic.Lib.ValueIdx
import Idealize.ShloMosaic.Lib.IdealHost
import Idealize.ShloMosaic.PureOps.Ideal.Laws

set_option maxRecDepth 16384

noncomputable section

open scoped BigOperators

namespace Cert.KernelIdeal.Hand

open Cert.KernelIdeal Cert.KernelIdeal.Gen
open Idealize.ShloMosaic Idealize.ShloMosaic.TcCoe Idealize.ShloMosaic.ValueIdx Idealize.ShloMosaic.StableHlo
open Idealize.SL.Sem
open Cert.GatherRows Cert.ScatterRead Cert.ScatterAddRead Cert.LayoutRead

-- `W` is the buffers' contents when a host stretch is entered.
variable (W : Valuation τ sig (Elt Ideal))

/-! ## The two index columns -/

/-- The column of source rows a gather reads: a source index below zero is moved up by the number of nodes, the
    others stay; the vector is then laid as a column. -/
def sourceColumn (s : IVec S1700000 32) : IVec S1700000x1 32 :=
  broadcastInDim S1700000x1 ![0] bcast_S1700000_S1700000x1_0
    (select (cmpi .slt s (broadcastInDim S1700000 ![] bcast_S_S1700000 (constantI S_ 32 0#32)))
      (addi s (broadcastInDim S1700000 ![] bcast_S_S1700000 (constantI S_ 32 100000#32))) s)

/-- The column of target indices a scatter reads: the vector laid as a column. -/
def targetColumn (t : IVec S1700000 32) : IVec S1700000x1 32 :=
  broadcastInDim S1700000x1 ![0] bcast_S1700000_S1700000x1_0 t

/-- Over the reference's source vector, the source column is the reference's wrapped source column. -/
theorem sourceColumn_ref (x2 : IVec S2x1600000 32) :
    sourceColumn (Cert.ReferenceIdeal.Read.val_main_v3 (F := Ideal) x2)
      = Cert.ReferenceIdeal.Read.val_main_v17 (F := Ideal) x2 := rfl

/-- Over the reference's target vector, the target column is the reference's target column. -/
theorem targetColumn_ref (x2 : IVec S2x1600000 32) :
    targetColumn (Cert.ReferenceIdeal.Read.val_main_v6 (F := Ideal) x2)
      = Cert.ReferenceIdeal.Read.val_main_v29 (F := Ideal) x2 := rfl

/-! ## Before the first region: the source and target vectors -/

/-- The source vector is the reference's: row 0 of the edge list followed by the nodes. -/
theorem host0_sources :
    (StableHlo.after hostOps0 W (Proc.devRef .tc main_v3) : S1700000.Idx → BitVec 32)
      = Cert.ReferenceIdeal.Read.val_main_v3 (F := Ideal) (W (Proc.devRef .tc main_arg2)) := by
  dsimp only [hostOps0]
  after_results
  rfl

/-- The target vector is the reference's: row 1 of the edge list followed by the nodes. -/
theorem host0_targets :
    (StableHlo.after hostOps0 W (Proc.devRef .tc main_v6) : S1700000.Idx → BitVec 32)
      = Cert.ReferenceIdeal.Read.val_main_v6 (F := Ideal) (W (Proc.devRef .tc main_arg2)) := by
  dsimp only [hostOps0]
  after_results
  rfl

/-- The first stretch writes no argument. -/
theorem host0_keeps_arg0 : StableHlo.after hostOps0 W (Proc.devRef .tc main_arg0) = W (Proc.devRef .tc main_arg0) :=
  StableHlo.after_of_writes_sub hostOps0 W hostOps0_writes (by decide)
theorem host0_keeps_arg1 : StableHlo.after hostOps0 W (Proc.devRef .tc main_arg1) = W (Proc.devRef .tc main_arg1) :=
  StableHlo.after_of_writes_sub hostOps0 W hostOps0_writes (by decide)
theorem host0_keeps_arg2 : StableHlo.after hostOps0 W (Proc.devRef .tc main_arg2) = W (Proc.devRef .tc main_arg2) :=
  StableHlo.after_of_writes_sub hostOps0 W hostOps0_writes (by decide)

/-! ## After the second region: the gates as a vector -/

/-- Element `n` of the result is lane `n` of the one row of gates. -/
theorem host2_result (n : Fin 100000) :
    (StableHlo.after hostOps2 W (Proc.devRef .tc main_v25) : S100000.Idx → EReal) (ix1 n)
      = (W (Proc.devRef .tc main_v24) : S1x100000.Idx → EReal) (ix2 (0 : Fin 1) n) := by
  dsimp only [hostOps2]
  after_results
  show shapeCast S100000 (W (Proc.devRef .tc main_v24) : S1x100000.Idx → EReal) shapeCasts_S1x100000_S100000 (ix1 n) = _
  refine shapeCast_apply (s := S1x100000) (t := S100000) _ _ (ix1 n) (ix2 (0 : Fin 1) n) ?_
  rw [Shape.rowMajor_val_two, Shape.rowMajor_val_one]
  show (0 : ℕ) * 100000 + n.val = n.val
  omega

/-- The last stretch writes no argument. -/
theorem host2_keeps_arg0 : StableHlo.after hostOps2 W (Proc.devRef .tc main_arg0) = W (Proc.devRef .tc main_arg0) :=
  StableHlo.after_of_writes_sub hostOps2 W hostOps2_writes (by decide)
theorem host2_keeps_arg1 : StableHlo.after hostOps2 W (Proc.devRef .tc main_arg1) = W (Proc.devRef .tc main_arg1) :=
  StableHlo.after_of_writes_sub hostOps2 W hostOps2_writes (by decide)
theorem host2_keeps_arg2 : StableHlo.after hostOps2 W (Proc.devRef .tc main_arg2) = W (Proc.devRef .tc main_arg2) :=
  StableHlo.after_of_writes_sub hostOps2 W hostOps2_writes (by decide)

/-! ## Between the regions: the aggregate, the counts, the temperature -/

/-- The printed dimension numbers are the row gather's, the row scatter's and the scalar scatter's. -/
theorem gatherDims_eq : gather_S100000x128_S1700000x1_S1700000x128_1_0_n_n_0_1_1128
    = rowGather 100000 1700000 128 Facts₀.gather_S100000x128_S1700000x1_S1700000x128_1_0_n_n_0_1_1128_wf := rfl
theorem rowScatterDims_eq : scatter_S100000x128_S1700000x1_S1700000x128_1_0_0_1
    = rowDims 100000 1700000 128 Facts₀.scatter_S100000x128_S1700000x1_S1700000x128_1_0_0_1_wf := rfl
theorem vecScatterDims_eq : scatter_S100000_S1700000x1_S1700000_n_0_0_1
    = vecDims 100000 1700000 Facts₀.scatter_S100000_S1700000x1_S1700000_n_0_0_1_wf := rfl

/-- THE AGGREGATE AT ROW `n`, LANE `d`: zero plus the sum, over the edges that land on `n`, of lane `d` of the
    row of the gathered matrix that the edge's source names. -/
theorem host1_aggregate (n : Fin 100000) (d : Fin 128) :
    (StableHlo.after hostOps1 W (Proc.devRef .tc main_v17) : S100000x128.Idx → EReal) (ix2 n d)
      = ((0 : EReal) + (∑ k ∈ landing (targetColumn (W (Proc.devRef .tc main_v6))) n.val,
          (W (Proc.devRef .tc main_v7) : S100000x128.Idx → EReal)
            (ix2 (row (by decide) (sourceColumn (W (Proc.devRef .tc main_v3))) k) d) : EReal)) := by
  dsimp only [hostOps1]
  after_results
  rw [rowScatterDims_eq, gatherDims_eq, scatterAdd_row_apply, bcast_scalar, constant_apply, Ideal.ofBits_zero_f32]
  simp only [gather_rows_apply (by decide : 0 < 100000)]
  rfl

/-- The same with the three buffers it reads named: `a` the gathered matrix, `s` and `t` the source and target
    vectors. -/
theorem host1_aggregate_of (a : S100000x128.Idx → EReal) (s t : IVec S1700000 32)
    (ha : W (Proc.devRef .tc main_v7) = a) (hs : W (Proc.devRef .tc main_v3) = s) (ht : W (Proc.devRef .tc main_v6) = t)
    (n : Fin 100000) (d : Fin 128) :
    (StableHlo.after hostOps1 W (Proc.devRef .tc main_v17) : S100000x128.Idx → EReal) (ix2 n d)
      = 0 + ∑ k ∈ landing (targetColumn t) n.val, a (ix2 (row (by decide) (sourceColumn s) k) d) := by
  subst ha hs ht
  exact host1_aggregate W n d

/-- And over the reference's source and target vectors of an edge list `x2`: the edges and the rows are the
    reference's. -/
theorem host1_aggregate_ref (a : S100000x128.Idx → EReal) (x2 : IVec S2x1600000 32)
    (ha : W (Proc.devRef .tc main_v7) = a)
    (hs : W (Proc.devRef .tc main_v3) = Cert.ReferenceIdeal.Read.val_main_v3 (F := Ideal) x2)
    (ht : W (Proc.devRef .tc main_v6) = Cert.ReferenceIdeal.Read.val_main_v6 (F := Ideal) x2)
    (n : Fin 100000) (d : Fin 128) :
    (StableHlo.after hostOps1 W (Proc.devRef .tc main_v17) : S100000x128.Idx → EReal) (ix2 n d)
      = 0 + ∑ k ∈ landing (Cert.ReferenceIdeal.Read.val_main_v29 (F := Ideal) x2) n.val,
          a (ix2 (row (by decide) (Cert.ReferenceIdeal.Read.val_main_v17 (F := Ideal) x2) k) d) :=
  host1_aggregate_of W a _ _ ha hs ht n d

/-- THE COUNT OF NODE `n`, in the one row: zero plus one for every edge that lands on `n`. -/
theorem host1_count (u : Fin 1) (n : Fin 100000) :
    (StableHlo.after hostOps1 W (Proc.devRef .tc main_v22) : S1x100000.Idx → EReal) (ix2 u n)
      = 0 + ∑ _k ∈ landing (targetColumn (W (Proc.devRef .tc main_v6))) n.val, (1 : EReal) := by
  dsimp only [hostOps1]
  after_results
  show shapeCast S1x100000 _ shapeCasts_S100000_S1x100000 (ix2 u n) = _
  refine (shapeCast_apply (s := S100000) (t := S1x100000) _ _ (ix2 u n) (ix1 n) ?_).trans ?_
  · rw [Shape.rowMajor_val_one, Shape.rowMajor_val_two]
    show n.val = u.val * 100000 + n.val
    have := u.isLt
    omega
  rw [vecScatterDims_eq, scatterAdd_vec_apply, bcast_scalar, constant_apply, Ideal.ofBits_zero_f32]
  simp only [bcast_scalar, constant_apply, Ideal.ofBits_one_f32]
  rfl

/-- The same with the target vector named, and over the reference's target vector. -/
theorem host1_count_of (t : IVec S1700000 32) (ht : W (Proc.devRef .tc main_v6) = t) (u : Fin 1) (n : Fin 100000) :
    (StableHlo.after hostOps1 W (Proc.devRef .tc main_v22) : S1x100000.Idx → EReal) (ix2 u n)
      = 0 + ∑ _k ∈ landing (targetColumn t) n.val, (1 : EReal) := by
  subst ht
  exact host1_count W u n

theorem host1_count_ref (x2 : IVec S2x1600000 32)
    (ht : W (Proc.devRef .tc main_v6) = Cert.ReferenceIdeal.Read.val_main_v6 (F := Ideal) x2) (u : Fin 1) (n : Fin 100000) :
    (StableHlo.after hostOps1 W (Proc.devRef .tc main_v22) : S1x100000.Idx → EReal) (ix2 u n)
      = 0 + ∑ _k ∈ landing (Cert.ReferenceIdeal.Read.val_main_v29 (F := Ideal) x2) n.val, (1 : EReal) :=
  host1_count_of W _ ht u n

/-- THE TEMPERATURE as a [1, 1] block is the one element of the argument. -/
theorem host1_temperature :
    (StableHlo.after hostOps1 W (Proc.devRef .tc main_v23) : S1x1.Idx → EReal) (ix2 (0 : Fin 1) (0 : Fin 1))
      = (W (Proc.devRef .tc main_arg1) : S1.Idx → EReal) (ix1 (0 : Fin 1)) := by
  dsimp only [hostOps1]
  after_results
  show shapeCast S1x1 (W (Proc.devRef .tc main_arg1) : S1.Idx → EReal) shapeCasts_S1_S1x1
    (ix2 (0 : Fin 1) (0 : Fin 1)) = _
  exact cast_col _ _ (0 : Fin 1) (0 : Fin 1)

/-- The middle stretch writes neither the normalised features nor an argument. -/
theorem host1_keeps_v7 : StableHlo.after hostOps1 W (Proc.devRef .tc main_v7) = W (Proc.devRef .tc main_v7) :=
  StableHlo.after_of_writes_sub hostOps1 W hostOps1_writes (by decide)
theorem host1_keeps_arg0 : StableHlo.after hostOps1 W (Proc.devRef .tc main_arg0) = W (Proc.devRef .tc main_arg0) :=
  StableHlo.after_of_writes_sub hostOps1 W hostOps1_writes (by decide)
theorem host1_keeps_arg1 : StableHlo.after hostOps1 W (Proc.devRef .tc main_arg1) = W (Proc.devRef .tc main_arg1) :=
  StableHlo.after_of_writes_sub hostOps1 W hostOps1_writes (by decide)
theorem host1_keeps_arg2 : StableHlo.after hostOps1 W (Proc.devRef .tc main_arg2) = W (Proc.devRef .tc main_arg2) :=
  StableHlo.after_of_writes_sub hostOps1 W hostOps1_writes (by decide)

end Cert.KernelIdeal.Hand

end
-- ==== Proof.KValue1.lean ====
/-
  The array the second region leaves: one gate per node.

  The output window's blocks are one row of 5888 lanes; seventeen of them cover the 100000 nodes, the last one cut to
  its leading 5792 lanes. At point t the two feature windows hold rows 5888 t … of their matrices, the counts' window
  lanes 5888 t … of the one row of counts, the temperature's window its one element. The body's lane j reads row j of
  the two feature blocks, lane j of the counts and the temperature, nothing else; on a lane the write-back moves, row j
  and lane j lie inside the arrays, where a fetched block is the array itself. So what point t writes back is block t
  of ONE function of the four arrays: at node n, the logistic of the temperature times the quotient of the dot product
  of row n of the two matrices by the larger of the n-th count and one. Node n lies in block n / 5888, at lane
  n mod 5888, which is below that block's cut; so the array ends holding that function everywhere.
-/
import proofs.«133917_j824633721278_2_alg».proof.Proof.KRegion1
import proofs.«133917_j824633721278_2_alg».proof.Proof.KernelPay
import Idealize.ShloMosaic.Lib.Pipeline.Value
import Idealize.ShloMosaic.Lib.ValueIdx

set_option maxRecDepth 16384

noncomputable section

open scoped BigOperators

namespace Cert.KernelIdeal.Hand

open Cert.KernelIdeal Cert.KernelIdeal.Gen
open Idealize.ShloMosaic Idealize.ShloMosaic.TcCoe Idealize.ShloMosaic.ValueIdx
open Idealize.SL.Sem
open Idealize.ShloMosaic.Pipeline (Dat)

variable (V : (c : Dev nD) → (b : Ref sig .tc) → Buf (Elt Ideal) ((c : Thread nD τ).loc b))

/-! ## The gate as a function of the four arrays -/

/-- The gate of node `n`: the logistic of the temperature times the dot product of row `n` of the two matrices over
    the larger of the `n`-th count and one. -/
def gateAt (x7 x17 : S100000x128.Idx → EReal) (x22 : S1x100000.Idx → EReal) (x23 : S1x1.Idx → EReal)
    (u : Fin 1) (n : Fin 100000) : EReal :=
  Ideal.logistic (x23 (ix2 (0 : Fin 1) (0 : Fin 1))
    * Ideal.div (∑ k : Fin 128, x7 (ix2 n k) * x17 (ix2 n k))
        (max (x22 (ix2 u n)) (Ideal.ofBits .f32 0x3F800000#32)))

/-- The one row of gates. -/
def gateRow (x7 x17 : S100000x128.Idx → EReal) (x22 : S1x100000.Idx → EReal) (x23 : S1x1.Idx → EReal) :
    S1x100000.Idx → EReal :=
  fun i => gateAt x7 x17 x22 x23 ⟨(i 0).val, idx2_lt0 i⟩ ⟨(i 1).val, idx2_lt1 i⟩

theorem gateRow_apply (x7 x17 : S100000x128.Idx → EReal) (x22 : S1x100000.Idx → EReal) (x23 : S1x1.Idx → EReal)
    (u : Fin 1) (n : Fin 100000) : gateRow x7 x17 x22 x23 (ix2 u n) = gateAt x7 x17 x22 x23 u n := rfl

/-! ## Where the blocks sit -/

/-- At point `t`: the feature windows are at row block `t`, the counts' and the output's at lane block `t`, the
    temperature's at the origin; and the output's block ends where the array does, at the latest. -/
theorem block_index1 : ∀ t : Fin cfg1.N,
    win1_0.index t (0 : Fin 2) = t.val ∧ win1_0.index t (1 : Fin 2) = 0
    ∧ win1_1.index t (0 : Fin 2) = t.val ∧ win1_1.index t (1 : Fin 2) = 0
    ∧ win1_2.index t (0 : Fin 2) = 0 ∧ win1_2.index t (1 : Fin 2) = t.val
    ∧ win1_3.index t (0 : Fin 2) = 0 ∧ win1_3.index t (1 : Fin 2) = 0
    ∧ win1_4.index t (0 : Fin 2) = 0 ∧ win1_4.index t (1 : Fin 2) = t.val
    ∧ t.val * 5888 + win1_4.xsize (grid1.coords t) 1 = min (t.val * 5888 + 5888) 100000 :=
  (by decide +kernel : ∀ t : Fin grid1.N, _)

/-- On the part a transfer moves, a filled block reads what it was filled with. -/
theorem fill_moved {α : Type} (w : Pipeline.Window sig grid1) (i : grid1.Coords) (d : w.block.Idx → α)
    (g : (w.xblock i).Idx → α) (j : w.block.Idx) (h : w.moved i j = true) :
    w.fill i d g j = g fun a => ⟨(j a).val, (w.moved_iff i j).mp h a⟩ := by
  unfold Pipeline.Window.fill; rw [dif_pos h]

/-! ## What a point writes back -/

/-- Blocks whose row `l` is row `n` of the two matrices, whose lane `l` is the `n`-th count, and whose temperature
    is the temperature, store at lane `l` the gate of node `n`. -/
theorem gate_of_rows (x7 x17 : S100000x128.Idx → EReal) (x22 : S1x100000.Idx → EReal) (x23 : S1x1.Idx → EReal)
    (v0 v1 : Vec Ideal S5888x128 .f32) (v2 : Vec Ideal S1x5888 .f32) (v3 : Vec Ideal S1x1 .f32)
    (n : Fin 100000) (u : Fin 1) (l : Fin 5888)
    (h0 : ∀ k : Fin 128, v0 (ix2 l k) = x7 (ix2 n k)) (h1 : ∀ k : Fin 128, v1 (ix2 l k) = x17 (ix2 n k))
    (h2 : v2 (ix2 u l) = x22 (ix2 u n)) (h3 : v3 (ix2 (0 : Fin 1) (0 : Fin 1)) = x23 (ix2 (0 : Fin 1) (0 : Fin 1))) :
    k1_pay1 (F := Ideal) v0 v1 v2 v3 (ix2 u l) = gateRow x7 x17 x22 x23 (ix2 u n) := by
  rw [Cert.KernelIdeal.Pay.pay1_apply, gateRow_apply]
  unfold gateAt
  simp only [h0, h1, h2, h3]

/-- WHAT POINT `t` WRITES BACK is block `t` of the row of gates. -/
theorem written_back1 (c : Dev nD) (t : Fin cfg1.N) :
    (dat1 V c).flushed 4 t
      = ((cfg1.win 4).blk t).view.read (Elt Ideal)
          (gateRow (V c main_v7) (V c main_v17) (V c main_v22) (V c main_v23)) := by
  show win1_4.cut (grid1.coords t) ((dat1 V c).after 4 t) = _
  rw [after1_4]
  obtain ⟨h00, h01, h10, h11, h20, h21, h40⟩ := xs t
  obtain ⟨i00, i01, i10, i11, i20, i21, i30, i31, i40, i41, hx4⟩ := block_index1 t
  funext j
  have hj1 : (j 1).val < win1_4.xsize (grid1.coords t) 1 := (j 1).isLt
  have hj0 : (j 0).val < win1_4.xsize (grid1.coords t) 0 := (j 0).isLt
  have hl : (j 1).val < 5888 := lt_of_lt_of_le hj1 (win1_4.xsize_le (grid1.coords t) 1)
  have hu : (j 0).val < 1 := by rw [h40] at hj0; exact hj0
  have hn : t.val * 5888 + (j 1).val < 100000 := by omega
  have hx : win1_4.xinj (grid1.coords t) j = ix2 (⟨(j 0).val, hu⟩ : Fin 1) (⟨(j 1).val, hl⟩ : Fin 5888) :=
    funext fun a => by match a with | ⟨0, _⟩ => rfl | ⟨1, _⟩ => rfl
  show a4 V c t (win1_4.xinj (grid1.coords t) j) = _
  rw [hx]
  unfold a4
  refine (gate_of_rows (V c main_v7) (V c main_v17) (V c main_v22) (V c main_v23) (a0 V c t) (a1 V c t) (a2 V c t) (a3 V c t)
    ⟨t.val * 5888 + (j 1).val, hn⟩ ⟨(j 0).val, hu⟩ ⟨(j 1).val, hl⟩ ?_ ?_ ?_ ?_).trans ?_
  · -- row `j 1` of the first feature block is row `5888 t + j 1` of the first matrix
    intro k
    unfold a0
    rw [fill_moved win1_0 _ _ _ _ ((win1_0.moved_iff _ _).mpr fun a => by
      match a with
      | ⟨0, _⟩ => show (j 1).val < win1_0.xsize (grid1.coords t) 0; rw [h00]; exact hj1
      | ⟨1, _⟩ => show k.val < win1_0.xsize (grid1.coords t) 1; rw [h01]; exact k.isLt)]
    show V c main_v7 (((cfg1.win 0).blk t).view.emb _) = V c main_v7 _
    refine congrArg _ (funext fun a => Fin.ext ?_)
    match a with
    | ⟨0, _⟩ => show win1_0.index t (0 : Fin 2) * 5888 + 1 * (j 1).val = t.val * 5888 + (j 1).val; rw [i00]; omega
    | ⟨1, _⟩ => show win1_0.index t (1 : Fin 2) * 128 + 1 * k.val = k.val; rw [i01]; omega
  · -- the same for the second feature block
    intro k
    unfold a1
    rw [fill_moved win1_1 _ _ _ _ ((win1_1.moved_iff _ _).mpr fun a => by
      match a with
      | ⟨0, _⟩ => show (j 1).val < win1_1.xsize (grid1.coords t) 0; rw [h10]; exact hj1
      | ⟨1, _⟩ => show k.val < win1_1.xsize (grid1.coords t) 1; rw [h11]; exact k.isLt)]
    show V c main_v17 (((cfg1.win 1).blk t).view.emb _) = V c main_v17 _
    refine congrArg _ (funext fun a => Fin.ext ?_)
    match a with
    | ⟨0, _⟩ => show win1_1.index t (0 : Fin 2) * 5888 + 1 * (j 1).val = t.val * 5888 + (j 1).val; rw [i10]; omega
    | ⟨1, _⟩ => show win1_1.index t (1 : Fin 2) * 128 + 1 * k.val = k.val; rw [i11]; omega
  · -- lane `j 1` of the counts' block is the count of node `5888 t + j 1`
    unfold a2
    rw [fill_moved win1_2 _ _ _ _ ((win1_2.moved_iff _ _).mpr fun a => by
      match a with
      | ⟨0, _⟩ => show (j 0).val < win1_2.xsize (grid1.coords t) 0; rw [h20]; exact hu
      | ⟨1, _⟩ => show (j 1).val < win1_2.xsize (grid1.coords t) 1; rw [h21]; exact hj1)]
    show V c main_v22 (((cfg1.win 2).blk t).view.emb _) = V c main_v22 _
    refine congrArg _ (funext fun a => Fin.ext ?_)
    match a with
    | ⟨0, _⟩ => show win1_2.index t (0 : Fin 2) * 1 + 1 * (j 0).val = (j 0).val; rw [i20]; omega
    | ⟨1, _⟩ => show win1_2.index t (1 : Fin 2) * 5888 + 1 * (j 1).val = t.val * 5888 + (j 1).val; rw [i21]; omega
  · -- the temperature's block is the temperature
    unfold a3
    show V c main_v23 (((cfg1.win 3).blk t).view.emb (ix2 (0 : Fin 1) (0 : Fin 1))) = V c main_v23 _
    refine congrArg _ (funext fun a => Fin.ext ?_)
    match a with
    | ⟨0, _⟩ => show win1_3.index t (0 : Fin 2) * 1 + 1 * 0 = 0; rw [i30]
    | ⟨1, _⟩ => show win1_3.index t (1 : Fin 2) * 1 + 1 * 0 = 0; rw [i31]
  · -- and lane `j 1` of the output block is node `5888 t + j 1` of the row
    show gateRow (V c main_v7) (V c main_v17) (V c main_v22) (V c main_v23)
        (ix2 (⟨(j 0).val, hu⟩ : Fin 1) (⟨t.val * 5888 + (j 1).val, hn⟩ : Fin 100000))
      = gateRow (V c main_v7) (V c main_v17) (V c main_v22) (V c main_v23) (((cfg1.win 4).blk t).view.emb j)
    refine congrArg _ (funext fun a => Fin.ext ?_)
    match a with
    | ⟨0, _⟩ => show (j 0).val = win1_4.index t (0 : Fin 2) * 1 + 1 * (j 0).val; rw [i40]; omega
    | ⟨1, _⟩ => show t.val * 5888 + (j 1).val = win1_4.index t (1 : Fin 2) * 5888 + 1 * (j 1).val; rw [i41]; omega

/-! ## The array after the region -/

/-- An index of the row is in point `t`'s output block iff each coordinate is in the block's moved range on its axis. -/
theorem mem_out_block1 (t : Fin cfg1.N) (i : S1x100000.Idx) :
    i ∈ ((cfg1.win 4).blk t).view.set ↔ ∀ a : Fin 2, win1_4.index t a * S1x5888.size a ≤ (i a).val
      ∧ (i a).val < win1_4.index t a * S1x5888.size a + win1_4.xsize (grid1.coords t) a := by
  show i ∈ ((View.whole main_v24).slice (win1_4.rect t)).set ↔ _
  rw [View.set_slice_whole, Rect.mem_set_unit]
  exact Iff.rfl

/-- THE ARRAY AFTER THE REGION is the row of gates: node `n` is written by point `n / 5888`. -/
theorem gate_array (c : Dev nD) :
    (dat1 V c).arrAt 4 cfg1.N = gateRow (V c main_v7) (V c main_v17) (V c main_v22) (V c main_v23) :=
  (dat1 V c).arrAt_eq_of_cover 4 (gateRow (V c main_v7) (V c main_v17) (V c main_v22) (V c main_v23))
    (fun t _ => written_back1 V c t) fun i => by
    have hi0 : (i 0).val < 1 := (i 0).isLt
    have hi1 : (i 1).val < 100000 := (i 1).isLt
    have ht : (i 1).val / 5888 < cfg1.N := by rw [show cfg1.N = 17 from N_1]; omega
    refine ⟨⟨(i 1).val / 5888, ht⟩, flush1_4 _, ?_⟩
    rw [mem_out_block1]
    obtain ⟨-, -, -, -, -, -, -, -, i40, i41, hx4⟩ := block_index1 ⟨(i 1).val / 5888, ht⟩
    obtain ⟨-, -, -, -, -, -, h40⟩ := xs ⟨(i 1).val / 5888, ht⟩
    have hx4' : (i 1).val / 5888 * 5888 + win1_4.xsize (grid1.coords ⟨(i 1).val / 5888, ht⟩) 1
        = min ((i 1).val / 5888 * 5888 + 5888) 100000 := hx4
    intro a
    match a with
    | ⟨0, _⟩ =>
      show win1_4.index ⟨(i 1).val / 5888, ht⟩ (0 : Fin 2) * 1 ≤ (i 0).val
        ∧ (i 0).val < win1_4.index ⟨(i 1).val / 5888, ht⟩ (0 : Fin 2) * 1 + win1_4.xsize (grid1.coords ⟨(i 1).val / 5888, ht⟩) 0
      rw [i40, h40]; omega
    | ⟨1, _⟩ =>
      show win1_4.index ⟨(i 1).val / 5888, ht⟩ (1 : Fin 2) * 5888 ≤ (i 1).val
        ∧ (i 1).val < win1_4.index ⟨(i 1).val / 5888, ht⟩ (1 : Fin 2) * 5888 + win1_4.xsize (grid1.coords ⟨(i 1).val / 5888, ht⟩) 1
      rw [i41]
      show (i 1).val / 5888 * 5888 ≤ (i 1).val
        ∧ (i 1).val < (i 1).val / 5888 * 5888 + win1_4.xsize (grid1.coords ⟨(i 1).val / 5888, ht⟩) 1
      omega

/-- The same, read at node `n`. -/
theorem gate_array_apply (c : Dev nD) (u : Fin 1) (n : Fin 100000) :
    ((dat1 V c).arrAt 4 cfg1.N : S1x100000.Idx → EReal) (ix2 u n)
      = gateAt (V c main_v7) (V c main_v17) (V c main_v22) (V c main_v23) u n := by
  rw [gate_array, gateRow_apply]

/-- And with the four arrays named, written out. -/
theorem gate_array_apply_of (c : Dev nD) (x7 x17 : S100000x128.Idx → EReal) (x22 : S1x100000.Idx → EReal)
    (x23 : S1x1.Idx → EReal) (h7 : V c main_v7 = x7) (h17 : V c main_v17 = x17) (h22 : V c main_v22 = x22)
    (h23 : V c main_v23 = x23) (u : Fin 1) (n : Fin 100000) :
    ((dat1 V c).arrAt 4 cfg1.N : S1x100000.Idx → EReal) (ix2 u n)
      = Ideal.logistic (x23 (ix2 (0 : Fin 1) (0 : Fin 1))
          * Ideal.div (∑ k : Fin 128, x7 (ix2 n k) * x17 (ix2 n k))
              (max (x22 (ix2 u n)) (Ideal.ofBits .f32 0x3F800000#32))) := by
  subst h7 h17 h22 h23
  exact gate_array_apply V c u n

end Cert.KernelIdeal.Hand

end
-- ==== Proof.KAlg.lean ====
/-
  What the idealized kernel returns, node by node, is the gate.

  The buffers' contents at the boundaries between @main's items are a fold from the launch memory. After the first
  region the normalised features; after the host stretch between the regions the lane-wise sums of the gathered rows,
  the counts as a row and the temperature as a [1,1] block, all read at an index; after the second region, at node n, the
  logistic of the temperature times the quotient of the dot product of row n of the normalised features with row n of
  those sums by the clamped count; the closing reshape reads that row as a vector. Spelt out this is the gate, with the
  lane-wise sum taken first — the arrangement the specification's `gate` is written in, so no law is needed on this side.
-/
import proofs.«133917_j824633721278_2_alg».proof.Proof.KRun
import proofs.«133917_j824633721278_2_alg».proof.Proof.KValue0
import proofs.«133917_j824633721278_2_alg».proof.Proof.KHost
import proofs.«133917_j824633721278_2_alg».proof.Proof.KValue1
import proofs.«133917_j824633721278_2_alg».proof.Proof.GateSpec
import Idealize.ShloMosaic.Lib.IdealHost

noncomputable section

open scoped BigOperators

namespace Cert.KernelIdeal.Hand

open Cert.KernelIdeal Cert.KernelIdeal.Gen
open Idealize.ShloMosaic Idealize.ShloMosaic.TcCoe Idealize.ShloMosaic.ValueIdx Idealize.SL.Sem
open Cert.Gate Cert.GatherRows Cert.ScatterAddRead

variable (m : (ℓ : Loc nD τ sig) → Buf (Elt Ideal) ℓ) (ρ : Dev nD → PrngReg)

/-! ## The arguments and the two index vectors at the boundaries -/

theorem W1_arg0 (c : Dev nD) : W1 m ρ c (Proc.devRef .tc main_arg0) = m ((c : Thread nD τ).loc main_arg0) :=
  (host0_keeps_arg0 (W0 m ρ c)).trans rfl
theorem W2_arg1 (c : Dev nD) : W2 m ρ c (Proc.devRef .tc main_arg1) = m ((c : Thread nD τ).loc main_arg1) :=
  (W2_of_ne m ρ c main_arg1 (by decide)).trans ((host0_keeps_arg1 (W0 m ρ c)).trans rfl)
theorem W2_v3 (c : Dev nD) : (W2 m ρ c (Proc.devRef .tc main_v3) : S1700000.Idx → BitVec 32)
    = Cert.ReferenceIdeal.Read.val_main_v3 (F := Ideal) (m ((c : Thread nD τ).loc main_arg2)) :=
  (W2_of_ne m ρ c main_v3 (by decide)).trans (host0_sources (W0 m ρ c))
theorem W2_v6 (c : Dev nD) : (W2 m ρ c (Proc.devRef .tc main_v6) : S1700000.Idx → BitVec 32)
    = Cert.ReferenceIdeal.Read.val_main_v6 (F := Ideal) (m ((c : Thread nD τ).loc main_arg2)) :=
  (W2_of_ne m ρ c main_v6 (by decide)).trans (host0_targets (W0 m ρ c))

/-- After the first region the output array holds the normalised features of the launch contents. -/
theorem W2_v7 (c : Dev nD) : (W2 m ρ c (Proc.devRef .tc main_v7) : S100000x128.Idx → EReal)
    = an (m ((c : Thread nD τ).loc main_arg0)) :=
  (W2_arr m ρ c 1).trans ((normalised_array (V1 m ρ) c).trans (congrArg an (W1_arg0 m ρ c)))

/-! ## The second region's inputs -/

theorem W3_v7 (c : Dev nD) : (W3 m ρ c (Proc.devRef .tc main_v7) : S100000x128.Idx → EReal)
    = an (m ((c : Thread nD τ).loc main_arg0)) :=
  (host1_keeps_v7 (W2 m ρ c)).trans (W2_v7 m ρ c)

theorem W3_v17 (c : Dev nD) (n : Fin 100000) (d : Fin 128) :
    (W3 m ρ c (Proc.devRef .tc main_v17) : S100000x128.Idx → EReal) (ix2 n d)
      = 0 + ∑ k ∈ landing (Cert.ReferenceIdeal.Read.val_main_v29 (F := Ideal) (m ((c : Thread nD τ).loc main_arg2))) n.val,
          an (m ((c : Thread nD τ).loc main_arg0))
            (ix2 (row (by decide) (Cert.ReferenceIdeal.Read.val_main_v17 (F := Ideal) (m ((c : Thread nD τ).loc main_arg2))) k) d) :=
  host1_aggregate_ref (W2 m ρ c) _ _ (W2_v7 m ρ c) (W2_v3 m ρ c) (W2_v6 m ρ c) n d

theorem W3_v22 (c : Dev nD) (u : Fin 1) (n : Fin 100000) :
    (W3 m ρ c (Proc.devRef .tc main_v22) : S1x100000.Idx → EReal) (ix2 u n)
      = 0 + ∑ _k ∈ landing (Cert.ReferenceIdeal.Read.val_main_v29 (F := Ideal) (m ((c : Thread nD τ).loc main_arg2))) n.val, (1 : EReal) :=
  host1_count_ref (W2 m ρ c) _ (W2_v6 m ρ c) u n

theorem W3_v23 (c : Dev nD) : (W3 m ρ c (Proc.devRef .tc main_v23) : S1x1.Idx → EReal) (ix2 (0 : Fin 1) (0 : Fin 1))
    = (m ((c : Thread nD τ).loc main_arg1) : S1.Idx → EReal) (ix1 (0 : Fin 1)) :=
  (host1_temperature (W2 m ρ c)).trans (congrFun (W2_arg1 m ρ c) _)

/-! ## The second region's output, and the result -/

/-- THE KERNEL'S RESULT AT NODE `n` IS THE GATE of the normalised features of the launch contents, the temperature, the
    wrapped source column and the target column: the closing reshape reads the second region's output row, which at
    node `n` is the logistic of the temperature times the quotient of the dot product of row `n` of the normalised
    features with row `n` of the lane-wise sums by the clamped count. -/
theorem kernel_value (c : Dev nD) (n : Fin 100000) :
    (W5 m ρ c (Proc.devRef .tc main_v25) : S100000.Idx → EReal) (ix1 n)
      = gate (an (m ((c : Thread nD τ).loc main_arg0)))
          ((m ((c : Thread nD τ).loc main_arg1) : S1.Idx → EReal) (ix1 (0 : Fin 1)))
          (Cert.ReferenceIdeal.Read.val_main_v17 (F := Ideal) (m ((c : Thread nD τ).loc main_arg2)))
          (Cert.ReferenceIdeal.Read.val_main_v29 (F := Ideal) (m ((c : Thread nD τ).loc main_arg2))) n := by
  refine (host2_result (W4 m ρ c) n).trans ?_
  have key : ∀ (x17 : S100000x128.Idx → EReal) (x22 : S1x100000.Idx → EReal) (x23 : S1x1.Idx → EReal),
      V3 m ρ c main_v17 = x17 → V3 m ρ c main_v22 = x22 → V3 m ρ c main_v23 = x23 →
      (∀ d : Fin 128, x17 (ix2 n d)
        = 0 + ∑ k ∈ landing (Cert.ReferenceIdeal.Read.val_main_v29 (F := Ideal) (m ((c : Thread nD τ).loc main_arg2))) n.val,
            an (m ((c : Thread nD τ).loc main_arg0))
              (ix2 (row (by decide) (Cert.ReferenceIdeal.Read.val_main_v17 (F := Ideal) (m ((c : Thread nD τ).loc main_arg2))) k) d)) →
      x22 (ix2 (0 : Fin 1) n)
        = 0 + ∑ _k ∈ landing (Cert.ReferenceIdeal.Read.val_main_v29 (F := Ideal) (m ((c : Thread nD τ).loc main_arg2))) n.val, (1 : EReal) →
      x23 (ix2 (0 : Fin 1) (0 : Fin 1)) = (m ((c : Thread nD τ).loc main_arg1) : S1.Idx → EReal) (ix1 (0 : Fin 1)) →
      (W4 m ρ c (Proc.devRef .tc main_v24) : S1x100000.Idx → EReal) (ix2 (0 : Fin 1) n)
        = gate (an (m ((c : Thread nD τ).loc main_arg0)))
            ((m ((c : Thread nD τ).loc main_arg1) : S1.Idx → EReal) (ix1 (0 : Fin 1)))
            (Cert.ReferenceIdeal.Read.val_main_v17 (F := Ideal) (m ((c : Thread nD τ).loc main_arg2)))
            (Cert.ReferenceIdeal.Read.val_main_v29 (F := Ideal) (m ((c : Thread nD τ).loc main_arg2))) n := by
    intro x17 x22 x23 h17 h22 h23 e17 e22 e23
    rw [show W4 m ρ c (Proc.devRef .tc main_v24) = (dat1 (V3 m ρ) c).arrAt 4 cfg1.N from W4_arr m ρ c 4,
      gate_array_apply_of (V3 m ρ) c _ x17 x22 x23 (W3_v7 m ρ c) h17 h22 h23 (0 : Fin 1) n]
    unfold gate
    rw [e23, e22, Ideal.ofBits_one_f32]
    simp only [e17]
  exact key _ _ _ rfl rfl rfl (fun d => W3_v17 m ρ c n d) (W3_v22 m ρ c (0 : Fin 1) n) (W3_v23 m ρ c)

end Cert.KernelIdeal.Hand

end
-- ==== Proof.Finite.lean ====
/-
  Under the precondition every feature is a real number.

  The precondition is "all |x| < +inf" over the features and over the temperature, the two conjoined. An extended real
  whose absolute value max x (-x) is strictly below +inf is neither infinity, so it is a real number. Only the
  features' half is used: the law that joins the two programs needs finite features, and needs nothing of the
  temperature.
-/
import proofs.«133917_j824633721278_2_alg».proof.Pre_finite_inputs
import proofs.«133917_j824633721278_2_alg».proof.Proof.Gen.Pre_finite_inputs
import Idealize.ShloMosaic.PureOps.Ideal
import Idealize.ShloMosaic.Lib.ReduceAll
import Idealize.ShloMosaic.Lib.Affine
import Idealize.ShloMosaic.Lib.ValueIdx

noncomputable section

namespace Cert.Finite

open Idealize.ShloMosaic Idealize.ShloMosaic.ValueIdx
open Cert.Pre_finite_inputs Cert.Pre_finite_inputs.Gen

instance : Subsingleton S_.Idx := ⟨fun _ _ => funext fun d => d.elim0⟩

/-- An extended real whose absolute value is strictly below the pattern of +inf is a real number. -/
theorem real_of_abs_lt (x : EReal)
    (h : Ideal.cmp .olt (max x (-x)) (Ideal.ofBits .f32 0x7F800000#32) = 1#1) : ∃ v : ℝ, x = (v : EReal) := by
  have hinf : Ideal.ofBits .f32 0x7F800000#32 = ⊤ := by simp [Ideal.ofBits, Ideal.ieee]
  rw [hinf] at h
  have hlt : max x (-x) < ⊤ := by
    by_contra hn
    unfold Ideal.cmp at h
    simp [hn] at h
  induction x using EReal.rec with
  | bot => simp at hlt
  | coe v => exact ⟨v, rfl⟩
  | top => simp at hlt

/-- Under the precondition every entry of the features is a real number. -/
theorem features_real (x0 : FVec Ideal S100000x128 .f32) (x1 : FVec Ideal S1 .f32) (x2 : IVec S2x1600000 32)
    (h : Cert.Pre_finite_inputs.fn (F := Ideal) x0 x1 x2 = fun _ => 1#1) (i : S100000x128.Idx) :
    ∃ v : ℝ, x0 i = (v : EReal) := by
  have h0 := congrFun h ix0
  dsimp only [Cert.Pre_finite_inputs.fn] at h0
  have h1 := (IntOp.andi_eq_one.mp h0).1
  have h2 := Host.reduce_andi_all _ _ _ _ _ h1 i
  exact real_of_abs_lt (x0 i) h2

end Cert.Finite

end
-- ==== Proof.lean ====
/-
  The claims of this certificate.

  The reference is a host program: its frame is its run with the result dropped. The idealization rewrote nothing, so
  `preserves` asks nothing. What the two idealized programs compute is the homophily gate (Proof/GateSpec.lean): the
  reference with the sum over the edges taken last (Proof/RefSide.lean, `ref_apply`), the kernel with the lane-wise
  sum of the gathered rows taken first; the two agree on real features by distributivity and an exchange of sums
  (`dot_agg_eq_sum_sim`).
-/
import proofs.«133917_j824633721278_2_alg».proof.Defs
import proofs.«133917_j824633721278_2_alg».proof.Proof.Gen.Kernel
import proofs.«133917_j824633721278_2_alg».proof.Proof.Gen.Kernel.Skeleton
import proofs.«133917_j824633721278_2_alg».proof.Proof.Gen.Kernel.Launch
import proofs.«133917_j824633721278_2_alg».proof.Proof.Gen.Kernel.Regions
import proofs.«133917_j824633721278_2_alg».proof.Proof.Gen.Kernel.Points
import proofs.«133917_j824633721278_2_alg».proof.Proof.Gen.KernelIdeal
import proofs.«133917_j824633721278_2_alg».proof.Proof.Gen.KernelIdeal.Skeleton
import proofs.«133917_j824633721278_2_alg».proof.Proof.Gen.KernelIdeal.Launch
import proofs.«133917_j824633721278_2_alg».proof.Proof.Gen.KernelIdeal.Regions
import proofs.«133917_j824633721278_2_alg».proof.Proof.Gen.KernelIdeal.Points
import proofs.«133917_j824633721278_2_alg».proof.Proof.Gen.ReferenceIdeal
import proofs.«133917_j824633721278_2_alg».proof.Proof.Gen.ReferenceIdeal.Run
import proofs.«133917_j824633721278_2_alg».proof.Proof.Gen.Pre_finite_inputs
import proofs.«133917_j824633721278_2_alg».proof.Proof.RefSide
import proofs.«133917_j824633721278_2_alg».proof.Proof.KRun
import proofs.«133917_j824633721278_2_alg».proof.Proof.KFrameB2
import proofs.«133917_j824633721278_2_alg».proof.Proof.KAlg
import proofs.«133917_j824633721278_2_alg».proof.Proof.Finite
import Idealize.ShloMosaic.Adequacy
import Idealize.ShloMosaic.Init

noncomputable section

namespace Cert.Proof

open Idealize.ShloMosaic Idealize.SL.Sem

/-- The reference runs to the end, faults nowhere and leaves its arguments as launched: its run, the result dropped. -/
theorem frame_ri [Cert.ReferenceIdeal.Facts] [Cert.Pre_finite_inputs.Facts] : Cert.frame_ReferenceIdeal := fun m ρ _ =>
  (θ_run Cert.ReferenceIdeal.defs _ _).mono (fun _ h c => (h c).2) (Cert.ReferenceIdeal.Value.run (F := Ideal) m ρ)

/-- The kernel as printed runs to the end, faults nowhere and leaves its arguments as launched. Nothing is said of what
    it computes: at the word level a lane sum is not known to read only its own row, and the last block's rows past the
    arrays' end hold contents nothing names, so the frame is proved with the output's contents left unnamed. -/
theorem frame_k [Cert.Kernel.Facts] [Cert.Pre_finite_inputs.Facts] : Cert.frame_Kernel := fun m ρ _ =>
  Cert.Kernel.Hand.frame (F := Bits) m ρ

/-- The idealized kernel runs to the end, faults nowhere and leaves its arguments as launched: its run, the result dropped. -/
theorem frame_ki [Cert.KernelIdeal.Facts] [Cert.Pre_finite_inputs.Facts] : Cert.frame_KernelIdeal := fun m ρ _ =>
  (θ_run Cert.KernelIdeal.defs _ _).mono (fun _ h c => (h c).2) (Cert.KernelIdeal.Hand.run m ρ)

/-- The idealization rewrote no operation: nothing to preserve. -/
theorem preserves : Cert.preserves_Kernel_KernelIdeal := trivial

/-- At the ideal instance the two programs, run from memories that agree on the arguments, end with equal results: the
    kernel's is the gate of the normalised features with the lane-wise sum taken first (its run, with the result named
    by the fold of the buffers' contents), the reference's is the gate with the sum over the edges taken last, and on
    real features — which the precondition gives — the two arrangements agree. -/
theorem algebraic [Cert.KernelIdeal.Facts] [Cert.ReferenceIdeal.Facts] [Cert.Pre_finite_inputs.Facts] :
    Cert.algebraic_KernelIdeal_ReferenceIdeal := by
  intro m ρ m' ρ' hpre hagree
  refine ⟨fun c => Cert.KernelIdeal.Hand.W5 m ρ c (Proc.devRef .tc Cert.KernelIdeal.main_v25),
    Cert.KernelIdeal.Hand.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v45_eq, (hagree c).1, (hagree c).2.1, (hagree c).2.2]
  funext i
  obtain ⟨n, rfl⟩ : ∃ n : Fin 100000, i = Idealize.ShloMosaic.ValueIdx.ix1 n := ⟨i 0, Idealize.ShloMosaic.ValueIdx.eq_ix1 i⟩
  rw [Cert.ReferenceIdeal.RefValue.ref_apply _ _ _ (Cert.Finite.features_real _ _ _ (hpre c)) n]
  exact (Cert.KernelIdeal.Hand.kernel_value m ρ c n).symm

theorem claim : Cert.Claim := ⟨Cert.Kernel.Gen.facts, Cert.KernelIdeal.Gen.facts, Cert.ReferenceIdeal.Gen.facts, Cert.Pre_finite_inputs.Gen.facts, by
  exact ⟨frame_k, frame_ki, frame_ri, preserves, algebraic⟩⟩

end Cert.Proof

end
